-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S16384x21 : Shape := ⟨2, ![16384, 21]⟩
abbrev S16384x39 : Shape := ⟨2, ![16384, 39]⟩
abbrev S1000001x64 : Shape := ⟨2, ![1000001, 64]⟩
abbrev S500001x64 : Shape := ⟨2, ![500001, 64]⟩
abbrev S64x85 : Shape := ⟨2, ![64, 85]⟩
abbrev S64 : Shape := ⟨1, ![64]⟩
abbrev S64x103 : Shape := ⟨2, ![64, 103]⟩
abbrev S256x128 : Shape := ⟨2, ![256, 128]⟩
abbrev S256 : Shape := ⟨1, ![256]⟩
abbrev S1x256 : Shape := ⟨2, ![1, 256]⟩
abbrev S1 : Shape := ⟨1, ![1]⟩
abbrev S_ : Shape := ⟨0, ![]⟩

class Facts : Prop where
  bcast_S_S16384x21 : S_.BroadcastsInDim S16384x21 (![] : Fin 0 → Fin S16384x21.rank)
  reducesTo_S16384x21_S_d0_1 : S16384x21.ReducesTo [0, 1] S_
  h_S_ : 0 < S_.numel
  bcast_S_S16384x39 : S_.BroadcastsInDim S16384x39 (![] : Fin 0 → Fin S16384x39.rank)
  reducesTo_S16384x39_S_d0_1 : S16384x39.ReducesTo [0, 1] S_
  bcast_S_S1000001x64 : S_.BroadcastsInDim S1000001x64 (![] : Fin 0 → Fin S1000001x64.rank)
  reducesTo_S1000001x64_S_d0_1 : S1000001x64.ReducesTo [0, 1] S_
  bcast_S_S500001x64 : S_.BroadcastsInDim S500001x64 (![] : Fin 0 → Fin S500001x64.rank)
  reducesTo_S500001x64_S_d0_1 : S500001x64.ReducesTo [0, 1] S_
  bcast_S_S64x85 : S_.BroadcastsInDim S64x85 (![] : Fin 0 → Fin S64x85.rank)
  reducesTo_S64x85_S_d0_1 : S64x85.ReducesTo [0, 1] S_
  bcast_S_S64 : S_.BroadcastsInDim S64 (![] : Fin 0 → Fin S64.rank)
  reducesTo_S64_S_d0 : S64.ReducesTo [0] S_
  bcast_S_S64x103 : S_.BroadcastsInDim S64x103 (![] : Fin 0 → Fin S64x103.rank)
  reducesTo_S64x103_S_d0_1 : S64x103.ReducesTo [0, 1] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S1x256 .f32) (main_v50 : FVec F S1x256 .f32) : IVec S_ 1 :=
  let main_v51 : IVec S1x256 1 := cmpf .olt main_v49 main_v50
  let main_c_19 : IVec S_ 1 := constantI S_ 1 1#1
  let main_v52 : IVec S_ 1 := (fun x v => Host.reduce IntOp.andi x v reducesTo_S1x256_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S64 .f32) (main_arg10 : FVec F S256x128 .f32) (main_arg11 : FVec F S256 .f32) (main_arg12 : FVec F S1x256 .f32) (main_arg13 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S1x256 .f32 := Host.absf main_arg12
  let main_cst_18 : FVec F S_ .f32 := constant S_ .f32 0x7F800000#32
  let main_v50 : FVec F S1x256 .f32 := broadcastInDim S1x256 ![] bcast_S_S1x256 main_cst_18
  fn_part3 (F := F) main_arg13 main_v48 main_v49 main_v50

def fn_part1 {F : FTy → Type} [FloatOps F] (main_arg6 : FVec F S64x85 .f32) (main_arg7 : FVec F S64 .f32) (main_arg8 : FVec F S64x103 .f32) (main_arg9 : FVec F S64 .f32) (main_arg10 : FVec F S256x128 .f32) (main_arg11 : FVec F S256 .f32) (main_arg12 : FVec F S1x256 .f32) (main_arg13 : FVec F S1 .f32) (main_v13 : IVec S_ 1) (main_v16 : IVec S500001x64 1) : IVec S_ 1 :=
  let main_c_5 : IVec S_ 1 := constantI S_ 1 1#1
  let main_v17 : IVec S_ 1 := (fun x v => Host.reduce IntOp.andi x v reducesTo_S500001x64_S_d0_1 h_S_) main_v16 main_c_5
  let main_v18 : IVec S_ 1 := andi main_v13 main_v17
  let main_v19 : FVec F S64x85 .f32 := Host.absf main_arg6
  let main_cst_6 : FVec F S_ .f32 := constant S_ .f32 0x7F800000#32
  let main_v20 : FVec F S64x85 .f32 := broadcastInDim S64x85 ![] bcast_S_S64x85 main_cst_6
  let main_v21 : IVec S64x85 1 := cmpf .olt main_v19 main_v20
  let main_c_7 : IVec S_ 1 := constantI S_ 1 1#1
  let main_v22 : IVec S_ 1 := (fun x v => Host.reduce IntOp.andi x v reducesTo_S64x85_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x103 .f32 := Host.absf main_arg8
  let main_cst_10 : FVec F S_ .f32 := constant S_ .f32 0x7F800000#32
  let main_v30 : FVec F S64x103 .f32 := broadcastInDim S64x103 ![] bcast_S_S64x103 main_cst_10
  let main_v31 : IVec S64x103 1 := cmpf .olt main_v29 main_v30
  let main_c_11 : IVec S_ 1 := constantI S_ 1 1#1
  let main_v32 : IVec S_ 1 := (fun x v => Host.reduce IntOp.andi x v reducesTo_S64x103_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : IVec S16384 32) (main_arg1 : IVec S16384 32) (main_arg2 : FVec F S16384x21 .f32) (main_arg3 : FVec F S16384x39 .f32) (main_arg4 : FVec F S1000001x64 .f32) (main_arg5 : FVec F S500001x64 .f32) (main_arg6 : FVec F S64x85 .f32) (main_arg7 : FVec F S64 .f32) (main_arg8 : FVec F S64x103 .f32) (main_arg9 : FVec F S64 .f32) (main_arg10 : FVec F S256x128 .f32) (main_arg11 : FVec F S256 .f32) (main_arg12 : FVec F S1x256 .f32) (main_arg13 : FVec F S1 .f32) : IVec S_ 1 :=
  let main_v0 : FVec F S16384x21 .f32 := Host.absf main_arg2
  let main_cst : FVec F S_ .f32 := constant S_ .f32 0x7F800000#32
  let main_v1 : FVec F S16384x21 .f32 := broadcastInDim S16384x21 ![] bcast_S_S16384x21 main_cst
  let main_v2 : IVec S16384x21 1 := cmpf .olt main_v0 main_v1
  let main_c : IVec S_ 1 := constantI S_ 1 1#1
  let main_v3 : IVec S_ 1 := (fun x v => Host.reduce IntOp.andi x v reducesTo_S16384x21_S_d0_1 h_S_) main_v2 main_c
  let main_v4 : FVec F S16384x39 .f32 := Host.absf main_arg3
  let main_cst_0 : FVec F S_ .f32 := constant S_ .f32 0x7F800000#32
  let main_v5 : FVec F S16384x39 .f32 := broadcastInDim S16384x39 ![] bcast_S_S16384x39 main_cst_0
  let main_v6 : IVec S16384x39 1 := cmpf .olt main_v4 main_v5
  let main_c_1 : IVec S_ 1 := constantI S_ 1 1#1
  let main_v7 : IVec S_ 1 := (fun x v => Host.reduce IntOp.andi x v reducesTo_S16384x39_S_d0_1 h_S_) main_v6 main_c_1
  let main_v8 : IVec S_ 1 := andi main_v3 main_v7
  let main_v9 : FVec F S1000001x64 .f32 := Host.absf main_arg4
  let main_cst_2 : FVec F S_ .f32 := constant S_ .f32 0x7F800000#32
  let main_v10 : FVec F S1000001x64 .f32 := broadcastInDim S1000001x64 ![] bcast_S_S1000001x64 main_cst_2
  let main_v11 : IVec S1000001x64 1 := cmpf .olt main_v9 main_v10
  let main_c_3 : IVec S_ 1 := constantI S_ 1 1#1
  let main_v12 : IVec S_ 1 := (fun x v => Host.reduce IntOp.andi x v reducesTo_S1000001x64_S_d0_1 h_S_) main_v11 main_c_3
  let main_v13 : IVec S_ 1 := andi main_v8 main_v12
  let main_v14 : FVec F S500001x64 .f32 := Host.absf main_arg5
  let main_cst_4 : FVec F S_ .f32 := constant S_ .f32 0x7F800000#32
  let main_v15 : FVec F S500001x64 .f32 := broadcastInDim S500001x64 ![] bcast_S_S500001x64 main_cst_4
  let main_v16 : IVec S500001x64 1 := cmpf .olt main_v14 main_v15
  fn_part1 (F := F) main_arg6 main_arg7 main_arg8 main_arg9 main_arg10 main_arg11 main_arg12 main_arg13 main_v13 main_v16
-- ==== Kernel.lean ====
abbrev S16384 : Shape := ⟨1, ![16384]⟩
abbrev S16384x21 : Shape := ⟨2, ![16384, 21]⟩
abbrev S16384x39 : Shape := ⟨2, ![16384, 39]⟩
abbrev S1000001x64 : Shape := ⟨2, ![1000001, 64]⟩
abbrev S500001x64 : Shape := ⟨2, ![500001, 64]⟩
abbrev S64x85 : Shape := ⟨2, ![64, 85]⟩
abbrev S64 : Shape := ⟨1, ![64]⟩
abbrev S64x103 : Shape := ⟨2, ![64, 103]⟩
abbrev S256x128 : Shape := ⟨2, ![256, 128]⟩
abbrev S256 : Shape := ⟨1, ![256]⟩
abbrev S1x256 : Shape := ⟨2, ![1, 256]⟩
abbrev S1 : Shape := ⟨1, ![1]⟩
abbrev S_ : Shape := ⟨0, ![]⟩
abbrev S16384x1 : Shape := ⟨2, ![16384, 1]⟩
abbrev S16384x64 : Shape := ⟨2, ![16384, 64]⟩
abbrev S64x64 : Shape := ⟨2, ![64, 64]⟩
abbrev S64x21 : Shape := ⟨2, ![64, 21]⟩
abbrev S64x39 : Shape := ⟨2, ![64, 39]⟩
abbrev S64x128 : Shape := ⟨2, ![64, 128]⟩
abbrev S128x128 : Shape := ⟨2, ![128, 128]⟩
abbrev S64x60 : Shape := ⟨2, ![64, 60]⟩
abbrev S128x60 : Shape := ⟨2, ![128, 60]⟩
abbrev S128 : Shape := ⟨1, ![128]⟩
abbrev S1x128 : Shape := ⟨2, ![1, 128]⟩
abbrev S1x1 : Shape := ⟨2, ![1, 1]⟩
abbrev S4096x64 : Shape := ⟨2, ![4096, 64]⟩
abbrev S4096x21 : Shape := ⟨2, ![4096, 21]⟩
abbrev S4096x39 : Shape := ⟨2, ![4096, 39]⟩
abbrev S4096x1 : Shape := ⟨2, ![4096, 1]⟩
abbrev S4096x128 : Shape := ⟨2, ![4096, 128]⟩
abbrev S4096x60 : Shape := ⟨2, ![4096, 60]⟩
abbrev S60x128 : Shape := ⟨2, ![60, 128]⟩
abbrev S128x256 : Shape := ⟨2, ![128, 256]⟩
abbrev S4096x256 : Shape := ⟨2, ![4096, 256]⟩
abbrev S256x1 : Shape := ⟨2, ![256, 1]⟩

abbrev nBuf : Space → Nat
  | .hbm => 57
  | .vmem => 17
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384x21, .f32⟩
  | .hbm, ⟨3, _⟩ => ⟨S16384x39, .f32⟩
  | .hbm, ⟨4, _⟩ => ⟨S1000001x64, .f32⟩
  | .hbm, ⟨5, _⟩ => ⟨S500001x64, .f32⟩
  | .hbm, ⟨6, _⟩ => ⟨S64x85, .f32⟩
  | .hbm, ⟨7, _⟩ => ⟨S64, .f32⟩
  | .hbm, ⟨8, _⟩ => ⟨S64x103, .f32⟩
  | .hbm, ⟨9, _⟩ => ⟨S64, .f32⟩
  | .hbm, ⟨10, _⟩ => ⟨S256x128, .f32⟩
  | .hbm, ⟨11, _⟩ => ⟨S256, .f32⟩
  | .hbm, ⟨12, _⟩ => ⟨S1x256, .f32⟩
  | .hbm, ⟨13, _⟩ => ⟨S1, .f32⟩
  | .hbm, ⟨14, _⟩ => ⟨S_, .i32⟩
  | .hbm, ⟨15, _⟩ => ⟨S16384, .i32⟩
  | .hbm, ⟨16, _⟩ => ⟨S16384, .i1⟩
  | .hbm, ⟨17, _⟩ => ⟨S_, .i32⟩
  | .hbm, ⟨18, _⟩ => ⟨S16384, .i32⟩
  | .hbm, ⟨19, _⟩ => ⟨S16384, .i32⟩
  | .hbm, ⟨20, _⟩ => ⟨S16384, .i32⟩
  | .hbm, ⟨21, _⟩ => ⟨S16384x1, .i32⟩
  | .hbm, ⟨22, _⟩ => ⟨S16384x64, .f32⟩
  | .hbm, ⟨23, _⟩ => ⟨S_, .i32⟩
  | .hbm, ⟨24, _⟩ => ⟨S16384, .i32⟩
  | .hbm, ⟨25, _⟩ => ⟨S16384, .i1⟩
  | .hbm, ⟨26, _⟩ => ⟨S_, .i32⟩
  | .hbm, ⟨27, _⟩ => ⟨S16384, .i32⟩
  | .hbm, ⟨28, _⟩ => ⟨S16384, .i32⟩
  | .hbm, ⟨29, _⟩ => ⟨S16384, .i32⟩
  | .hbm, ⟨30, _⟩ => ⟨S16384x1, .i32⟩
  | .hbm, ⟨31, _⟩ => ⟨S16384x64, .f32⟩
  | .hbm, ⟨32, _⟩ => ⟨S64x64, .f32⟩
  | .hbm, ⟨33, _⟩ => ⟨S64x21, .f32⟩
  | .hbm, ⟨34, _⟩ => ⟨S64x64, .f32⟩
  | .hbm, ⟨35, _⟩ => ⟨S64x39, .f32⟩
  | .hbm, ⟨36, _⟩ => ⟨S_, .f32⟩
  | .hbm, ⟨37, _⟩ => ⟨S64x64, .f32⟩
  | .hbm, ⟨38, _⟩ => ⟨S_, .f32⟩
  | .hbm, ⟨39, _⟩ => ⟨S64x21, .f32⟩
  | .hbm, ⟨40, _⟩ => ⟨S_, .f32⟩
  | .hbm, ⟨41, _⟩ => ⟨S64x39, .f32⟩
  | .hbm, ⟨42, _⟩ => ⟨S64x128, .f32⟩
  | .hbm, ⟨43, _⟩ => ⟨S64x128, .f32⟩
  | .hbm, ⟨44, _⟩ => ⟨S128x128, .f32⟩
  | .hbm, ⟨45, _⟩ => ⟨S64x60, .f32⟩
  | .hbm, ⟨46, _⟩ => ⟨S64x60, .f32⟩
  | .hbm, ⟨47, _⟩ => ⟨S128x60, .f32⟩
  | .hbm, ⟨48, _⟩ => ⟨S128, .f32⟩
  | .hbm, ⟨49, _⟩ => ⟨S1x128, .f32⟩
  | .hbm, ⟨50, _⟩ => ⟨S128x128, .bf16⟩
  | .hbm, ⟨51, _⟩ => ⟨S128x60, .bf16⟩
  | .hbm, ⟨52, _⟩ => ⟨S256x128, .bf16⟩
  | .hbm, ⟨53, _⟩ => ⟨S1x256, .bf16⟩
  | .hbm, ⟨54, _⟩ => ⟨S1x256, .f32⟩
  | .hbm, ⟨55, _⟩ => ⟨S1x1, .f32⟩
  | .hbm, ⟨56, _⟩ => ⟨S16384x1, .f32⟩
  | .local _ .vmem, ⟨0, _⟩ => ⟨S4096x64, .f32⟩
  | .local _ .vmem, ⟨1, _⟩ => ⟨S4096x64, .f32⟩
  | .local _ .vmem, ⟨2, _⟩ => ⟨S4096x64, .f32⟩
  | .local _ .vmem, ⟨3, _⟩ => ⟨S4096x64, .f32⟩
  | .local _ .vmem, ⟨4, _⟩ => ⟨S4096x21, .f32⟩
  | .local _ .vmem, ⟨5, _⟩ => ⟨S4096x21, .f32⟩
  | .local _ .vmem, ⟨6, _⟩ => ⟨S4096x39, .f32⟩
  | .local _ .vmem, ⟨7, _⟩ => ⟨S4096x39, .f32⟩
  | .local _ .vmem, ⟨8, _⟩ => ⟨S128x128, .bf16⟩
  | .local _ .vmem, ⟨9, _⟩ => ⟨S128x60, .bf16⟩
  | .local _ .vmem, ⟨10, _⟩ => ⟨S1x128, .f32⟩
  | .local _ .vmem, ⟨11, _⟩ => ⟨S256x128, .bf16⟩
  | .local _ .vmem, ⟨12, _⟩ => ⟨S1x256, .f32⟩
  | .local _ .vmem, ⟨13, _⟩ => ⟨S1x256, .bf16⟩
  | .local _ .vmem, ⟨14, _⟩ => ⟨S1x1, .f32⟩
  | .local _ .vmem, ⟨15, _⟩ => ⟨S4096x1, .f32⟩
  | .local _ .vmem, ⟨16, _⟩ => ⟨S4096x1, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst : Ref sig .tc := ⟨.hbm, 36, rfl⟩
abbrev main_v18 : Ref sig .tc := ⟨.hbm, 37, rfl⟩
abbrev main_cst_3 : Ref sig .tc := ⟨.hbm, 38, rfl⟩
abbrev main_v19 : Ref sig .tc := ⟨.hbm, 39, rfl⟩
abbrev main_cst_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x21 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x39 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x60 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4096x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  slices_S64x85_S64x64_0_0 : S64x85.Slices ![0, 0] S64x64
  slices_S64x85_S64x21_0_64 : S64x85.Slices ![0, 64] S64x21
  slices_S64x103_S64x64_0_0 : S64x103.Slices ![0, 0] S64x64
  slices_S64x103_S64x39_0_64 : S64x103.Slices ![0, 64] S64x39
  bcast_S_S64x64 : S_.BroadcastsInDim S64x64 (![] : Fin 0 → Fin S64x64.rank)
  bcast_S_S64x21 : S_.BroadcastsInDim S64x21 (![] : Fin 0 → Fin S64x21.rank)
  bcast_S_S64x39 : S_.BroadcastsInDim S64x39 (![] : Fin 0 → Fin S64x39.rank)
  concatenates_S64x64_S64x64_S64x128_d1 : Shape.Concatenates [S64x64, S64x64] S64x128 1
  concatenates_S64x128_S64x128_S128x128_d0 : Shape.Concatenates [S64x128, S64x128] S128x128 0
  concatenates_S64x21_S64x39_S64x60_d1 : Shape.Concatenates [S64x21, S64x39] S64x60 1
  concatenates_S64x60_S64x60_S128x60_d0 : Shape.Concatenates [S64x60, S64x60] S128x60 0
  concatenates_S64_S64_S128_d0 : Shape.Concatenates [S64, S64] S128 0
  shapeCasts_S128_S1x128 : S128.ShapeCasts S1x128
  bitsLt_bf16_f32 : FTy.bits .bf16 < FTy.bits .f32
  shapeCasts_S256_S1x256 : S256.ShapeCasts S1x256
  shapeCasts_S1_S1x1 : S1.ShapeCasts S1x1
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S4096x21_S4096x21_0_0 : ∀ a, (![0, 0] : Fin 2 → Nat) a + S4096x21.size a ≤ S4096x21.size a
  h_S4096x21 : 0 < S4096x21.numel
  inb_S4096x39_S4096x39_0_0 : ∀ a, (![0, 0] : Fin 2 → Nat) a + S4096x39.size a ≤ S4096x39.size a
  h_S4096x39 : 0 < S4096x39.numel
  concatenates_S4096x64_S4096x64_S4096x128_d1 : Shape.Concatenates [S4096x64, S4096x64] S4096x128 1
  concatenates_S4096x21_S4096x39_S4096x60_d1 : Shape.Concatenates [S4096x21, S4096x39] S4096x60 1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S128x128_p1_0_S128x128 : S128x128.Transposes [1, 0] S128x128
  inb_S128x60_S128x60_0_0 : ∀ a, (![0, 0] : Fin 2 → Nat) a + S128x60.size a ≤ S128x60.size a
  h_S128x60 : 0 < S128x60.numel
  shapeCasts_S128x60_S128x60 : S128x60.ShapeCasts S128x60
  transposes_S128x60_p1_0_S60x128 : S128x60.Transposes [1, 0] S60x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  transposes_S256x128_p1_0_S128x256 : S256x128.Transposes [1, 0] S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  transposes_S1x256_p1_0_S256x1 : S1x256.Transposes [1, 0] S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  gather_S1000001x64_S16384x1_S16384x64_1_0_n_n_0_1_164_wf : GatherDims.WF S1000001x64 S16384x1 S16384x64 [1] [0] [] [0] [] 1 ![1, 64]
  gather_S500001x64_S16384x1_S16384x64_1_0_n_n_0_1_164_wf : GatherDims.WF S500001x64 S16384x1 S16384x64 [1] [0] [] [0] [] 1 ![1, 64]
  dot_S4096x128_S128x128_S4096x128_1_0_0_1_n_n_wf : DotDims.WF S4096x128 S128x128 S4096x128 [1] [0] [0] [1] [] []
  dot_S4096x60_S60x128_S4096x128_1_0_0_1_n_n_wf : DotDims.WF S4096x60 S60x128 S4096x128 [1] [0] [0] [1] [] []
  dot_S4096x128_S128x256_S4096x256_1_0_0_1_n_n_wf : DotDims.WF S4096x128 S128x256 S4096x256 [1] [0] [0] [1] [] []
  dot_S4096x256_S256x1_S4096x1_1_0_0_1_n_n_wf : DotDims.WF S4096x256 S256x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S16384x64.size a
  hwx0_0 : ∀ i : grid0.Coords, EltTy.bits .f32 = 32 ∨ (Rect.block (s := S16384x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S16384x64.size a
  hwx0_1 : ∀ i : grid0.Coords, EltTy.bits .f32 = 32 ∨ (Rect.block (s := S16384x64) S4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x21.size a ≤ S16384x21.size a
  hwx0_2 : ∀ i : grid0.Coords, EltTy.bits .f32 = 32 ∨ (Rect.block (s := S16384x21) S4096x21.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x39.size a ≤ S16384x39.size a
  hwx0_3 : ∀ i : grid0.Coords, EltTy.bits .f32 = 32 ∨ (Rect.block (s := S16384x39) S4096x39.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x60.size a ≤ S128x60.size a
  hwx0_5 : ∀ i : grid0.Coords, EltTy.bits .bf16 = 32 ∨ (Rect.block (s := S128x60) S128x60.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .bf16 = 32 ∨ (Rect.block (s := S256x128) S256x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .bf16 = 32 ∨ (Rect.block (s := S1x256) S1x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4096x1.size a ≤ S16384x1.size a
  hwx0_11 : ∀ i : grid0.Coords, EltTy.bits .f32 = 32 ∨ (Rect.block (s := S16384x1) S4096x1.size (cc0_transform_11 i) (hinb0_11 i)).WholeWords (EltTy.packing .f32)

variable [Facts₀]

def gather_S1000001x64_S16384x1_S16384x64_1_0_n_n_0_1_164 : GatherDims S1000001x64 S16384x1 S16384x64 where
  offsetDims := [1]
  collapsedSliceDims := [0]
  operandBatchingDims := []
  startIndicesBatchingDims := []
  startIndexMap := [0]
  indexVectorDim := 1
  sliceSizes := ![1, 64]
  wf := gather_S1000001x64_S16384x1_S16384x64_1_0_n_n_0_1_164_wf
def gather_S500001x64_S16384x1_S16384x64_1_0_n_n_0_1_164 : GatherDims S500001x64 S16384x1 S16384x64 where
  offsetDims := [1]
  collapsedSliceDims := [0]
  operandBatchingDims := []
  startIndicesBatchingDims := []
  startIndexMap := [0]
  indexVectorDim := 1
  sliceSizes := ![1, 64]
  wf := gather_S500001x64_S16384x1_S16384x64_1_0_n_n_0_1_164_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x60_S60x128_S4096x128_1_0_0_1_n_n : DotDims S4096x60 S60x128 S4096x128 where
  lhsContracting := [1]
  rhsContracting := [0]
  lhsNonContracting := [0]
  rhsNonContracting := [1]
  lhsBatch := []
  rhsBatch := []
  wf := dot_S4096x60_S60x128_S4096x128_1_0_0_1_n_n_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf

abbrev win0_0 : Pipeline.Window sig grid0 :=
  Pipeline.Window.ofSpec (Memref.whole main_v6) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x21.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4096x39.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v29) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S128x60.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v31) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v33) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v32) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v34) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v35) S4096x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16384 : Shape := ⟨1, ![16384]⟩
abbrev S16384x21 : Shape := ⟨2, ![16384, 21]⟩
abbrev S16384x39 : Shape := ⟨2, ![16384, 39]⟩
abbrev S1000001x64 : Shape := ⟨2, ![1000001, 64]⟩
abbrev S500001x64 : Shape := ⟨2, ![500001, 64]⟩
abbrev S64x85 : Shape := ⟨2, ![64, 85]⟩
abbrev S64 : Shape := ⟨1, ![64]⟩
abbrev S64x103 : Shape := ⟨2, ![64, 103]⟩
abbrev S256x128 : Shape := ⟨2, ![256, 128]⟩
abbrev S256 : Shape := ⟨1, ![256]⟩
abbrev S1x256 : Shape := ⟨2, ![1, 256]⟩
abbrev S1 : Shape := ⟨1, ![1]⟩
abbrev S_ : Shape := ⟨0, ![]⟩
abbrev S16384x1 : Shape := ⟨2, ![16384, 1]⟩
abbrev S16384x64 : Shape := ⟨2, ![16384, 64]⟩
abbrev S16384x85 : Shape := ⟨2, ![16384, 85]⟩
abbrev S85x64 : Shape := ⟨2, ![85, 64]⟩
abbrev S1x64 : Shape := ⟨2, ![1, 64]⟩
abbrev S16384x103 : Shape := ⟨2, ![16384, 103]⟩
abbrev S103x64 : Shape := ⟨2, ![103, 64]⟩
abbrev S16384x128 : Shape := ⟨2, ![16384, 128]⟩
abbrev S128x256 : Shape := ⟨2, ![128, 256]⟩
abbrev S16384x256 : Shape := ⟨2, ![16384, 256]⟩
abbrev S256x1 : Shape := ⟨2, ![256, 1]⟩
abbrev S1x1 : Shape := ⟨2, ![1, 1]⟩

abbrev nBuf : Space → Nat
  | .hbm => 69
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384x21, .f32⟩
  | .hbm, ⟨3, _⟩ => ⟨S16384x39, .f32⟩
  | .hbm, ⟨4, _⟩ => ⟨S1000001x64, .f32⟩
  | .hbm, ⟨5, _⟩ => ⟨S500001x64, .f32⟩
  | .hbm, ⟨6, _⟩ => ⟨S64x85, .f32⟩
  | .hbm, ⟨7, _⟩ => ⟨S64, .f32⟩
  | .hbm, ⟨8, _⟩ => ⟨S64x103, .f32⟩
  | .hbm, ⟨9, _⟩ => ⟨S64, .f32⟩
  | .hbm, ⟨10, _⟩ => ⟨S256x128, .f32⟩
  | .hbm, ⟨11, _⟩ => ⟨S256, .f32⟩
  | .hbm, ⟨12, _⟩ => ⟨S1x256, .f32⟩
  | .hbm, ⟨13, _⟩ => ⟨S1, .f32⟩
  | .hbm, ⟨14, _⟩ => ⟨S_, .i32⟩
  | .hbm, ⟨15, _⟩ => ⟨S16384, .i32⟩
  | .hbm, ⟨16, _⟩ => ⟨S16384, .i1⟩
  | .hbm, ⟨17, _⟩ => ⟨S_, .i32⟩
  | .hbm, ⟨18, _⟩ => ⟨S16384, .i32⟩
  | .hbm, ⟨19, _⟩ => ⟨S16384, .i32⟩
  | .hbm, ⟨20, _⟩ => ⟨S16384, .i32⟩
  | .hbm, ⟨21, _⟩ => ⟨S16384x1, .i32⟩
  | .hbm, ⟨22, _⟩ => ⟨S16384x64, .f32⟩
  | .hbm, ⟨23, _⟩ => ⟨S_, .i32⟩
  | .hbm, ⟨24, _⟩ => ⟨S16384, .i32⟩
  | .hbm, ⟨25, _⟩ => ⟨S16384, .i1⟩
  | .hbm, ⟨26, _⟩ => ⟨S_, .i32⟩
  | .hbm, ⟨27, _⟩ => ⟨S16384, .i32⟩
  | .hbm, ⟨28, _⟩ => ⟨S16384, .i32⟩
  | .hbm, ⟨29, _⟩ => ⟨S16384, .i32⟩
  | .hbm, ⟨30, _⟩ => ⟨S16384x1, .i32⟩
  | .hbm, ⟨31, _⟩ => ⟨S16384x64, .f32⟩
  | .hbm, ⟨32, _⟩ => ⟨S16384x85, .f32⟩
  | .hbm, ⟨33, _⟩ => ⟨S_, .f32⟩
  | .hbm, ⟨34, _⟩ => ⟨S16384x85, .f32⟩
  | .hbm, ⟨35, _⟩ => ⟨S16384x85, .f32⟩
  | .hbm, ⟨36, _⟩ => ⟨S85x64, .f32⟩
  | .hbm, ⟨37, _⟩ => ⟨S16384x64, .f32⟩
  | .hbm, ⟨38, _⟩ => ⟨S1x64, .f32⟩
  | .hbm, ⟨39, _⟩ => ⟨S16384x64, .f32⟩
  | .hbm, ⟨40, _⟩ => ⟨S16384x64, .f32⟩
  | .hbm, ⟨41, _⟩ => ⟨S16384x64, .f32⟩
  | .hbm, ⟨42, _⟩ => ⟨S16384x103, .f32⟩
  | .hbm, ⟨43, _⟩ => ⟨S_, .f32⟩
  | .hbm, ⟨44, _⟩ => ⟨S16384x103, .f32⟩
  | .hbm, ⟨45, _⟩ => ⟨S16384x103, .f32⟩
  | .hbm, ⟨46, _⟩ => ⟨S103x64, .f32⟩
  | .hbm, ⟨47, _⟩ => ⟨S16384x64, .f32⟩
  | .hbm, ⟨48, _⟩ => ⟨S1x64, .f32⟩
  | .hbm, ⟨49, _⟩ => ⟨S16384x64, .f32⟩
  | .hbm, ⟨50, _⟩ => ⟨S16384x64, .f32⟩
  | .hbm, ⟨51, _⟩ => ⟨S16384x64, .f32⟩
  | .hbm, ⟨52, _⟩ => ⟨S16384x128, .f32⟩
  | .hbm, ⟨53, _⟩ => ⟨S_, .f32⟩
  | .hbm, ⟨54, _⟩ => ⟨S16384x128, .f32⟩
  | .hbm, ⟨55, _⟩ => ⟨S16384x128, .f32⟩
  | .hbm, ⟨56, _⟩ => ⟨S128x256, .f32⟩
  | .hbm, ⟨57, _⟩ => ⟨S16384x256, .f32⟩
  | .hbm, ⟨58, _⟩ => ⟨S1x256, .f32⟩
  | .hbm, ⟨59, _⟩ => ⟨S16384x256, .f32⟩
  | .hbm, ⟨60, _⟩ => ⟨S16384x256, .f32⟩
  | .hbm, ⟨61, _⟩ => ⟨S_, .f32⟩
  | .hbm, ⟨62, _⟩ => ⟨S16384x256, .f32⟩
  | .hbm, ⟨63, _⟩ => ⟨S16384x256, .f32⟩
  | .hbm, ⟨64, _⟩ => ⟨S256x1, .f32⟩
  | .hbm, ⟨65, _⟩ => ⟨S16384x1, .f32⟩
  | .hbm, ⟨66, _⟩ => ⟨S1x1, .f32⟩
  | .hbm, ⟨67, _⟩ => ⟨S16384x1, .f32⟩
  | .hbm, ⟨68, _⟩ => ⟨S16384x1, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_call0_cst : Ref sig .tc := ⟨.hbm, 33, rfl⟩
abbrev main_call0_v0 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call1_cst : Ref sig .tc := ⟨.hbm, 43, rfl⟩
abbrev main_call1_v0 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_call2_cst : Ref sig .tc := ⟨.hbm, 53, rfl⟩
abbrev main_call2_v0 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_call3_cst : Ref sig .tc := ⟨.hbm, 61, rfl⟩
abbrev main_call3_v0 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  concatenates_S16384x64_S16384x21_S16384x85_d1 : Shape.Concatenates [S16384x64, S16384x21] S16384x85 1
  bcast_S_S16384x85 : S_.BroadcastsInDim S16384x85 (![] : Fin 0 → Fin S16384x85.rank)
  transposes_S64x85_S85x64_1_0 : S64x85.Transposes [1, 0] S85x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  concatenates_S16384x64_S16384x39_S16384x103_d1 : Shape.Concatenates [S16384x64, S16384x39] S16384x103 1
  bcast_S_S16384x103 : S_.BroadcastsInDim S16384x103 (![] : Fin 0 → Fin S16384x103.rank)
  transposes_S64x103_S103x64_1_0 : S64x103.Transposes [1, 0] S103x64
  concatenates_S16384x64_S16384x64_S16384x128_d1 : Shape.Concatenates [S16384x64, S16384x64] S16384x128 1
  bcast_S_S16384x128 : S_.BroadcastsInDim S16384x128 (![] : Fin 0 → Fin S16384x128.rank)
  transposes_S256x128_S128x256_1_0 : S256x128.Transposes [1, 0] S128x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  transposes_S1x256_S256x1_1_0 : S1x256.Transposes [1, 0] S256x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  gather_S1000001x64_S16384x1_S16384x64_1_0_n_n_0_1_164_wf : GatherDims.WF S1000001x64 S16384x1 S16384x64 [1] [0] [] [0] [] 1 ![1, 64]
  gather_S500001x64_S16384x1_S16384x64_1_0_n_n_0_1_164_wf : GatherDims.WF S500001x64 S16384x1 S16384x64 [1] [0] [] [0] [] 1 ![1, 64]
  dot_S16384x85_S85x64_S16384x64_1_0_0_1_n_n_wf : DotDims.WF S16384x85 S85x64 S16384x64 [1] [0] [0] [1] [] []
  dot_S16384x103_S103x64_S16384x64_1_0_0_1_n_n_wf : DotDims.WF S16384x103 S103x64 S16384x64 [1] [0] [0] [1] [] []
  dot_S16384x128_S128x256_S16384x256_1_0_0_1_n_n_wf : DotDims.WF S16384x128 S128x256 S16384x256 [1] [0] [0] [1] [] []
  dot_S16384x256_S256x1_S16384x1_1_0_0_1_n_n_wf : DotDims.WF S16384x256 S256x1 S16384x1 [1] [0] [0] [1] [] []

variable [Facts₀]

def gather_S1000001x64_S16384x1_S16384x64_1_0_n_n_0_1_164 : GatherDims S1000001x64 S16384x1 S16384x64 where
  offsetDims := [1]
  collapsedSliceDims := [0]
  operandBatchingDims := []
  startIndicesBatchingDims := []
  startIndexMap := [0]
  indexVectorDim := 1
  sliceSizes := ![1, 64]
  wf := gather_S1000001x64_S16384x1_S16384x64_1_0_n_n_0_1_164_wf
def gather_S500001x64_S16384x1_S16384x64_1_0_n_n_0_1_164 : GatherDims S500001x64 S16384x1 S16384x64 where
  offsetDims := [1]
  collapsedSliceDims := [0]
  operandBatchingDims := []
  startIndicesBatchingDims := []
  startIndexMap := [0]
  indexVectorDim := 1
  sliceSizes := ![1, 64]
  wf := gather_S500001x64_S16384x1_S16384x64_1_0_n_n_0_1_164_wf
def dot_S16384x85_S85x64_S16384x64_1_0_0_1_n_n : DotDims S16384x85 S85x64 S16384x64 where
  lhsContracting := [1]
  rhsContracting := [0]
  lhsNonContracting := [0]
  rhsNonContracting := [1]
  lhsBatch := []
  rhsBatch := []
  wf := dot_S16384x85_S85x64_S16384x64_1_0_0_1_n_n_wf
def dot_S16384x103_S103x64_S16384x64_1_0_0_1_n_n : DotDims S16384x103 S103x64 S16384x64 where
  lhsContracting := [1]
  rhsContracting := [0]
  lhsNonContracting := [0]
  rhsNonContracting := [1]
  lhsBatch := []
  rhsBatch := []
  wf := dot_S16384x103_S103x64_S16384x64_1_0_0_1_n_n_wf
def dot_S16384x128_S128x256_S16384x256_1_0_0_1_n_n : DotDims S16384x128 S128x256 S16384x256 where
  lhsContracting := [1]
  rhsContracting := [0]
  lhsNonContracting := [0]
  rhsNonContracting := [1]
  lhsBatch := []
  rhsBatch := []
  wf := dot_S16384x128_S128x256_S16384x256_1_0_0_1_n_n_wf
def dot_S16384x256_S256x1_S16384x1_1_0_0_1_n_n : DotDims S16384x256 S256x1 S16384x1 where
  lhsContracting := [1]
  rhsContracting := [0]
  lhsNonContracting := [0]
  rhsNonContracting := [1]
  lhsBatch := []
  rhsBatch := []
  wf := dot_S16384x256_S256x1_S16384x1_1_0_0_1_n_n_wf

class Facts : Prop extends Facts₀ where

variable [Facts]
-- ==== Proof.Products.lean ====
/-
  The kernel body's four matrix products, read at an entry.

  Each is a product of a [4096, K] block with a [K, N] matrix into a zero accumulator; on the extended reals entry (p, n)
  is the sum over k of left (p, k) times right (k, n): the accumulator's zero word is the real 0, the contraction index
  is the one contracted coordinate, and the two operand indices are (p, k) and (k, n).
-/
import proofs.«145909_j33629593927760_2_alg».proof.Proof.Gen.KernelIdeal
import Idealize.ShloMosaic.Lib.ValueIdx
import Idealize.ShloMosaic.PureOps.Ideal.Laws

noncomputable section

namespace Cert.KernelIdeal.Products

open Cert.KernelIdeal Cert.KernelIdeal.Gen Idealize.ShloMosaic Idealize.ShloMosaic.ValueIdx

/-! ### The contraction emb: [4096, 128] · [128, 128] -/

theorem lhs_emb_0 (i : S4096x128.Idx) (q : dot_S4096x128_S128x128_S4096x128_1_0_0_1_n_n.contr.Idx) : (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_emb_1 (i : S4096x128.Idx) (q : dot_S4096x128_S128x128_S4096x128_1_0_0_1_n_n.contr.Idx) : (dot_S4096x128_S128x128_S4096x128_1_0_0_1_n_n.lhsIdx i q 1).val = (q ⟨0, by decide⟩).val :=
  dot_S4096x128_S128x128_S4096x128_1_0_0_1_n_n.lhsIdx_val_of_single rfl i q
theorem rhs_emb_0 (i : S4096x128.Idx) (q : dot_S4096x128_S128x128_S4096x128_1_0_0_1_n_n.contr.Idx) : (dot_S4096x128_S128x128_S4096x128_1_0_0_1_n_n.rhsIdx i q 0).val = (q ⟨0, by decide⟩).val :=
  dot_S4096x128_S128x128_S4096x128_1_0_0_1_n_n.rhsIdx_val_of_single rfl i q
theorem rhs_emb_1 (i : S4096x128.Idx) (q : dot_S4096x128_S128x128_S4096x128_1_0_0_1_n_n.contr.Idx) : (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- A product into a zero accumulator, read at (p, n): the sum over the 128 contracted entries of row p of the left
    operand against column n of the right one. -/
theorem mm_emb (a : FVec Ideal S4096x128 .bf16) (b : FVec Ideal S128x128 .bf16) (p : Fin 4096) (n : Fin 128) :
    matmul dot_S4096x128_S128x128_S4096x128_1_0_0_1_n_n none a b (constant (F := Ideal) S4096x128 .f32 0x00000000#32) (ix2 p n)
      = ∑ k : Fin 128, a (ix2 p k) * b (ix2 k n) := by
  show FloatOps.matmul dot_S4096x128_S128x128_S4096x128_1_0_0_1_n_n none a b (constant (F := Ideal) S4096x128 .f32 0x00000000#32) (ix2 p n) = _
  rw [Ideal.matmul_constant_zero_apply, ← Equiv.sum_comp (ValueIdx.contrEquiv1 dot_S4096x128_S128x128_S4096x128_1_0_0_1_n_n 128 rfl rfl).symm]
  refine Finset.sum_congr rfl fun k _ => ?_
  have hk := ValueIdx.contrEquiv1_symm_val dot_S4096x128_S128x128_S4096x128_1_0_0_1_n_n 128 rfl rfl k
  have el : dot_S4096x128_S128x128_S4096x128_1_0_0_1_n_n.lhsIdx (ix2 p n) ((ValueIdx.contrEquiv1 dot_S4096x128_S128x128_S4096x128_1_0_0_1_n_n 128 rfl rfl).symm k) = ix2 p k := funext fun a => Fin.ext (by
    match a with
    | ⟨0, _⟩ => exact lhs_emb_0 _ _
    | ⟨1, _⟩ => exact (lhs_emb_1 _ _).trans hk)
  have er : dot_S4096x128_S128x128_S4096x128_1_0_0_1_n_n.rhsIdx (ix2 p n) ((ValueIdx.contrEquiv1 dot_S4096x128_S128x128_S4096x128_1_0_0_1_n_n 128 rfl rfl).symm k) = ix2 k n := funext fun a => Fin.ext (by
    match a with
    | ⟨0, _⟩ => exact (rhs_emb_0 _ _).trans hk
    | ⟨1, _⟩ => exact rhs_emb_1 _ _)
  rw [el, er]

/-! ### The contraction feat: [4096, 60] · [60, 128] -/

theorem lhs_feat_0 (i : S4096x128.Idx) (q : dot_S4096x60_S60x128_S4096x128_1_0_0_1_n_n.contr.Idx) : (dot_S4096x60_S60x128_S4096x128_1_0_0_1_n_n.lhsIdx i q 0).val = (i 0).val := by
  unfold DotDims.lhsIdx
  rw [dif_neg (show ¬(0 : Fin S4096x60.rank) ∈ dot_S4096x60_S60x128_S4096x128_1_0_0_1_n_n.lhsBatch by decide), dif_pos (show (0 : Fin S4096x60.rank) ∈ dot_S4096x60_S60x128_S4096x128_1_0_0_1_n_n.lhsNonContracting by decide)]
  rfl
theorem lhs_feat_1 (i : S4096x128.Idx) (q : dot_S4096x60_S60x128_S4096x128_1_0_0_1_n_n.contr.Idx) : (dot_S4096x60_S60x128_S4096x128_1_0_0_1_n_n.lhsIdx i q 1).val = (q ⟨0, by decide⟩).val :=
  dot_S4096x60_S60x128_S4096x128_1_0_0_1_n_n.lhsIdx_val_of_single rfl i q
theorem rhs_feat_0 (i : S4096x128.Idx) (q : dot_S4096x60_S60x128_S4096x128_1_0_0_1_n_n.contr.Idx) : (dot_S4096x60_S60x128_S4096x128_1_0_0_1_n_n.rhsIdx i q 0).val = (q ⟨0, by decide⟩).val :=
  dot_S4096x60_S60x128_S4096x128_1_0_0_1_n_n.rhsIdx_val_of_single rfl i q
theorem rhs_feat_1 (i : S4096x128.Idx) (q : dot_S4096x60_S60x128_S4096x128_1_0_0_1_n_n.contr.Idx) : (dot_S4096x60_S60x128_S4096x128_1_0_0_1_n_n.rhsIdx i q 1).val = (i 1).val := by
  unfold DotDims.rhsIdx
  rw [dif_neg (show ¬(1 : Fin S60x128.rank) ∈ dot_S4096x60_S60x128_S4096x128_1_0_0_1_n_n.rhsBatch by decide), dif_pos (show (1 : Fin S60x128.rank) ∈ dot_S4096x60_S60x128_S4096x128_1_0_0_1_n_n.rhsNonContracting by decide)]
  rfl

/-- A product into a zero accumulator, read at (p, n): the sum over the 60 contracted entries of row p of the left
    operand against column n of the right one. -/
theorem mm_feat (a : FVec Ideal S4096x60 .bf16) (b : FVec Ideal S60x128 .bf16) (p : Fin 4096) (n : Fin 128) :
    matmul dot_S4096x60_S60x128_S4096x128_1_0_0_1_n_n none a b (constant (F := Ideal) S4096x128 .f32 0x00000000#32) (ix2 p n)
      = ∑ k : Fin 60, a (ix2 p k) * b (ix2 k n) := by
  show FloatOps.matmul dot_S4096x60_S60x128_S4096x128_1_0_0_1_n_n none a b (constant (F := Ideal) S4096x128 .f32 0x00000000#32) (ix2 p n) = _
  rw [Ideal.matmul_constant_zero_apply, ← Equiv.sum_comp (ValueIdx.contrEquiv1 dot_S4096x60_S60x128_S4096x128_1_0_0_1_n_n 60 rfl rfl).symm]
  refine Finset.sum_congr rfl fun k _ => ?_
  have hk := ValueIdx.contrEquiv1_symm_val dot_S4096x60_S60x128_S4096x128_1_0_0_1_n_n 60 rfl rfl k
  have el : dot_S4096x60_S60x128_S4096x128_1_0_0_1_n_n.lhsIdx (ix2 p n) ((ValueIdx.contrEquiv1 dot_S4096x60_S60x128_S4096x128_1_0_0_1_n_n 60 rfl rfl).symm k) = ix2 p k := funext fun a => Fin.ext (by
    match a with
    | ⟨0, _⟩ => exact lhs_feat_0 _ _
    | ⟨1, _⟩ => exact (lhs_feat_1 _ _).trans hk)
  have er : dot_S4096x60_S60x128_S4096x128_1_0_0_1_n_n.rhsIdx (ix2 p n) ((ValueIdx.contrEquiv1 dot_S4096x60_S60x128_S4096x128_1_0_0_1_n_n 60 rfl rfl).symm k) = ix2 k n := funext fun a => Fin.ext (by
    match a with
    | ⟨0, _⟩ => exact (rhs_feat_0 _ _).trans hk
    | ⟨1, _⟩ => exact rhs_feat_1 _ _)
  rw [el, er]

/-! ### The contraction hid: [4096, 128] · [128, 256] -/

theorem lhs_hid_0 (i : S4096x256.Idx) (q : dot_S4096x128_S128x256_S4096x256_1_0_0_1_n_n.contr.Idx) : (dot_S4096x128_S128x256_S4096x256_1_0_0_1_n_n.lhsIdx i q 0).val = (i 0).val := by
  unfold DotDims.lhsIdx
  rw [dif_neg (show ¬(0 : Fin S4096x128.rank) ∈ dot_S4096x128_S128x256_S4096x256_1_0_0_1_n_n.lhsBatch by decide), dif_pos (show (0 : Fin S4096x128.rank) ∈ dot_S4096x128_S128x256_S4096x256_1_0_0_1_n_n.lhsNonContracting by decide)]
  rfl
theorem lhs_hid_1 (i : S4096x256.Idx) (q : dot_S4096x128_S128x256_S4096x256_1_0_0_1_n_n.contr.Idx) : (dot_S4096x128_S128x256_S4096x256_1_0_0_1_n_n.lhsIdx i q 1).val = (q ⟨0, by decide⟩).val :=
  dot_S4096x128_S128x256_S4096x256_1_0_0_1_n_n.lhsIdx_val_of_single rfl i q
theorem rhs_hid_0 (i : S4096x256.Idx) (q : dot_S4096x128_S128x256_S4096x256_1_0_0_1_n_n.contr.Idx) : (dot_S4096x128_S128x256_S4096x256_1_0_0_1_n_n.rhsIdx i q 0).val = (q ⟨0, by decide⟩).val :=
  dot_S4096x128_S128x256_S4096x256_1_0_0_1_n_n.rhsIdx_val_of_single rfl i q
theorem rhs_hid_1 (i : S4096x256.Idx) (q : dot_S4096x128_S128x256_S4096x256_1_0_0_1_n_n.contr.Idx) : (dot_S4096x128_S128x256_S4096x256_1_0_0_1_n_n.rhsIdx i q 1).val = (i 1).val := by
  unfold DotDims.rhsIdx
  rw [dif_neg (show ¬(1 : Fin S128x256.rank) ∈ dot_S4096x128_S128x256_S4096x256_1_0_0_1_n_n.rhsBatch by decide), dif_pos (show (1 : Fin S128x256.rank) ∈ dot_S4096x128_S128x256_S4096x256_1_0_0_1_n_n.rhsNonContracting by decide)]
  rfl

/-- A product into a zero accumulator, read at (p, n): the sum over the 128 contracted entries of row p of the left
    operand against column n of the right one. -/
theorem mm_hid (a : FVec Ideal S4096x128 .bf16) (b : FVec Ideal S128x256 .bf16) (p : Fin 4096) (n : Fin 256) :
    matmul dot_S4096x128_S128x256_S4096x256_1_0_0_1_n_n none a b (constant (F := Ideal) S4096x256 .f32 0x00000000#32) (ix2 p n)
      = ∑ k : Fin 128, a (ix2 p k) * b (ix2 k n) := by
  show FloatOps.matmul dot_S4096x128_S128x256_S4096x256_1_0_0_1_n_n none a b (constant (F := Ideal) S4096x256 .f32 0x00000000#32) (ix2 p n) = _
  rw [Ideal.matmul_constant_zero_apply, ← Equiv.sum_comp (ValueIdx.contrEquiv1 dot_S4096x128_S128x256_S4096x256_1_0_0_1_n_n 128 rfl rfl).symm]
  refine Finset.sum_congr rfl fun k _ => ?_
  have hk := ValueIdx.contrEquiv1_symm_val dot_S4096x128_S128x256_S4096x256_1_0_0_1_n_n 128 rfl rfl k
  have el : dot_S4096x128_S128x256_S4096x256_1_0_0_1_n_n.lhsIdx (ix2 p n) ((ValueIdx.contrEquiv1 dot_S4096x128_S128x256_S4096x256_1_0_0_1_n_n 128 rfl rfl).symm k) = ix2 p k := funext fun a => Fin.ext (by
    match a with
    | ⟨0, _⟩ => exact lhs_hid_0 _ _
    | ⟨1, _⟩ => exact (lhs_hid_1 _ _).trans hk)
  have er : dot_S4096x128_S128x256_S4096x256_1_0_0_1_n_n.rhsIdx (ix2 p n) ((ValueIdx.contrEquiv1 dot_S4096x128_S128x256_S4096x256_1_0_0_1_n_n 128 rfl rfl).symm k) = ix2 k n := funext fun a => Fin.ext (by
    match a with
    | ⟨0, _⟩ => exact (rhs_hid_0 _ _).trans hk
    | ⟨1, _⟩ => exact rhs_hid_1 _ _)
  rw [el, er]

/-! ### The contraction out: [4096, 256] · [256, 1] -/

theorem lhs_out_0 (i : S4096x1.Idx) (q : dot_S4096x256_S256x1_S4096x1_1_0_0_1_n_n.contr.Idx) : (dot_S4096x256_S256x1_S4096x1_1_0_0_1_n_n.lhsIdx i q 0).val = (i 0).val := by
  unfold DotDims.lhsIdx
  rw [dif_neg (show ¬(0 : Fin S4096x256.rank) ∈ dot_S4096x256_S256x1_S4096x1_1_0_0_1_n_n.lhsBatch by decide), dif_pos (show (0 : Fin S4096x256.rank) ∈ dot_S4096x256_S256x1_S4096x1_1_0_0_1_n_n.lhsNonContracting by decide)]
  rfl
theorem lhs_out_1 (i : S4096x1.Idx) (q : dot_S4096x256_S256x1_S4096x1_1_0_0_1_n_n.contr.Idx) : (dot_S4096x256_S256x1_S4096x1_1_0_0_1_n_n.lhsIdx i q 1).val = (q ⟨0, by decide⟩).val :=
  dot_S4096x256_S256x1_S4096x1_1_0_0_1_n_n.lhsIdx_val_of_single rfl i q
theorem rhs_out_0 (i : S4096x1.Idx) (q : dot_S4096x256_S256x1_S4096x1_1_0_0_1_n_n.contr.Idx) : (dot_S4096x256_S256x1_S4096x1_1_0_0_1_n_n.rhsIdx i q 0).val = (q ⟨0, by decide⟩).val :=
  dot_S4096x256_S256x1_S4096x1_1_0_0_1_n_n.rhsIdx_val_of_single rfl i q
theorem rhs_out_1 (i : S4096x1.Idx) (q : dot_S4096x256_S256x1_S4096x1_1_0_0_1_n_n.contr.Idx) : (dot_S4096x256_S256x1_S4096x1_1_0_0_1_n_n.rhsIdx i q 1).val = (i 1).val := by
  unfold DotDims.rhsIdx
  rw [dif_neg (show ¬(1 : Fin S256x1.rank) ∈ dot_S4096x256_S256x1_S4096x1_1_0_0_1_n_n.rhsBatch by decide), dif_pos (show (1 : Fin S256x1.rank) ∈ dot_S4096x256_S256x1_S4096x1_1_0_0_1_n_n.rhsNonContracting by decide)]
  rfl

/-- A product into a zero accumulator, read at (p, n): the sum over the 256 contracted entries of row p of the left
    operand against column n of the right one. -/
theorem mm_out (a : FVec Ideal S4096x256 .bf16) (b : FVec Ideal S256x1 .bf16) (p : Fin 4096) (n : Fin 1) :
    matmul dot_S4096x256_S256x1_S4096x1_1_0_0_1_n_n none a b (constant (F := Ideal) S4096x1 .f32 0x00000000#32) (ix2 p n)
      = ∑ k : Fin 256, a (ix2 p k) * b (ix2 k n) := by
  show FloatOps.matmul dot_S4096x256_S256x1_S4096x1_1_0_0_1_n_n none a b (constant (F := Ideal) S4096x1 .f32 0x00000000#32) (ix2 p n) = _
  rw [Ideal.matmul_constant_zero_apply, ← Equiv.sum_comp (ValueIdx.contrEquiv1 dot_S4096x256_S256x1_S4096x1_1_0_0_1_n_n 256 rfl rfl).symm]
  refine Finset.sum_congr rfl fun k _ => ?_
  have hk := ValueIdx.contrEquiv1_symm_val dot_S4096x256_S256x1_S4096x1_1_0_0_1_n_n 256 rfl rfl k
  have el : dot_S4096x256_S256x1_S4096x1_1_0_0_1_n_n.lhsIdx (ix2 p n) ((ValueIdx.contrEquiv1 dot_S4096x256_S256x1_S4096x1_1_0_0_1_n_n 256 rfl rfl).symm k) = ix2 p k := funext fun a => Fin.ext (by
    match a with
    | ⟨0, _⟩ => exact lhs_out_0 _ _
    | ⟨1, _⟩ => exact (lhs_out_1 _ _).trans hk)
  have er : dot_S4096x256_S256x1_S4096x1_1_0_0_1_n_n.rhsIdx (ix2 p n) ((ValueIdx.contrEquiv1 dot_S4096x256_S256x1_S4096x1_1_0_0_1_n_n 256 rfl rfl).symm k) = ix2 k n := funext fun a => Fin.ext (by
    match a with
    | ⟨0, _⟩ => exact (rhs_out_0 _ _).trans hk
    | ⟨1, _⟩ => exact rhs_out_1 _ _)
  rw [el, er]

end Cert.KernelIdeal.Products

end
-- ==== Proof.TowerSpec.lean ====
/-
  One batch row of the two-tower network, on the extended reals.

  A row carries a user embedding ue and an item embedding ie (64 entries each), 21 user features uf and 39 item
  features itf. Each tower is a residual linear layer on the rectified concatenation of its embedding and its
  features:
      uh = relu [ue, uf] · W_ufᵀ + b_uf + ue          ih = relu [ie, itf] · W_ifᵀ + b_if + ie
  and the 128-vector [uh, ih] is what the head (two dense layers) reads: midRef.

  The same 128-vector can be computed with the two towers MERGED: put the embedding columns of the two weight matrices
  on the diagonal of one 128 × 128 matrix, the feature columns on the diagonal of one 128 × 60 matrix, zero elsewhere,
  and apply them to relu [ue, ie] and relu [uf, itf]: midKer. The two agree (midKer_eq_midRef): split each
  sum where its concatenation is joined; in every off-diagonal half each term is a product with 0, which is 0 for
  every extended real, infinite ones included, so no finiteness is needed; what is left is the tower's own sum split
  at column 64.
-/
import Mathlib.Data.EReal.Basic
import Mathlib.Algebra.BigOperators.Fin

noncomputable section

namespace Cert.Tower

open Finset

/-- The head: relu (relu C · W1ᵀ + b1) · W2ᵀ + b2, for one row C of 128 entries and a single output unit. -/
def head (C : Fin 128 → EReal) (W1 : Fin 256 → Fin 128 → EReal) (b1 : Fin 256 → EReal) (W2 : Fin 256 → EReal)
    (b2 : EReal) : EReal :=
  (∑ n : Fin 256, max ((∑ j : Fin 128, max (C j) 0 * W1 n j) + b1 n) 0 * W2 n) + b2

/-- The two towers one after the other: entries 0–63 the user tower's output, 64–127 the item tower's. -/
def midRef (ue ie : Fin 64 → EReal) (uf : Fin 21 → EReal) (itf : Fin 39 → EReal)
    (Wuf : Fin 64 → Fin 85 → EReal) (bu : Fin 64 → EReal) (Wif : Fin 64 → Fin 103 → EReal) (bi : Fin 64 → EReal) :
    Fin 128 → EReal :=
  Fin.append (m := 64) (n := 64)
    (fun j => ((∑ k : Fin 85, max ((Fin.append ue uf : Fin 85 → EReal) k) 0 * Wuf j k) + bu j) + ue j)
    (fun j => ((∑ k : Fin 103, max ((Fin.append ie itf : Fin 103 → EReal) k) 0 * Wif j k) + bi j) + ie j)

/-- The two towers merged: one product with a 128 × 128 matrix on the rectified embeddings, one with a 128 × 60 matrix
    on the rectified features, one bias row, and the embeddings added back. -/
def midKer (ue ie : Fin 64 → EReal) (uf : Fin 21 → EReal) (itf : Fin 39 → EReal)
    (Wbd : Fin 128 → Fin 128 → EReal) (Wfbd : Fin 128 → Fin 60 → EReal) (bias : Fin 128 → EReal) : Fin 128 → EReal :=
  fun j => (((∑ k : Fin 128, max ((Fin.append ue ie : Fin 128 → EReal) k) 0 * Wbd j k)
      + (∑ k : Fin 60, max ((Fin.append uf itf : Fin 60 → EReal) k) 0 * Wfbd j k)) + bias j)
      + (Fin.append ue ie : Fin 128 → EReal) j

/-- A sum over 128 entries, split at 64. -/
theorem sum_split_128 (f : Fin 128 → EReal) :
    ∑ k, f k = ∑ k : Fin 64, f (Fin.castAdd 64 k) + ∑ k : Fin 64, f (Fin.natAdd 64 k) :=
  Fin.sum_univ_add (a := 64) (b := 64) f

/-- A sum over 60 entries, split at 21. -/
theorem sum_split_60 (f : Fin 60 → EReal) :
    ∑ k, f k = ∑ k : Fin 21, f (Fin.castAdd 39 k) + ∑ k : Fin 39, f (Fin.natAdd 21 k) :=
  Fin.sum_univ_add (a := 21) (b := 39) f

/-- A sum over 85 entries, split at 64. -/
theorem sum_split_85 (f : Fin 85 → EReal) :
    ∑ k, f k = ∑ k : Fin 64, f (Fin.castAdd 21 k) + ∑ k : Fin 21, f (Fin.natAdd 64 k) :=
  Fin.sum_univ_add (a := 64) (b := 21) f

/-- A sum over 103 entries, split at 64. -/
theorem sum_split_103 (f : Fin 103 → EReal) :
    ∑ k, f k = ∑ k : Fin 64, f (Fin.castAdd 39 k) + ∑ k : Fin 39, f (Fin.natAdd 64 k) :=
  Fin.sum_univ_add (a := 64) (b := 39) f

/-- THE LAW joining the two forms. The merged matrices are described block by block: the diagonal blocks are the
    towers' own columns (embedding columns 0–63, feature columns from 64 on), the off-diagonal blocks are zero, and the
    bias row is the two bias vectors end to end. -/
theorem midKer_eq_midRef (ue ie : Fin 64 → EReal) (uf : Fin 21 → EReal) (itf : Fin 39 → EReal)
    (Wuf : Fin 64 → Fin 85 → EReal) (bu : Fin 64 → EReal) (Wif : Fin 64 → Fin 103 → EReal) (bi : Fin 64 → EReal)
    (Wbd : Fin 128 → Fin 128 → EReal) (Wfbd : Fin 128 → Fin 60 → EReal) (bias : Fin 128 → EReal)
    (e_uu : ∀ j k : Fin 64, Wbd (Fin.castAdd 64 j) (Fin.castAdd 64 k) = Wuf j (Fin.castAdd 21 k))
    (e_ui : ∀ j k : Fin 64, Wbd (Fin.castAdd 64 j) (Fin.natAdd 64 k) = 0)
    (e_iu : ∀ j k : Fin 64, Wbd (Fin.natAdd 64 j) (Fin.castAdd 64 k) = 0)
    (e_ii : ∀ j k : Fin 64, Wbd (Fin.natAdd 64 j) (Fin.natAdd 64 k) = Wif j (Fin.castAdd 39 k))
    (f_uu : ∀ (j : Fin 64) (k : Fin 21), Wfbd (Fin.castAdd 64 j) (Fin.castAdd 39 k) = Wuf j (Fin.natAdd 64 k))
    (f_ui : ∀ (j : Fin 64) (k : Fin 39), Wfbd (Fin.castAdd 64 j) (Fin.natAdd 21 k) = 0)
    (f_iu : ∀ (j : Fin 64) (k : Fin 21), Wfbd (Fin.natAdd 64 j) (Fin.castAdd 39 k) = 0)
    (f_ii : ∀ (j : Fin 64) (k : Fin 39), Wfbd (Fin.natAdd 64 j) (Fin.natAdd 21 k) = Wif j (Fin.natAdd 64 k))
    (b_u : ∀ j : Fin 64, bias (Fin.castAdd 64 j) = bu j) (b_i : ∀ j : Fin 64, bias (Fin.natAdd 64 j) = bi j) :
    midKer ue ie uf itf Wbd Wfbd bias = midRef ue ie uf itf Wuf bu Wif bi := by
  funext j
  refine Fin.addCases (m := 64) (n := 64)
    (motive := fun j => midKer ue ie uf itf Wbd Wfbd bias j = midRef ue ie uf itf Wuf bu Wif bi j)
    (fun j => ?_) (fun j => ?_) j
  · -- a user-tower entry: the item halves of both merged products vanish
    unfold midKer midRef
    simp only [Fin.append_left]
    rw [sum_split_128, sum_split_60, sum_split_85]
    simp only [Fin.append_left, Fin.append_right, e_uu, e_ui, f_uu, f_ui, b_u, mul_zero, Finset.sum_const_zero,
      add_zero]
  · -- an item-tower entry: the user halves vanish
    unfold midKer midRef
    simp only [Fin.append_right]
    rw [sum_split_128, sum_split_60, sum_split_103]
    simp only [Fin.append_left, Fin.append_right, e_iu, e_ii, f_iu, f_ii, b_i, mul_zero, Finset.sum_const_zero,
      zero_add]

end Cert.Tower

end
-- ==== Proof.TowerArray.lean ====
/-
  The network's output array as ONE function of its argument arrays, index by index.

  Output entry (r, 0) is the head applied to the two towers' outputs for batch row r: the towers read row r of the
  gathered user and item embeddings (UE, IE: whatever the two table look-ups produced, taken here as given arrays) and
  of the two feature arrays, with the weight matrices and bias vectors read entry by entry.
-/
import Idealize.ShloMosaic.Lib.ValueIdx
import proofs.«145909_j33629593927760_2_alg».proof.Proof.TowerSpec

noncomputable section

namespace Cert.Tower

open Idealize.ShloMosaic Idealize.ShloMosaic.ValueIdx

/-- A matrix of extended reals over a literal shape. -/
abbrev Arr2 (a b : Nat) : Type := (⟨2, ![a, b]⟩ : Shape).Idx → EReal
/-- A vector of extended reals over a literal shape. -/
abbrev Arr1 (a : Nat) : Type := (⟨1, ![a]⟩ : Shape).Idx → EReal

/-- Row r of a matrix, as a function of the column. -/
def rowOf {a b : Nat} (X : Arr2 a b) (r : Fin a) : Fin b → EReal := fun k => X (ix2 r k)
/-- A vector, as a function of its one coordinate. -/
def vecOf {a : Nat} (x : Arr1 a) : Fin a → EReal := fun k => x (ix1 k)
/-- A matrix, as a function of its two coordinates. -/
def matOf {a b : Nat} (X : Arr2 a b) : Fin a → Fin b → EReal := fun j k => X (ix2 j k)

/-- THE RESULT: entry (r, 0) is the head of the two towers' outputs on batch row r. -/
def G (UE IE : Arr2 16384 64) (UF : Arr2 16384 21) (IF : Arr2 16384 39)
    (Wuf : Arr2 64 85) (bu : Arr1 64) (Wif : Arr2 64 103) (bi : Arr1 64)
    (W1 : Arr2 256 128) (b1 : Arr1 256) (W2 : Arr2 1 256) (b2 : Arr1 1) : Arr2 16384 1 :=
  fun i => head
    (midRef (rowOf UE (i 0)) (rowOf IE (i 0)) (rowOf UF (i 0)) (rowOf IF (i 0)) (matOf Wuf) (vecOf bu) (matOf Wif) (vecOf bi))
    (matOf W1) (vecOf b1) (rowOf W2 0) (b2 (ix1 0))

end Cert.Tower

end
-- ==== Proof.PayloadRow.lean ====
/-
  What the kernel body computes for one row of its batch block.

  The body loads the block's rows of the two gathered embeddings (x0, x1: 4096 × 64 each) and of the two feature arrays
  (x2: 4096 × 21, x3: 4096 × 39), the merged weight matrices (x4: 128 × 128, x5: 128 × 60), the merged bias row (x6), and the
  head's operands (x7: 256 × 128, x8: the first bias row, x9: the 1 × 256 output weights, x10: the output bias). On the
  extended reals a rounding to bf16 is the identity and a matrix product into a zero accumulator is the plain sum of
  products, so entry (p, 0) of what the body stores is the head applied to the merged form of the two towers on row p of
  the block: pay_apply. The definitions below are the body's own operations grouped in stages (the body's payload terms
  unfold to them: pay2_eq, pay1_eq), and each stage is read at an entry from the stage before.
-/
import proofs.«145909_j33629593927760_2_alg».proof.Proof.Gen.KernelIdeal.Skeleton
import proofs.«145909_j33629593927760_2_alg».proof.Proof.Products
import proofs.«145909_j33629593927760_2_alg».proof.Proof.TowerArray
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayRow

open Cert.KernelIdeal Cert.KernelIdeal.Gen Cert.KernelIdeal.Products Cert.Tower
open Idealize.ShloMosaic Idealize.ShloMosaic.ValueIdx

/-- The zero word denotes the real zero. -/
theorem zero_f32 : (FloatOps.ofBits (F := Ideal) .f32 0x00000000#32 : EReal) = 0 := Ideal.ofBits_zero_f32

/-! ## The stages -/

/-- The two embedding blocks side by side: 4096 × 128. -/
def embCat (x0 x1 : Vec Ideal S4096x64 .f32) : FVec Ideal S4096x128 .f32 :=
  concatenate S4096x128 1 [⟨S4096x64, (shapeCast S4096x64 x0 shapeCasts_S4096x64_S4096x64 : FVec Ideal S4096x64 .f32)⟩,
    ⟨S4096x64, (shapeCast S4096x64 x1 shapeCasts_S4096x64_S4096x64 : FVec Ideal S4096x64 .f32)⟩] concatenates_S4096x64_S4096x64_S4096x128_d1

/-- The two feature blocks side by side: 4096 × 60. -/
def featCat (x2 : Vec Ideal S4096x21 .f32) (x3 : Vec Ideal S4096x39 .f32) : FVec Ideal S4096x60 .f32 :=
  concatenate S4096x60 1 [⟨S4096x21, x2⟩, ⟨S4096x39, x3⟩] concatenates_S4096x21_S4096x39_S4096x60_d1

/-- Rectify, then round to bf16 (the identity here). -/
def reluB {s : Shape} (v : FVec Ideal s .f32) : FVec Ideal s .bf16 :=
  truncf .bf16 (maximumf v (broadcast s (Scalar.ofBits .f32 0x00000000#32))) bitsLt_bf16_f32

/-- The merged residual stage: both merged products, the bias row, the embeddings added back. -/
def midVec (x0 x1 : Vec Ideal S4096x64 .f32) (x2 : Vec Ideal S4096x21 .f32) (x3 : Vec Ideal S4096x39 .f32)
    (x4 : Vec Ideal S128x128 .bf16) (x5 : Vec Ideal S128x60 .bf16) (x6 : Vec Ideal S1x128 .f32) : FVec Ideal S4096x128 .f32 :=
  addf (addf (addf
      (matmul dot_S4096x128_S128x128_S4096x128_1_0_0_1_n_n none (reluB (embCat x0 x1))
        (transpose S128x128 [1, 0] (shapeCast S128x128 x4 shapeCasts_S128x128_S128x128 : FVec Ideal S128x128 .bf16) transposes_S128x128_p1_0_S128x128)
        (constant S4096x128 .f32 0x00000000#32))
      (matmul dot_S4096x60_S60x128_S4096x128_1_0_0_1_n_n none (reluB (featCat x2 x3))
        (transpose S60x128 [1, 0] (shapeCast S128x60 x5 shapeCasts_S128x60_S128x60 : FVec Ideal S128x60 .bf16) transposes_S128x60_p1_0_S60x128)
        (constant S4096x128 .f32 0x00000000#32)))
      (broadcastTo S4096x128 (shapeCast S1x128 x6 shapeCasts_S1x128_S1x128 : FVec Ideal S1x128 .f32) broadcasts_S1x128_S4096x128))
    (embCat x0 x1)

/-- The head's first product, before its bias: 4096 × 256. -/
def hidVec (x0 x1 : Vec Ideal S4096x64 .f32) (x2 : Vec Ideal S4096x21 .f32) (x3 : Vec Ideal S4096x39 .f32)
    (x4 : Vec Ideal S128x128 .bf16) (x5 : Vec Ideal S128x60 .bf16) (x6 : Vec Ideal S1x128 .f32) (x7 : Vec Ideal S256x128 .bf16) : FVec Ideal S4096x256 .f32 :=
  matmul dot_S4096x128_S128x256_S4096x256_1_0_0_1_n_n none (reluB (midVec x0 x1 x2 x3 x4 x5 x6))
    (transpose S128x256 [1, 0] (shapeCast S256x128 x7 shapeCasts_S256x128_S256x128 : FVec Ideal S256x128 .bf16) transposes_S256x128_p1_0_S128x256)
    (constant S4096x256 .f32 0x00000000#32)

/-- The rest of the head: bias, rectify, the product with the output weights, the output bias: 4096 × 1. -/
def outVec (x8 : Vec Ideal S1x256 .f32) (x9 : Vec Ideal S1x256 .bf16) (x10 : Vec Ideal S1x1 .f32)
    (h : FVec Ideal S4096x256 .f32) : FVec Ideal S4096x1 .f32 :=
  addf (matmul dot_S4096x256_S256x1_S4096x1_1_0_0_1_n_n none
      (reluB (addf h (broadcastTo S4096x256 (shapeCast S1x256 x8 shapeCasts_S1x256_S1x256 : FVec Ideal S1x256 .f32) broadcasts_S1x256_S4096x256)))
      (transpose S256x1 [1, 0] (shapeCast S1x256 x9 shapeCasts_S1x256_S1x256 : FVec Ideal S1x256 .bf16) transposes_S1x256_p1_0_S256x1)
      (constant S4096x1 .f32 0x00000000#32))
    (broadcastTo S4096x1 (shapeCast S1x1 x10 shapeCasts_S1x1_S1x1 : FVec Ideal S1x1 .f32) broadcasts_S1x1_S4096x1)

/-- The body's first payload is the first three stages. -/
theorem pay2_eq (x0 x1 : Vec Ideal S4096x64 .f32) (x2 : Vec Ideal S4096x21 .f32) (x3 : Vec Ideal S4096x39 .f32)
    (x4 : Vec Ideal S128x128 .bf16) (x5 : Vec Ideal S128x60 .bf16) (x6 : Vec Ideal S1x128 .f32) (x7 : Vec Ideal S256x128 .bf16) :
    k0_pay2 (F := Ideal) x0 x1 x2 x3 x4 x5 x6 x7 = hidVec x0 x1 x2 x3 x4 x5 x6 x7 := rfl

/-- The body's stored payload is the last stage of the first. -/
theorem pay1_eq (x8 : Vec Ideal S1x256 .f32) (x9 : Vec Ideal S1x256 .bf16) (x10 : Vec Ideal S1x1 .f32)
    (h : FVec Ideal S4096x256 .f32) : k0_pay1 (F := Ideal) h x8 x9 x10 = outVec x8 x9 x10 h := rfl

/-! ## Each stage at an entry -/

/-- Rectifying, entry by entry: the maximum with zero. -/
theorem reluB_apply {s : Shape} (v : FVec Ideal s .f32) (i : s.Idx) : reluB v i = max (v i) 0 := by
  show max (v i) (FloatOps.ofBits (F := Ideal) .f32 0x00000000#32) = _
  rw [zero_f32]

/-- Row p of the joined embeddings is row p of the first block followed by row p of the second. -/
theorem embCat_apply (x0 x1 : Vec Ideal S4096x64 .f32) (p : Fin 4096) (k : Fin 128) :
    embCat x0 x1 (ix2 p k) = (Fin.append (rowOf x0 p) (rowOf x1 p) : Fin 128 → EReal) k := by
  unfold embCat
  simp only [shapeCast_self]
  refine Fin.addCases (m := 64) (n := 64)
    (motive := fun k => concatenate S4096x128 1 [⟨S4096x64, x0⟩, ⟨S4096x64, x1⟩] concatenates_S4096x64_S4096x64_S4096x128_d1 (ix2 p k)
      = (Fin.append (rowOf x0 p) (rowOf x1 p) : Fin 128 → EReal) k) (fun k => ?_) (fun k => ?_) k
  · rw [Fin.append_left]
    exact concatenate_pair_apply_left 1 x0 x1 concatenates_S4096x64_S4096x64_S4096x128_d1 (ix2 p (Fin.castAdd 64 k)) rfl (ix2 p k)
      (fun b => by match b with | ⟨0, _⟩ => rfl | ⟨1, _⟩ => rfl)
  · rw [Fin.append_right]
    exact concatenate_pair_apply_right 1 x0 x1 concatenates_S4096x64_S4096x64_S4096x128_d1 (ix2 p (Fin.natAdd 64 k)) rfl rfl (ix2 p k)
      (fun b hb => by match b, hb with | ⟨0, _⟩, _ => rfl | ⟨1, _⟩, hb => exact absurd rfl hb)
      (by show k.val + 64 = 64 + k.val; omega)

/-- Row p of the joined features is row p of the user features followed by row p of the item features. -/
theorem featCat_apply (x2 : Vec Ideal S4096x21 .f32) (x3 : Vec Ideal S4096x39 .f32) (p : Fin 4096) (k : Fin 60) :
    featCat x2 x3 (ix2 p k) = (Fin.append (rowOf x2 p) (rowOf x3 p) : Fin 60 → EReal) k := by
  unfold featCat
  refine Fin.addCases (m := 21) (n := 39)
    (motive := fun k => concatenate S4096x60 1 [⟨S4096x21, x2⟩, ⟨S4096x39, x3⟩] concatenates_S4096x21_S4096x39_S4096x60_d1 (ix2 p k)
      = (Fin.append (rowOf x2 p) (rowOf x3 p) : Fin 60 → EReal) k) (fun k => ?_) (fun k => ?_) k
  · rw [Fin.append_left]
    exact concatenate_pair_apply_left 1 x2 x3 concatenates_S4096x21_S4096x39_S4096x60_d1 (ix2 p (Fin.castAdd 39 k)) rfl (ix2 p k)
      (fun b => by match b with | ⟨0, _⟩ => rfl | ⟨1, _⟩ => rfl)
  · rw [Fin.append_right]
    exact concatenate_pair_apply_right 1 x2 x3 concatenates_S4096x21_S4096x39_S4096x60_d1 (ix2 p (Fin.natAdd 21 k)) rfl rfl (ix2 p k)
      (fun b hb => by match b, hb with | ⟨0, _⟩, _ => rfl | ⟨1, _⟩, hb => exact absurd rfl hb)
      (by show k.val + 21 = 21 + k.val; omega)

/-- The merged residual stage at (p, j) is the merged form of the two towers on row p. -/
theorem midVec_apply (x0 x1 : Vec Ideal S4096x64 .f32) (x2 : Vec Ideal S4096x21 .f32) (x3 : Vec Ideal S4096x39 .f32)
    (x4 : Vec Ideal S128x128 .bf16) (x5 : Vec Ideal S128x60 .bf16) (x6 : Vec Ideal S1x128 .f32) (p : Fin 4096) (j : Fin 128) :
    midVec x0 x1 x2 x3 x4 x5 x6 (ix2 p j)
      = midKer (rowOf x0 p) (rowOf x1 p) (rowOf x2 p) (rowOf x3 p) (matOf x4) (matOf x5) (rowOf x6 0) j := by
  unfold midVec midKer
  simp only [shapeCast_self, addf_apply]
  rw [mm_emb, mm_feat, broadcastTo_1b_ab_apply, embCat_apply]
  refine congrArg₂ (· + ·) (congrArg₂ (· + ·) (congrArg₂ (· + ·)
    (Finset.sum_congr rfl fun k _ => ?_) (Finset.sum_congr rfl fun k _ => ?_)) rfl) rfl
  · rw [reluB_apply, embCat_apply, transpose_ix2_apply]; rfl
  · rw [reluB_apply, featCat_apply, transpose_ix2_apply]; rfl

/-- The head's first product at (p, n). -/
theorem hidVec_apply (x0 x1 : Vec Ideal S4096x64 .f32) (x2 : Vec Ideal S4096x21 .f32) (x3 : Vec Ideal S4096x39 .f32)
    (x4 : Vec Ideal S128x128 .bf16) (x5 : Vec Ideal S128x60 .bf16) (x6 : Vec Ideal S1x128 .f32) (x7 : Vec Ideal S256x128 .bf16) (p : Fin 4096) (n : Fin 256) :
    hidVec x0 x1 x2 x3 x4 x5 x6 x7 (ix2 p n)
      = ∑ j : Fin 128, max (midKer (rowOf x0 p) (rowOf x1 p) (rowOf x2 p) (rowOf x3 p) (matOf x4) (matOf x5) (rowOf x6 0) j) 0
          * x7 (ix2 n j) := by
  unfold hidVec
  simp only [shapeCast_self]
  rw [mm_hid]
  refine Finset.sum_congr rfl fun j _ => ?_
  rw [reluB_apply, midVec_apply, transpose_ix2_apply]

/-- The last stage at (p, 0). -/
theorem outVec_apply (x8 : Vec Ideal S1x256 .f32) (x9 : Vec Ideal S1x256 .bf16) (x10 : Vec Ideal S1x1 .f32)
    (h : FVec Ideal S4096x256 .f32) (p : Fin 4096) :
    outVec x8 x9 x10 h (ix2 p (0 : Fin 1))
      = (∑ n : Fin 256, max (h (ix2 p n) + x8 (ix2 (0 : Fin 1) n)) 0 * x9 (ix2 (0 : Fin 1) n)) + x10 (ix2 (0 : Fin 1) (0 : Fin 1)) := by
  unfold outVec
  simp only [shapeCast_self, addf_apply]
  rw [mm_out, broadcastTo_1b_ab_apply]
  refine congrArg (· + x10 (ix2 (0 : Fin 1) (0 : Fin 1))) (Finset.sum_congr rfl fun n _ => ?_)
  rw [reluB_apply, addf_apply, broadcastTo_1b_ab_apply, transpose_ix2_apply]

/-- WHAT THE BODY STORES at (p, 0): the head of the merged towers on row p of the block. -/
theorem pay_apply (x0 x1 : Vec Ideal S4096x64 .f32) (x2 : Vec Ideal S4096x21 .f32) (x3 : Vec Ideal S4096x39 .f32)
    (x4 : Vec Ideal S128x128 .bf16) (x5 : Vec Ideal S128x60 .bf16) (x6 : Vec Ideal S1x128 .f32) (x7 : Vec Ideal S256x128 .bf16)
    (x8 : Vec Ideal S1x256 .f32) (x9 : Vec Ideal S1x256 .bf16) (x10 : Vec Ideal S1x1 .f32) (p : Fin 4096) :
    k0_pay1 (F := Ideal) (k0_pay2 x0 x1 x2 x3 x4 x5 x6 x7) x8 x9 x10 (ix2 p (0 : Fin 1))
      = head (midKer (rowOf x0 p) (rowOf x1 p) (rowOf x2 p) (rowOf x3 p) (matOf x4) (matOf x5) (rowOf x6 0))
          (matOf x7) (rowOf x8 0) (rowOf x9 0) (x10 (ix2 (0 : Fin 1) (0 : Fin 1))) := by
  rw [pay2_eq, pay1_eq, outVec_apply]
  unfold head
  refine congrArg (· + x10 (ix2 (0 : Fin 1) (0 : Fin 1))) (Finset.sum_congr rfl fun n _ => ?_)
  rw [hidVec_apply]
  rfl

end Cert.KernelIdeal.PayRow

end
-- ==== Proof.MergedArray.lean ====
/-
  The output array in its MERGED form, and that it is the same array.

  GK is the output array computed the merged way: the head applied to the merged form of the two towers (TowerSpec's
  midKer), from the two gathered embedding arrays, the two feature arrays, a 128 × 128 and a 128 × 60 merged weight
  matrix, a 1 × 128 merged bias row, and the head's operands with its two bias vectors laid out as a row and as a single
  entry. When the merged matrices are the towers' own weights on the diagonal blocks and zero off them, the bias row the
  two bias vectors end to end, and the row and the entry the head's bias vectors, GK is G: entry by entry this is the law
  midKer_eq_midRef.
-/
import proofs.«145909_j33629593927760_2_alg».proof.Proof.TowerArray

noncomputable section

namespace Cert.Tower

open Idealize.ShloMosaic Idealize.ShloMosaic.ValueIdx

/-- The output array, the merged way. -/
def GK (UE IE : Arr2 16384 64) (UF : Arr2 16384 21) (IF : Arr2 16384 39)
    (Wbd : Arr2 128 128) (Wfbd : Arr2 128 60) (B : Arr2 1 128)
    (W1 : Arr2 256 128) (b1r : Arr2 1 256) (W2 : Arr2 1 256) (b2m : Arr2 1 1) : Arr2 16384 1 :=
  fun i => head
    (midKer (rowOf UE (i 0)) (rowOf IE (i 0)) (rowOf UF (i 0)) (rowOf IF (i 0)) (matOf Wbd) (matOf Wfbd) (rowOf B 0))
    (matOf W1) (rowOf b1r 0) (rowOf W2 0) (b2m (ix2 (0 : Fin 1) (0 : Fin 1)))

/-- The merged form is the result, when the merged operands are what their names say. -/
theorem GK_eq_G (UE IE : Arr2 16384 64) (UF : Arr2 16384 21) (IF : Arr2 16384 39)
    (Wuf : Arr2 64 85) (bu : Arr1 64) (Wif : Arr2 64 103) (bi : Arr1 64)
    (W1 : Arr2 256 128) (b1 : Arr1 256) (W2 : Arr2 1 256) (b2 : Arr1 1)
    (Wbd : Arr2 128 128) (Wfbd : Arr2 128 60) (B : Arr2 1 128) (b1r : Arr2 1 256) (b2m : Arr2 1 1)
    (e_uu : ∀ j k : Fin 64, Wbd (ix2 (Fin.castAdd 64 j) (Fin.castAdd 64 k)) = Wuf (ix2 j (Fin.castAdd 21 k)))
    (e_ui : ∀ j k : Fin 64, Wbd (ix2 (Fin.castAdd 64 j) (Fin.natAdd 64 k)) = 0)
    (e_iu : ∀ j k : Fin 64, Wbd (ix2 (Fin.natAdd 64 j) (Fin.castAdd 64 k)) = 0)
    (e_ii : ∀ j k : Fin 64, Wbd (ix2 (Fin.natAdd 64 j) (Fin.natAdd 64 k)) = Wif (ix2 j (Fin.castAdd 39 k)))
    (f_uu : ∀ (j : Fin 64) (k : Fin 21), Wfbd (ix2 (Fin.castAdd 64 j) (Fin.castAdd 39 k)) = Wuf (ix2 j (Fin.natAdd 64 k)))
    (f_ui : ∀ (j : Fin 64) (k : Fin 39), Wfbd (ix2 (Fin.castAdd 64 j) (Fin.natAdd 21 k)) = 0)
    (f_iu : ∀ (j : Fin 64) (k : Fin 21), Wfbd (ix2 (Fin.natAdd 64 j) (Fin.castAdd 39 k)) = 0)
    (f_ii : ∀ (j : Fin 64) (k : Fin 39), Wfbd (ix2 (Fin.natAdd 64 j) (Fin.natAdd 21 k)) = Wif (ix2 j (Fin.natAdd 64 k)))
    (b_u : ∀ j : Fin 64, B (ix2 (0 : Fin 1) (Fin.castAdd 64 j)) = bu (ix1 j))
    (b_i : ∀ j : Fin 64, B (ix2 (0 : Fin 1) (Fin.natAdd 64 j)) = bi (ix1 j))
    (h_b1 : ∀ n : Fin 256, b1r (ix2 (0 : Fin 1) n) = b1 (ix1 n))
    (h_b2 : b2m (ix2 (0 : Fin 1) (0 : Fin 1)) = b2 (ix1 (0 : Fin 1))) :
    GK UE IE UF IF Wbd Wfbd B W1 b1r W2 b2m = G UE IE UF IF Wuf bu Wif bi W1 b1 W2 b2 := by
  funext i
  unfold GK G
  rw [midKer_eq_midRef (rowOf UE (i 0)) (rowOf IE (i 0)) (rowOf UF (i 0)) (rowOf IF (i 0))
    (matOf Wuf) (vecOf bu) (matOf Wif) (vecOf bi) (matOf Wbd) (matOf Wfbd) (rowOf B 0)
    e_uu e_ui e_iu e_ii f_uu f_ui f_iu f_ii b_u b_i]
  have hb1 : rowOf b1r (0 : Fin 1) = vecOf b1 := funext h_b1
  rw [hb1, h_b2]

end Cert.Tower

end
-- ==== Proof.OutputCover.lean ====
/-
  The four output blocks cover the output array.

  The output array has 16384 rows and one column; the grid has four points, and point t writes back the block of rows
  4096 t to 4096 t + 4095 (block index (t, 0), block extents 4096 by 1). Every point writes back. So the row r of any
  index lies in the block of the point r / 4096, which is below 4 because r is below 16384, and the column, which is
  0, lies in the block's single column.
-/
import proofs.«145909_j33629593927760_2_alg».proof.Proof.Gen.KernelIdeal.Value
import Idealize.ShloMosaic.Lib.Pipeline.Value

noncomputable section

namespace Cert.KernelIdeal.Cover

open Cert.KernelIdeal Cert.KernelIdeal.Gen Idealize.ShloMosaic Idealize.ShloMosaic.TcCoe

variable {F : FTy → Type} [FloatOps F]

/-- The output window's block index at grid point t is (t, 0) (decided over the four points). -/
theorem idx11 : ∀ t : Fin cfg0.N, win0_11.index t (0 : Fin 2) = t.val ∧ win0_11.index t (1 : Fin 2) = 0 :=
  (by decide +kernel : ∀ t : Fin grid0.N, win0_11.index t (0 : Fin 2) = t.val ∧ win0_11.index t (1 : Fin 2) = 0)

/-- An index of the output array is in point t's block iff each coordinate is in the block's range on its axis. -/
theorem mem_blk11 (t : Fin cfg0.N) (i : S16384x1.Idx) :
    i ∈ ((cfg0.win 11).blk t).view.set ↔ ∀ a : Fin 2, win0_11.index t a * S4096x1.size a ≤ (i a).val ∧ (i a).val < win0_11.index t a * S4096x1.size a + S4096x1.size a := by
  show i ∈ ((View.whole main_v35).slice (win0_11.rect t)).set ↔ _
  rw [View.set_slice_whole, Rect.mem_set_unit]
  exact Iff.rfl

/-- EVERY INDEX IS COVERED: index (r, 0) is in the block of the point r / 4096, which writes back. -/
theorem cover : ∀ i : S16384x1.Idx, ∃ t : Fin cfg0.N, (cfg0.win 11).flush t = true ∧ i ∈ ((cfg0.win 11).blk t).view.set := by
  intro i
  have h0 : (i 0).val < 16384 := (i 0).isLt
  have h1 : (i 1).val < 1 := (i 1).isLt
  -- the point: the row divided by the block height, below the number of points, which is 4
  obtain ⟨t, ht⟩ : ∃ t : Fin cfg0.N, t.val = (i 0).val / 4096 :=
    ⟨⟨(i 0).val / 4096, by show (i 0).val / 4096 < grid0.N; rw [N_0]; omega⟩, rfl⟩
  obtain ⟨q0, q1⟩ := idx11 t
  refine ⟨t, flush0_11 t, ?_⟩
  rw [mem_blk11]
  intro a
  match a with
  | ⟨0, _⟩ =>
    show win0_11.index t (0 : Fin 2) * 4096 ≤ (i 0).val ∧ (i 0).val < win0_11.index t (0 : Fin 2) * 4096 + 4096
    omega
  | ⟨1, _⟩ =>
    show win0_11.index t (1 : Fin 2) * 1 ≤ (i 1).val ∧ (i 1).val < win0_11.index t (1 : Fin 2) * 1 + 1
    omega

end Cert.KernelIdeal.Cover

end
-- ==== Proof.KernelValue.lean ====
/-
  From the blocks to the array: what the kernel's output array holds after the run.

  The grid has four points; point t stages rows 4096 t … 4096 t + 4095 of the two gathered embedding arrays and of the two
  feature arrays (block index (t, 0)), the whole of every other operand (block index (0, 0) at every point), runs the
  body, and writes the body's 4096 × 1 result back as rows 4096 t … of the output. So row (y 0) of a staged batch block is
  the array's row at the same place as the output block's row (y 0), a resident block is its array, and by what the body
  stores at a row (PayloadRow) point t writes back exactly block t of ONE function of the arrays the region finds: the
  merged form GK of the output array. The four blocks cover the output array, so the array ends holding GK of those
  arrays.
-/
import proofs.«145909_j33629593927760_2_alg».proof.Proof.Gen.KernelIdeal.Value
import proofs.«145909_j33629593927760_2_alg».proof.Proof.PayloadRow
import proofs.«145909_j33629593927760_2_alg».proof.Proof.MergedArray
import proofs.«145909_j33629593927760_2_alg».proof.Proof.OutputCover
import Idealize.ShloMosaic.Lib.Pipeline.Value

noncomputable section

namespace Cert.KernelIdeal.KerValue

open Cert.KernelIdeal Cert.KernelIdeal.Gen Cert.KernelIdeal.Value Cert.Tower
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The index maps, decided over the four grid points -/

theorem idx_batch0 : ∀ t : Fin cfg0.N, win0_11.index t (0 : Fin 2) = t.val ∧ win0_11.index t (1 : Fin 2) = 0
    ∧ win0_0.index t (0 : Fin 2) = t.val ∧ win0_0.index t (1 : Fin 2) = 0 :=
  (by decide +kernel : ∀ t : Fin grid0.N, _)
theorem idx_batch1 : ∀ t : Fin cfg0.N, win0_11.index t (0 : Fin 2) = t.val ∧ win0_11.index t (1 : Fin 2) = 0
    ∧ win0_1.index t (0 : Fin 2) = t.val ∧ win0_1.index t (1 : Fin 2) = 0 :=
  (by decide +kernel : ∀ t : Fin grid0.N, _)
theorem idx_batch2 : ∀ t : Fin cfg0.N, win0_11.index t (0 : Fin 2) = t.val ∧ win0_11.index t (1 : Fin 2) = 0
    ∧ win0_2.index t (0 : Fin 2) = t.val ∧ win0_2.index t (1 : Fin 2) = 0 :=
  (by decide +kernel : ∀ t : Fin grid0.N, _)
theorem idx_batch3 : ∀ t : Fin cfg0.N, win0_11.index t (0 : Fin 2) = t.val ∧ win0_11.index t (1 : Fin 2) = 0
    ∧ win0_3.index t (0 : Fin 2) = t.val ∧ win0_3.index t (1 : Fin 2) = 0 :=
  (by decide +kernel : ∀ t : Fin grid0.N, _)

theorem idx_res4 : ∀ t : Fin cfg0.N, win0_4.index t (0 : Fin 2) = 0 ∧ win0_4.index t (1 : Fin 2) = 0 :=
  (by decide +kernel : ∀ t : Fin grid0.N, _)
theorem idx_res5 : ∀ t : Fin cfg0.N, win0_5.index t (0 : Fin 2) = 0 ∧ win0_5.index t (1 : Fin 2) = 0 :=
  (by decide +kernel : ∀ t : Fin grid0.N, _)
theorem idx_res6 : ∀ t : Fin cfg0.N, win0_6.index t (0 : Fin 2) = 0 ∧ win0_6.index t (1 : Fin 2) = 0 :=
  (by decide +kernel : ∀ t : Fin grid0.N, _)
theorem idx_res7 : ∀ t : Fin cfg0.N, win0_7.index t (0 : Fin 2) = 0 ∧ win0_7.index t (1 : Fin 2) = 0 :=
  (by decide +kernel : ∀ t : Fin grid0.N, _)
theorem idx_res8 : ∀ t : Fin cfg0.N, win0_8.index t (0 : Fin 2) = 0 ∧ win0_8.index t (1 : Fin 2) = 0 :=
  (by decide +kernel : ∀ t : Fin grid0.N, _)
theorem idx_res9 : ∀ t : Fin cfg0.N, win0_9.index t (0 : Fin 2) = 0 ∧ win0_9.index t (1 : Fin 2) = 0 :=
  (by decide +kernel : ∀ t : Fin grid0.N, _)
theorem idx_res10 : ∀ t : Fin cfg0.N, win0_10.index t (0 : Fin 2) = 0 ∧ win0_10.index t (1 : Fin 2) = 0 :=
  (by decide +kernel : ∀ t : Fin grid0.N, _)

/-! ## What the body stores at any entry of its block -/

/-- The stored payload at an entry y of the 4096 × 1 block: the head of the merged towers on row (y 0). -/
theorem pay_at (x0 x1 : Vec Ideal S4096x64 .f32) (x2 : Vec Ideal S4096x21 .f32) (x3 : Vec Ideal S4096x39 .f32)
    (x4 : Vec Ideal S128x128 .bf16) (x5 : Vec Ideal S128x60 .bf16) (x6 : Vec Ideal S1x128 .f32) (x7 : Vec Ideal S256x128 .bf16)
    (x8 : Vec Ideal S1x256 .f32) (x9 : Vec Ideal S1x256 .bf16) (x10 : Vec Ideal S1x1 .f32) (y : S4096x1.Idx) :
    k0_pay1 (F := Ideal) (k0_pay2 x0 x1 x2 x3 x4 x5 x6 x7) x8 x9 x10 y
      = head (midKer (rowOf x0 (y 0)) (rowOf x1 (y 0)) (rowOf x2 (y 0)) (rowOf x3 (y 0)) (matOf x4) (matOf x5) (rowOf x6 0))
          (matOf x7) (rowOf x8 0) (rowOf x9 0) (x10 (ix2 (0 : Fin 1) (0 : Fin 1))) := by
  obtain ⟨p, q, rfl⟩ : ∃ (p : Fin 4096) (q : Fin 1), y = ix2 p q := ⟨y 0, y 1, eq_ix2 y⟩
  obtain rfl : q = 0 := Subsingleton.elim _ _
  exact PayRow.pay_apply x0 x1 x2 x3 x4 x5 x6 x7 x8 x9 x10 p

/-! ## The blocks as reads of the arrays the region finds -/

/-- Row (y 0) of batch window 0's block at point t is the array's row under the output block's row (y 0). -/
theorem batch0 (c : Dev nD) (t : Fin cfg0.N) (y : S4096x1.Idx) :
    rowOf (iblk m c 0 t : Vec Ideal S4096x64 .f32) (y 0)
      = rowOf (V m c main_v6 : S16384x64.Idx → EReal) ((((cfg0.win 11).blk t).view.emb y) 0) := by
  obtain ⟨e11, -, e0, e1⟩ := idx_batch0 t
  funext k
  show V m c main_v6 (((cfg0.win 0).blk t).view.emb (ix2 (y 0) k)) = V m c main_v6 (ix2 ((((cfg0.win 11).blk t).view.emb y) 0) k)
  have h : ((cfg0.win 0).blk t).view.emb (ix2 (y 0) k) = ix2 ((((cfg0.win 11).blk t).view.emb y) 0) k := by
    funext a; apply Fin.ext
    match a with
    | ⟨0, _⟩ => show win0_0.index t (0 : Fin 2) * 4096 + 1 * (y 0).val = win0_11.index t (0 : Fin 2) * 4096 + 1 * (y 0).val; rw [e0, e11]
    | ⟨1, _⟩ => show win0_0.index t (1 : Fin 2) * 64 + 1 * k.val = k.val; rw [e1]; omega
  rw [h]
  rfl

/-- Row (y 0) of batch window 1's block at point t is the array's row under the output block's row (y 0). -/
theorem batch1 (c : Dev nD) (t : Fin cfg0.N) (y : S4096x1.Idx) :
    rowOf (iblk m c 1 t : Vec Ideal S4096x64 .f32) (y 0)
      = rowOf (V m c main_v13 : S16384x64.Idx → EReal) ((((cfg0.win 11).blk t).view.emb y) 0) := by
  obtain ⟨e11, -, e0, e1⟩ := idx_batch1 t
  funext k
  show V m c main_v13 (((cfg0.win 1).blk t).view.emb (ix2 (y 0) k)) = V m c main_v13 (ix2 ((((cfg0.win 11).blk t).view.emb y) 0) k)
  have h : ((cfg0.win 1).blk t).view.emb (ix2 (y 0) k) = ix2 ((((cfg0.win 11).blk t).view.emb y) 0) k := by
    funext a; apply Fin.ext
    match a with
    | ⟨0, _⟩ => show win0_1.index t (0 : Fin 2) * 4096 + 1 * (y 0).val = win0_11.index t (0 : Fin 2) * 4096 + 1 * (y 0).val; rw [e0, e11]
    | ⟨1, _⟩ => show win0_1.index t (1 : Fin 2) * 64 + 1 * k.val = k.val; rw [e1]; omega
  rw [h]
  rfl

/-- Row (y 0) of batch window 2's block at point t is the array's row under the output block's row (y 0). -/
theorem batch2 (c : Dev nD) (t : Fin cfg0.N) (y : S4096x1.Idx) :
    rowOf (iblk m c 2 t : Vec Ideal S4096x21 .f32) (y 0)
      = rowOf (V m c main_arg2 : S16384x21.Idx → EReal) ((((cfg0.win 11).blk t).view.emb y) 0) := by
  obtain ⟨e11, -, e0, e1⟩ := idx_batch2 t
  funext k
  show V m c main_arg2 (((cfg0.win 2).blk t).view.emb (ix2 (y 0) k)) = V m c main_arg2 (ix2 ((((cfg0.win 11).blk t).view.emb y) 0) k)
  have h : ((cfg0.win 2).blk t).view.emb (ix2 (y 0) k) = ix2 ((((cfg0.win 11).blk t).view.emb y) 0) k := by
    funext a; apply Fin.ext
    match a with
    | ⟨0, _⟩ => show win0_2.index t (0 : Fin 2) * 4096 + 1 * (y 0).val = win0_11.index t (0 : Fin 2) * 4096 + 1 * (y 0).val; rw [e0, e11]
    | ⟨1, _⟩ => show win0_2.index t (1 : Fin 2) * 21 + 1 * k.val = k.val; rw [e1]; omega
  rw [h]
  rfl

/-- Row (y 0) of batch window 3's block at point t is the array's row under the output block's row (y 0). -/
theorem batch3 (c : Dev nD) (t : Fin cfg0.N) (y : S4096x1.Idx) :
    rowOf (iblk m c 3 t : Vec Ideal S4096x39 .f32) (y 0)
      = rowOf (V m c main_arg3 : S16384x39.Idx → EReal) ((((cfg0.win 11).blk t).view.emb y) 0) := by
  obtain ⟨e11, -, e0, e1⟩ := idx_batch3 t
  funext k
  show V m c main_arg3 (((cfg0.win 3).blk t).view.emb (ix2 (y 0) k)) = V m c main_arg3 (ix2 ((((cfg0.win 11).blk t).view.emb y) 0) k)
  have h : ((cfg0.win 3).blk t).view.emb (ix2 (y 0) k) = ix2 ((((cfg0.win 11).blk t).view.emb y) 0) k := by
    funext a; apply Fin.ext
    match a with
    | ⟨0, _⟩ => show win0_3.index t (0 : Fin 2) * 4096 + 1 * (y 0).val = win0_11.index t (0 : Fin 2) * 4096 + 1 * (y 0).val; rw [e0, e11]
    | ⟨1, _⟩ => show win0_3.index t (1 : Fin 2) * 39 + 1 * k.val = k.val; rw [e1]; omega
  rw [h]
  rfl

/-- Resident window 4's block at every point is its whole array. -/
theorem res4 (c : Dev nD) (t : Fin cfg0.N) :
    (iblk m c 4 t : Vec Ideal S128x128 .bf16) = (V m c main_v29 : S128x128.Idx → EReal) := by
  obtain ⟨e0, e1⟩ := idx_res4 t
  funext y
  show V m c main_v29 (((cfg0.win 4).blk t).view.emb y) = V m c main_v29 y
  have h : ((cfg0.win 4).blk t).view.emb y = y := by
    funext a; apply Fin.ext
    match a with
    | ⟨0, _⟩ => show win0_4.index t (0 : Fin 2) * 128 + 1 * (y 0).val = (y 0).val; rw [e0]; omega
    | ⟨1, _⟩ => show win0_4.index t (1 : Fin 2) * 128 + 1 * (y 1).val = (y 1).val; rw [e1]; omega
  rw [h]

/-- Resident window 5's block at every point is its whole array. -/
theorem res5 (c : Dev nD) (t : Fin cfg0.N) :
    (iblk m c 5 t : Vec Ideal S128x60 .bf16) = (V m c main_v30 : S128x60.Idx → EReal) := by
  obtain ⟨e0, e1⟩ := idx_res5 t
  funext y
  show V m c main_v30 (((cfg0.win 5).blk t).view.emb y) = V m c main_v30 y
  have h : ((cfg0.win 5).blk t).view.emb y = y := by
    funext a; apply Fin.ext
    match a with
    | ⟨0, _⟩ => show win0_5.index t (0 : Fin 2) * 128 + 1 * (y 0).val = (y 0).val; rw [e0]; omega
    | ⟨1, _⟩ => show win0_5.index t (1 : Fin 2) * 60 + 1 * (y 1).val = (y 1).val; rw [e1]; omega
  rw [h]

/-- Resident window 6's block at every point is its whole array. -/
theorem res6 (c : Dev nD) (t : Fin cfg0.N) :
    (iblk m c 6 t : Vec Ideal S1x128 .f32) = (V m c main_v28 : S1x128.Idx → EReal) := by
  obtain ⟨e0, e1⟩ := idx_res6 t
  funext y
  show V m c main_v28 (((cfg0.win 6).blk t).view.emb y) = V m c main_v28 y
  have h : ((cfg0.win 6).blk t).view.emb y = y := by
    funext a; apply Fin.ext
    match a with
    | ⟨0, _⟩ => show win0_6.index t (0 : Fin 2) * 1 + 1 * (y 0).val = (y 0).val; rw [e0]; omega
    | ⟨1, _⟩ => show win0_6.index t (1 : Fin 2) * 128 + 1 * (y 1).val = (y 1).val; rw [e1]; omega
  rw [h]

/-- Resident window 7's block at every point is its whole array. -/
theorem res7 (c : Dev nD) (t : Fin cfg0.N) :
    (iblk m c 7 t : Vec Ideal S256x128 .bf16) = (V m c main_v31 : S256x128.Idx → EReal) := by
  obtain ⟨e0, e1⟩ := idx_res7 t
  funext y
  show V m c main_v31 (((cfg0.win 7).blk t).view.emb y) = V m c main_v31 y
  have h : ((cfg0.win 7).blk t).view.emb y = y := by
    funext a; apply Fin.ext
    match a with
    | ⟨0, _⟩ => show win0_7.index t (0 : Fin 2) * 256 + 1 * (y 0).val = (y 0).val; rw [e0]; omega
    | ⟨1, _⟩ => show win0_7.index t (1 : Fin 2) * 128 + 1 * (y 1).val = (y 1).val; rw [e1]; omega
  rw [h]

/-- Resident window 8's block at every point is its whole array. -/
theorem res8 (c : Dev nD) (t : Fin cfg0.N) :
    (iblk m c 8 t : Vec Ideal S1x256 .f32) = (V m c main_v33 : S1x256.Idx → EReal) := by
  obtain ⟨e0, e1⟩ := idx_res8 t
  funext y
  show V m c main_v33 (((cfg0.win 8).blk t).view.emb y) = V m c main_v33 y
  have h : ((cfg0.win 8).blk t).view.emb y = y := by
    funext a; apply Fin.ext
    match a with
    | ⟨0, _⟩ => show win0_8.index t (0 : Fin 2) * 1 + 1 * (y 0).val = (y 0).val; rw [e0]; omega
    | ⟨1, _⟩ => show win0_8.index t (1 : Fin 2) * 256 + 1 * (y 1).val = (y 1).val; rw [e1]; omega
  rw [h]

/-- Resident window 9's block at every point is its whole array. -/
theorem res9 (c : Dev nD) (t : Fin cfg0.N) :
    (iblk m c 9 t : Vec Ideal S1x256 .bf16) = (V m c main_v32 : S1x256.Idx → EReal) := by
  obtain ⟨e0, e1⟩ := idx_res9 t
  funext y
  show V m c main_v32 (((cfg0.win 9).blk t).view.emb y) = V m c main_v32 y
  have h : ((cfg0.win 9).blk t).view.emb y = y := by
    funext a; apply Fin.ext
    match a with
    | ⟨0, _⟩ => show win0_9.index t (0 : Fin 2) * 1 + 1 * (y 0).val = (y 0).val; rw [e0]; omega
    | ⟨1, _⟩ => show win0_9.index t (1 : Fin 2) * 256 + 1 * (y 1).val = (y 1).val; rw [e1]; omega
  rw [h]

/-- Resident window 10's block at every point is its whole array. -/
theorem res10 (c : Dev nD) (t : Fin cfg0.N) :
    (iblk m c 10 t : Vec Ideal S1x1 .f32) = (V m c main_v34 : S1x1.Idx → EReal) := by
  obtain ⟨e0, e1⟩ := idx_res10 t
  funext y
  show V m c main_v34 (((cfg0.win 10).blk t).view.emb y) = V m c main_v34 y
  have h : ((cfg0.win 10).blk t).view.emb y = y := by
    funext a; apply Fin.ext
    match a with
    | ⟨0, _⟩ => show win0_10.index t (0 : Fin 2) * 1 + 1 * (y 0).val = (y 0).val; rw [e0]; omega
    | ⟨1, _⟩ => show win0_10.index t (1 : Fin 2) * 1 + 1 * (y 1).val = (y 1).val; rw [e1]; omega
  rw [h]

/-! ## The output array -/

/-- The merged form of the output array, of the arrays as the region finds them. -/
def kG (c : Dev nD) : S16384x1.Idx → EReal :=
  GK (V m c main_v6 : S16384x64.Idx → EReal) (V m c main_v13 : S16384x64.Idx → EReal)
    (V m c main_arg2 : S16384x21.Idx → EReal) (V m c main_arg3 : S16384x39.Idx → EReal)
    (V m c main_v29 : S128x128.Idx → EReal) (V m c main_v30 : S128x60.Idx → EReal) (V m c main_v28 : S1x128.Idx → EReal)
    (V m c main_v31 : S256x128.Idx → EReal) (V m c main_v33 : S1x256.Idx → EReal) (V m c main_v32 : S1x256.Idx → EReal)
    (V m c main_v34 : S1x1.Idx → EReal)

/-- WHAT POINT t WRITES BACK is block t of the merged form. -/
theorem flushed_eq (c : Dev nD) (t : Fin cfg0.N) :
    (dats m 0 c).flushed 11 t = ((cfg0.win 11).blk t).view.read (Elt Ideal) (kG m c) := by
  rw [flushed11]
  unfold out0_11
  rw [View.canon_unit_zero hz]
  simp only [View.ld_unit_zero (S := S4096x64) hz, View.ld_unit_zero (S := S4096x21) hz, View.ld_unit_zero (S := S4096x39) hz, View.ld_unit_zero (S := S128x128) hz, View.ld_unit_zero (S := S128x60) hz, View.ld_unit_zero (S := S1x128) hz, View.ld_unit_zero (S := S256x128) hz, View.ld_unit_zero (S := S1x256) hz, View.ld_unit_zero (S := S1x1) hz]
  funext y
  refine (pay_at (iblk m c 0 t) (iblk m c 1 t) (iblk m c 2 t) (iblk m c 3 t) (iblk m c 4 t) (iblk m c 5 t) (iblk m c 6 t) (iblk m c 7 t) (iblk m c 8 t) (iblk m c 9 t) (iblk m c 10 t) y).trans ?_
  rw [batch0 m c t y, batch1 m c t y, batch2 m c t y, batch3 m c t y, res4 m c t, res5 m c t, res6 m c t, res7 m c t,
    res8 m c t, res9 m c t, res10 m c t]
  rfl

/-- THE ARRAY after the run: the merged form of the arrays the region finds. -/
theorem final (c : Dev nD) : (dats m 0 c).arrAt 11 cfg0.N = kG m c :=
  (dats m 0 c).arrAt_eq_of_cover 11 (kG m c) (fun t _ => flushed_eq m c t) Cover.cover

/-- The run, read: the output array at the merged form, the arguments unchanged. -/
theorem run : θ_run defs (onTc (τ := τ) (main (F := Ideal))) ⟨m, fun _ => 0, ρ⟩ fun r => ∀ c : Dev nD,
      r.2.mem ((c : Thread nD τ).loc main_v35) = kG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (run_blocks m ρ)

end Cert.KernelIdeal.KerValue

end
-- ==== Proof.MergedWeights.lean ====
/-
  What the region finds in the arrays written before it.

  Before its one region the program prepares the region's operands from the argument arrays: the two table look-ups
  (kept here as the look-up terms themselves, never opened), and the MERGED weights of the two towers. From the user
  tower's weight matrix Wu (64 x 85: 64 embedding columns then 21 feature columns) and the item tower's Wi (64 x 103:
  64 embedding columns then 39 feature columns) it cuts the four column blocks and lays them out block-diagonally:

      merged embedding matrix (128 x 128) = [ Wu[:, 0:64]   0           ]
                                            [ 0             Wi[:, 0:64] ]
      merged feature matrix   (128 x 60)  = [ Wu[:, 64:85]  0            ]
                                            [ 0             Wi[:, 64:103] ]
      merged bias row         (1 x 128)   = [ bu  bi ]

  then changes the format of the matrices (the identity on extended reals) and gives the vectors a leading unit axis.
  This module reads each of these arrays AT AN INDEX: a diagonal block is the tower's own entry, an off-diagonal block
  is 0, the bias row is the two bias vectors end to end, and the head's operands are the arguments themselves. The
  facts about a concatenation, a cut and a block of zeros are stated first over arbitrary arrays, then used at the
  arrays the program builds.
-/
import proofs.«145909_j33629593927760_2_alg».proof.Proof.Gen.KernelIdeal.Frame
import proofs.«145909_j33629593927760_2_alg».proof.Proof.TowerArray
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.Merged

open Cert.KernelIdeal Cert.KernelIdeal.Gen Cert.Tower
open Idealize.ShloMosaic Idealize.ShloMosaic.TcCoe Idealize.ShloMosaic.ValueIdx Idealize.SL.Sem

/-! ## Two arrays joined along an axis, read at an index -/

section Joined
variable {α : Type}

/-- Two matrices side by side, read at a column of the LEFT one. -/
theorem cols_left {a b₁ b₂ n : ℕ} (x : (⟨2, ![a, b₁]⟩ : Shape).Idx → α) (y : (⟨2, ![a, b₂]⟩ : Shape).Idx → α)
    (h : Shape.Concatenates [(⟨2, ![a, b₁]⟩ : Shape), ⟨2, ![a, b₂]⟩] ⟨2, ![a, n]⟩ 1)
    (j : Fin a) (k : Fin n) (k' : Fin b₁) (hk : k'.val = k.val) :
    concatenate ⟨2, ![a, n]⟩ 1 [⟨⟨2, ![a, b₁]⟩, x⟩, ⟨⟨2, ![a, b₂]⟩, y⟩] h (ix2 j k) = x (ix2 j k') :=
  concatenate_pair_apply_left (t := ⟨2, ![a, n]⟩) (s₁ := ⟨2, ![a, b₁]⟩) (s₂ := ⟨2, ![a, b₂]⟩) _ x y h (ix2 j k) rfl
    (ix2 j k') (by
      intro b
      match b with
      | ⟨0, _⟩ => rfl
      | ⟨1, _⟩ => exact hk)

/-- Two matrices side by side, read at a column of the RIGHT one: the column is the left one's width further on. -/
theorem cols_right {a b₁ b₂ n : ℕ} (x : (⟨2, ![a, b₁]⟩ : Shape).Idx → α) (y : (⟨2, ![a, b₂]⟩ : Shape).Idx → α)
    (h : Shape.Concatenates [(⟨2, ![a, b₁]⟩ : Shape), ⟨2, ![a, b₂]⟩] ⟨2, ![a, n]⟩ 1)
    (j : Fin a) (k : Fin n) (k' : Fin b₂) (hk : k'.val + b₁ = k.val) :
    concatenate ⟨2, ![a, n]⟩ 1 [⟨⟨2, ![a, b₁]⟩, x⟩, ⟨⟨2, ![a, b₂]⟩, y⟩] h (ix2 j k) = y (ix2 j k') :=
  concatenate_pair_apply_right (t := ⟨2, ![a, n]⟩) (s₁ := ⟨2, ![a, b₁]⟩) (s₂ := ⟨2, ![a, b₂]⟩) _ x y h (ix2 j k) rfl rfl
    (ix2 j k') (by
      intro b hb
      match b with
      | ⟨0, _⟩ => rfl
      | ⟨1, _⟩ => exact absurd rfl hb) (by
      show k'.val + b₁ = k.val
      exact hk)

/-- Two matrices one above the other, read at a row of the UPPER one. -/
theorem rows_upper {a₁ a₂ n b : ℕ} (x : (⟨2, ![a₁, b]⟩ : Shape).Idx → α) (y : (⟨2, ![a₂, b]⟩ : Shape).Idx → α)
    (h : Shape.Concatenates [(⟨2, ![a₁, b]⟩ : Shape), ⟨2, ![a₂, b]⟩] ⟨2, ![n, b]⟩ 0)
    (j : Fin n) (j' : Fin a₁) (k : Fin b) (hj : j'.val = j.val) :
    concatenate ⟨2, ![n, b]⟩ 0 [⟨⟨2, ![a₁, b]⟩, x⟩, ⟨⟨2, ![a₂, b]⟩, y⟩] h (ix2 j k) = x (ix2 j' k) :=
  concatenate_pair_apply_left (t := ⟨2, ![n, b]⟩) (s₁ := ⟨2, ![a₁, b]⟩) (s₂ := ⟨2, ![a₂, b]⟩) _ x y h (ix2 j k) rfl
    (ix2 j' k) (by
      intro d
      match d with
      | ⟨0, _⟩ => exact hj
      | ⟨1, _⟩ => rfl)

/-- Two matrices one above the other, read at a row of the LOWER one: the row is the upper one's height further on. -/
theorem rows_lower {a₁ a₂ n b : ℕ} (x : (⟨2, ![a₁, b]⟩ : Shape).Idx → α) (y : (⟨2, ![a₂, b]⟩ : Shape).Idx → α)
    (h : Shape.Concatenates [(⟨2, ![a₁, b]⟩ : Shape), ⟨2, ![a₂, b]⟩] ⟨2, ![n, b]⟩ 0)
    (j : Fin n) (j' : Fin a₂) (k : Fin b) (hj : j'.val + a₁ = j.val) :
    concatenate ⟨2, ![n, b]⟩ 0 [⟨⟨2, ![a₁, b]⟩, x⟩, ⟨⟨2, ![a₂, b]⟩, y⟩] h (ix2 j k) = y (ix2 j' k) :=
  concatenate_pair_apply_right (t := ⟨2, ![n, b]⟩) (s₁ := ⟨2, ![a₁, b]⟩) (s₂ := ⟨2, ![a₂, b]⟩) _ x y h (ix2 j k) rfl rfl
    (ix2 j' k) (by
      intro d hd
      match d with
      | ⟨0, _⟩ => exact absurd rfl hd
      | ⟨1, _⟩ => rfl) (by
      show j'.val + a₁ = j.val
      exact hj)

/-- Two vectors end to end, read at an entry of the FIRST. -/
theorem vec_first {a₁ a₂ n : ℕ} (x : (⟨1, ![a₁]⟩ : Shape).Idx → α) (y : (⟨1, ![a₂]⟩ : Shape).Idx → α)
    (h : Shape.Concatenates [(⟨1, ![a₁]⟩ : Shape), ⟨1, ![a₂]⟩] ⟨1, ![n]⟩ 0)
    (k : Fin n) (k' : Fin a₁) (hk : k'.val = k.val) :
    concatenate ⟨1, ![n]⟩ 0 [⟨⟨1, ![a₁]⟩, x⟩, ⟨⟨1, ![a₂]⟩, y⟩] h (ix1 k) = x (ix1 k') :=
  concatenate_pair_apply_left (t := ⟨1, ![n]⟩) (s₁ := ⟨1, ![a₁]⟩) (s₂ := ⟨1, ![a₂]⟩) _ x y h (ix1 k) rfl
    (ix1 k') (by
      intro d
      match d with
      | ⟨0, _⟩ => exact hk)

/-- Two vectors end to end, read at an entry of the SECOND: the entry is the first one's length further on. -/
theorem vec_second {a₁ a₂ n : ℕ} (x : (⟨1, ![a₁]⟩ : Shape).Idx → α) (y : (⟨1, ![a₂]⟩ : Shape).Idx → α)
    (h : Shape.Concatenates [(⟨1, ![a₁]⟩ : Shape), ⟨1, ![a₂]⟩] ⟨1, ![n]⟩ 0)
    (k : Fin n) (k' : Fin a₂) (hk : k'.val + a₁ = k.val) :
    concatenate ⟨1, ![n]⟩ 0 [⟨⟨1, ![a₁]⟩, x⟩, ⟨⟨1, ![a₂]⟩, y⟩] h (ix1 k) = y (ix1 k') :=
  concatenate_pair_apply_right (t := ⟨1, ![n]⟩) (s₁ := ⟨1, ![a₁]⟩) (s₂ := ⟨1, ![a₂]⟩) _ x y h (ix1 k) rfl rfl
    (ix1 k') (by
      intro d hd
      match d with
      | ⟨0, _⟩ => exact absurd rfl hd) (by
      show k'.val + a₁ = k.val
      exact hk)

end Joined

/-- A block of zeros, read anywhere: the zero word spread from rank 0 is the extended real 0 at every index. -/
theorem zeros_apply {t : Shape} (dims : Fin S_.rank → Fin t.rank) (h : S_.BroadcastsInDim t dims) (i : t.Idx) :
    broadcastInDim t dims h (constant (F := Ideal) S_ .f32 0x00000000#32) i = (0 : EReal) :=
  (broadcastInDim_apply dims h (constant (F := Ideal) S_ .f32 0x00000000#32) i ix0 (fun a => a.elim0)).trans
    ((constant_apply (s := S_) (φ := .f32) 0x00000000#32 ix0).trans Ideal.ofBits_zero_f32)

/-! ## The merged arrays as functions of the towers' weights -/

/-- The merged embedding matrix: the towers' embedding columns on the diagonal, zeros elsewhere. -/
abbrev mergedEmb (Wu : S64x85.Idx → EReal) (Wi : S64x103.Idx → EReal) : S128x128.Idx → EReal :=
  concatenate S128x128 0
    [⟨S64x128, concatenate S64x128 1
        [⟨S64x64, extractStridedSlice S64x64 ![0, 0] Wu Facts₀.slices_S64x85_S64x64_0_0⟩,
         ⟨S64x64, broadcastInDim S64x64 ![] Facts₀.bcast_S_S64x64 (constant (F := Ideal) S_ .f32 0x00000000#32)⟩]
        Facts₀.concatenates_S64x64_S64x64_S64x128_d1⟩,
     ⟨S64x128, concatenate S64x128 1
        [⟨S64x64, broadcastInDim S64x64 ![] Facts₀.bcast_S_S64x64 (constant (F := Ideal) S_ .f32 0x00000000#32)⟩,
         ⟨S64x64, extractStridedSlice S64x64 ![0, 0] Wi Facts₀.slices_S64x103_S64x64_0_0⟩]
        Facts₀.concatenates_S64x64_S64x64_S64x128_d1⟩]
    Facts₀.concatenates_S64x128_S64x128_S128x128_d0

/-- The merged feature matrix: the towers' feature columns on the diagonal, zeros elsewhere. -/
abbrev mergedFeat (Wu : S64x85.Idx → EReal) (Wi : S64x103.Idx → EReal) : S128x60.Idx → EReal :=
  concatenate S128x60 0
    [⟨S64x60, concatenate S64x60 1
        [⟨S64x21, extractStridedSlice S64x21 ![0, 64] Wu Facts₀.slices_S64x85_S64x21_0_64⟩,
         ⟨S64x39, broadcastInDim S64x39 ![] Facts₀.bcast_S_S64x39 (constant (F := Ideal) S_ .f32 0x00000000#32)⟩]
        Facts₀.concatenates_S64x21_S64x39_S64x60_d1⟩,
     ⟨S64x60, concatenate S64x60 1
        [⟨S64x21, broadcastInDim S64x21 ![] Facts₀.bcast_S_S64x21 (constant (F := Ideal) S_ .f32 0x00000000#32)⟩,
         ⟨S64x39, extractStridedSlice S64x39 ![0, 64] Wi Facts₀.slices_S64x103_S64x39_0_64⟩]
        Facts₀.concatenates_S64x21_S64x39_S64x60_d1⟩]
    Facts₀.concatenates_S64x60_S64x60_S128x60_d0

/-- The merged bias row: the two bias vectors end to end, as a one-row matrix. -/
abbrev mergedBias (bu bi : S64.Idx → EReal) : S1x128.Idx → EReal :=
  shapeCast S1x128 (concatenate S128 0 [⟨S64, bu⟩, ⟨S64, bi⟩] Facts₀.concatenates_S64_S64_S128_d0) Facts₀.shapeCasts_S128_S1x128

section AtIndex
variable (Wu : S64x85.Idx → EReal) (Wi : S64x103.Idx → EReal) (bu bi : S64.Idx → EReal)

/-- Upper left block of the merged embedding matrix: the user tower's embedding columns. -/
theorem mergedEmb_uu (j k : Fin 64) :
    mergedEmb Wu Wi (ix2 (Fin.castAdd 64 j) (Fin.castAdd 64 k)) = Wu (ix2 j (Fin.castAdd 21 k)) := by
  refine (rows_upper (a₁ := 64) (a₂ := 64) (n := 128) (b := 128) _ _ _ (Fin.castAdd 64 j) j (Fin.castAdd 64 k) rfl).trans ?_
  refine (cols_left (a := 64) (b₁ := 64) (b₂ := 64) (n := 128) _ _ _ j (Fin.castAdd 64 k) k rfl).trans ?_
  exact slice2_axis1_apply (n0 := 64) (n1 := 85) (m := 64) 0 Wu _ j k (Fin.castAdd 21 k) (Nat.zero_add _).symm

/-- Upper right block of the merged embedding matrix: zero. -/
theorem mergedEmb_ui (j k : Fin 64) :
    mergedEmb Wu Wi (ix2 (Fin.castAdd 64 j) (Fin.natAdd 64 k)) = 0 := by
  refine (rows_upper (a₁ := 64) (a₂ := 64) (n := 128) (b := 128) _ _ _ (Fin.castAdd 64 j) j (Fin.natAdd 64 k) rfl).trans ?_
  refine (cols_right (a := 64) (b₁ := 64) (b₂ := 64) (n := 128) _ _ _ j (Fin.natAdd 64 k) k (Nat.add_comm _ _)).trans ?_
  exact zeros_apply _ _ _

/-- Lower left block of the merged embedding matrix: zero. -/
theorem mergedEmb_iu (j k : Fin 64) :
    mergedEmb Wu Wi (ix2 (Fin.natAdd 64 j) (Fin.castAdd 64 k)) = 0 := by
  refine (rows_lower (a₁ := 64) (a₂ := 64) (n := 128) (b := 128) _ _ _ (Fin.natAdd 64 j) j (Fin.castAdd 64 k) (Nat.add_comm _ _)).trans ?_
  refine (cols_left (a := 64) (b₁ := 64) (b₂ := 64) (n := 128) _ _ _ j (Fin.castAdd 64 k) k rfl).trans ?_
  exact zeros_apply _ _ _

/-- Lower right block of the merged embedding matrix: the item tower's embedding columns. -/
theorem mergedEmb_ii (j k : Fin 64) :
    mergedEmb Wu Wi (ix2 (Fin.natAdd 64 j) (Fin.natAdd 64 k)) = Wi (ix2 j (Fin.castAdd 39 k)) := by
  refine (rows_lower (a₁ := 64) (a₂ := 64) (n := 128) (b := 128) _ _ _ (Fin.natAdd 64 j) j (Fin.natAdd 64 k) (Nat.add_comm _ _)).trans ?_
  refine (cols_right (a := 64) (b₁ := 64) (b₂ := 64) (n := 128) _ _ _ j (Fin.natAdd 64 k) k (Nat.add_comm _ _)).trans ?_
  exact slice2_axis1_apply (n0 := 64) (n1 := 103) (m := 64) 0 Wi _ j k (Fin.castAdd 39 k) (Nat.zero_add _).symm

/-- Upper left block of the merged feature matrix: the user tower's feature columns. -/
theorem mergedFeat_uu (j : Fin 64) (k : Fin 21) :
    mergedFeat Wu Wi (ix2 (Fin.castAdd 64 j) (Fin.castAdd 39 k)) = Wu (ix2 j (Fin.natAdd 64 k)) := by
  refine (rows_upper (a₁ := 64) (a₂ := 64) (n := 128) (b := 60) _ _ _ (Fin.castAdd 64 j) j (Fin.castAdd 39 k) rfl).trans ?_
  refine (cols_left (a := 64) (b₁ := 21) (b₂ := 39) (n := 60) _ _ _ j (Fin.castAdd 39 k) k rfl).trans ?_
  exact slice2_axis1_apply (n0 := 64) (n1 := 85) (m := 21) 64 Wu _ j k (Fin.natAdd 64 k) rfl

/-- Upper right block of the merged feature matrix: zero. -/
theorem mergedFeat_ui (j : Fin 64) (k : Fin 39) :
    mergedFeat Wu Wi (ix2 (Fin.castAdd 64 j) (Fin.natAdd 21 k)) = 0 := by
  refine (rows_upper (a₁ := 64) (a₂ := 64) (n := 128) (b := 60) _ _ _ (Fin.castAdd 64 j) j (Fin.natAdd 21 k) rfl).trans ?_
  refine (cols_right (a := 64) (b₁ := 21) (b₂ := 39) (n := 60) _ _ _ j (Fin.natAdd 21 k) k (Nat.add_comm _ _)).trans ?_
  exact zeros_apply _ _ _

/-- Lower left block of the merged feature matrix: zero. -/
theorem mergedFeat_iu (j : Fin 64) (k : Fin 21) :
    mergedFeat Wu Wi (ix2 (Fin.natAdd 64 j) (Fin.castAdd 39 k)) = 0 := by
  refine (rows_lower (a₁ := 64) (a₂ := 64) (n := 128) (b := 60) _ _ _ (Fin.natAdd 64 j) j (Fin.castAdd 39 k) (Nat.add_comm _ _)).trans ?_
  refine (cols_left (a := 64) (b₁ := 21) (b₂ := 39) (n := 60) _ _ _ j (Fin.castAdd 39 k) k rfl).trans ?_
  exact zeros_apply _ _ _

/-- Lower right block of the merged feature matrix: the item tower's feature columns. -/
theorem mergedFeat_ii (j : Fin 64) (k : Fin 39) :
    mergedFeat Wu Wi (ix2 (Fin.natAdd 64 j) (Fin.natAdd 21 k)) = Wi (ix2 j (Fin.natAdd 64 k)) := by
  refine (rows_lower (a₁ := 64) (a₂ := 64) (n := 128) (b := 60) _ _ _ (Fin.natAdd 64 j) j (Fin.natAdd 21 k) (Nat.add_comm _ _)).trans ?_
  refine (cols_right (a := 64) (b₁ := 21) (b₂ := 39) (n := 60) _ _ _ j (Fin.natAdd 21 k) k (Nat.add_comm _ _)).trans ?_
  exact slice2_axis1_apply (n0 := 64) (n1 := 103) (m := 39) 64 Wi _ j k (Fin.natAdd 64 k) rfl

/-- First half of the merged bias row: the user tower's bias. -/
theorem mergedBias_u (j : Fin 64) : mergedBias bu bi (ix2 (0 : Fin 1) (Fin.castAdd 64 j)) = bu (ix1 j) := by
  refine (shapeCast_a_1a_apply (a := 128) _ _ (0 : Fin 1) (Fin.castAdd 64 j)).trans ?_
  exact vec_first (a₁ := 64) (a₂ := 64) (n := 128) bu bi _ (Fin.castAdd 64 j) j rfl

/-- Second half of the merged bias row: the item tower's bias. -/
theorem mergedBias_i (j : Fin 64) : mergedBias bu bi (ix2 (0 : Fin 1) (Fin.natAdd 64 j)) = bi (ix1 j) := by
  refine (shapeCast_a_1a_apply (a := 128) _ _ (0 : Fin 1) (Fin.natAdd 64 j)).trans ?_
  exact vec_second (a₁ := 64) (a₂ := 64) (n := 128) bu bi _ (Fin.natAdd 64 j) j (Nat.add_comm _ _)

end AtIndex

/-! ## The arrays, each at its literal type

The arguments as launched on core c, and the arrays the region finds there (the contents after the operations that
precede the region). Reducible names only: each unfolds to the launch memory at an argument, or to the contents the
region is entered with. -/

variable (m : (ℓ : Loc nD τ sig) → Buf (Elt Ideal) ℓ) (c : Dev nD)

/-- The user tower's weight matrix, as launched. -/
abbrev argWu : S64x85.Idx → EReal := m ((c : Thread nD τ).loc main_arg6)
/-- The user tower's bias, as launched. -/
abbrev argBu : S64.Idx → EReal := m ((c : Thread nD τ).loc main_arg7)
/-- The item tower's weight matrix, as launched. -/
abbrev argWi : S64x103.Idx → EReal := m ((c : Thread nD τ).loc main_arg8)
/-- The item tower's bias, as launched. -/
abbrev argBi : S64.Idx → EReal := m ((c : Thread nD τ).loc main_arg9)
/-- The head's first weight matrix, as launched. -/
abbrev argW1 : S256x128.Idx → EReal := m ((c : Thread nD τ).loc main_arg10)
/-- The head's first bias, as launched. -/
abbrev argB1 : S256.Idx → EReal := m ((c : Thread nD τ).loc main_arg11)
/-- The head's second weight row, as launched. -/
abbrev argW2 : S1x256.Idx → EReal := m ((c : Thread nD τ).loc main_arg12)
/-- The head's second bias, as launched. -/
abbrev argB2 : S1.Idx → EReal := m ((c : Thread nD τ).loc main_arg13)

/-- The embedding matrix the region finds. -/
abbrev regEmb : S128x128.Idx → EReal := V m c main_v29
/-- The feature matrix the region finds. -/
abbrev regFeat : S128x60.Idx → EReal := V m c main_v30
/-- The bias row the region finds. -/
abbrev regBias : S1x128.Idx → EReal := V m c main_v28
/-- The head's first weight matrix as the region finds it. -/
abbrev regW1 : S256x128.Idx → EReal := V m c main_v31
/-- The head's second weight row as the region finds it. -/
abbrev regW2 : S1x256.Idx → EReal := V m c main_v32
/-- The head's first bias as the region finds it: a one-row matrix. -/
abbrev regB1 : S1x256.Idx → EReal := V m c main_v33
/-- The head's second bias as the region finds it: a one-entry matrix. -/
abbrev regB2 : S1x1.Idx → EReal := V m c main_v34

/-! ## What the region finds: each array as the term the preceding operations compose -/

/-- The gathered user embeddings: the look-up of the user table at the wrapped user ids, kept as a term. -/
theorem gathered_user :
    V m c main_v6 = Host.gather gather_S1000001x64_S16384x1_S16384x64_1_0_n_n_0_1_164 (m ((c : Thread nD τ).loc main_arg4)) (broadcastInDim S16384x1 ![0] Facts₀.bcast_S16384_S16384x1_0 (select (cmpi .slt (m ((c : Thread nD τ).loc main_arg0)) (broadcastInDim S16384 ![] Facts₀.bcast_S_S16384 (constantI S_ 32 0#32))) (addi (m ((c : Thread nD τ).loc main_arg0)) (broadcastInDim S16384 ![] Facts₀.bcast_S_S16384 (constantI S_ 32 1000001#32))) (m ((c : Thread nD τ).loc main_arg0)))) := by
  dsimp only [Gen.V, Gen.hostOps0]; after_results_simp <;> rfl

/-- The gathered item embeddings: the look-up of the item table at the wrapped item ids, kept as a term. -/
theorem gathered_item :
    V m c main_v13 = Host.gather gather_S500001x64_S16384x1_S16384x64_1_0_n_n_0_1_164 (m ((c : Thread nD τ).loc main_arg5)) (broadcastInDim S16384x1 ![0] Facts₀.bcast_S16384_S16384x1_0 (select (cmpi .slt (m ((c : Thread nD τ).loc main_arg1)) (broadcastInDim S16384 ![] Facts₀.bcast_S_S16384 (constantI S_ 32 0#32))) (addi (m ((c : Thread nD τ).loc main_arg1)) (broadcastInDim S16384 ![] Facts₀.bcast_S_S16384 (constantI S_ 32 500001#32))) (m ((c : Thread nD τ).loc main_arg1)))) := by
  dsimp only [Gen.V, Gen.hostOps0]; after_results_simp <;> rfl

/-- The region's embedding matrix is the merged embedding matrix of the two weight arguments, its format changed. -/
theorem regEmb_eq : regEmb m c
    = truncf (F := Ideal) (φ := .f32) .bf16 (mergedEmb (argWu m c) (argWi m c)) Facts₀.bitsLt_bf16_f32 := by
  dsimp only [regEmb, argWu, argWi, Gen.V, Gen.hostOps0]; after_results_simp <;> rfl

/-- The region's feature matrix is the merged feature matrix of the two weight arguments, its format changed. -/
theorem regFeat_eq : regFeat m c
    = truncf (F := Ideal) (φ := .f32) .bf16 (mergedFeat (argWu m c) (argWi m c)) Facts₀.bitsLt_bf16_f32 := by
  dsimp only [regFeat, argWu, argWi, Gen.V, Gen.hostOps0]; after_results_simp <;> rfl

/-- The region's bias row is the merged bias row of the two bias arguments. -/
theorem regBias_eq : regBias m c = mergedBias (argBu m c) (argBi m c) := by
  dsimp only [regBias, argBu, argBi, Gen.V, Gen.hostOps0]; after_results_simp <;> rfl

/-! ## The merged embedding matrix at an index (a change of format is the identity on extended reals) -/

theorem emb_uu (j k : Fin 64) :
    regEmb m c (ix2 (Fin.castAdd 64 j) (Fin.castAdd 64 k)) = argWu m c (ix2 j (Fin.castAdd 21 k)) :=
  (congrFun (regEmb_eq m c) _).trans (mergedEmb_uu _ _ j k)

theorem emb_ui (j k : Fin 64) : regEmb m c (ix2 (Fin.castAdd 64 j) (Fin.natAdd 64 k)) = 0 :=
  (congrFun (regEmb_eq m c) _).trans (mergedEmb_ui _ _ j k)

theorem emb_iu (j k : Fin 64) : regEmb m c (ix2 (Fin.natAdd 64 j) (Fin.castAdd 64 k)) = 0 :=
  (congrFun (regEmb_eq m c) _).trans (mergedEmb_iu _ _ j k)

theorem emb_ii (j k : Fin 64) :
    regEmb m c (ix2 (Fin.natAdd 64 j) (Fin.natAdd 64 k)) = argWi m c (ix2 j (Fin.castAdd 39 k)) :=
  (congrFun (regEmb_eq m c) _).trans (mergedEmb_ii _ _ j k)

/-! ## The merged feature matrix at an index -/

theorem feat_uu (j : Fin 64) (k : Fin 21) :
    regFeat m c (ix2 (Fin.castAdd 64 j) (Fin.castAdd 39 k)) = argWu m c (ix2 j (Fin.natAdd 64 k)) :=
  (congrFun (regFeat_eq m c) _).trans (mergedFeat_uu _ _ j k)

theorem feat_ui (j : Fin 64) (k : Fin 39) : regFeat m c (ix2 (Fin.castAdd 64 j) (Fin.natAdd 21 k)) = 0 :=
  (congrFun (regFeat_eq m c) _).trans (mergedFeat_ui _ _ j k)

theorem feat_iu (j : Fin 64) (k : Fin 21) : regFeat m c (ix2 (Fin.natAdd 64 j) (Fin.castAdd 39 k)) = 0 :=
  (congrFun (regFeat_eq m c) _).trans (mergedFeat_iu _ _ j k)

theorem feat_ii (j : Fin 64) (k : Fin 39) :
    regFeat m c (ix2 (Fin.natAdd 64 j) (Fin.natAdd 21 k)) = argWi m c (ix2 j (Fin.natAdd 64 k)) :=
  (congrFun (regFeat_eq m c) _).trans (mergedFeat_ii _ _ j k)

/-! ## The bias row at an index -/

theorem bias_u (j : Fin 64) : regBias m c (ix2 (0 : Fin 1) (Fin.castAdd 64 j)) = argBu m c (ix1 j) :=
  (congrFun (regBias_eq m c) _).trans (mergedBias_u _ _ j)

theorem bias_i (j : Fin 64) : regBias m c (ix2 (0 : Fin 1) (Fin.natAdd 64 j)) = argBi m c (ix1 j) :=
  (congrFun (regBias_eq m c) _).trans (mergedBias_i _ _ j)

/-! ## The head's operands -/

/-- The head's first weight matrix is the argument itself: the change of format is the identity. -/
theorem head_W1 : regW1 m c = argW1 m c := by
  dsimp only [regW1, argW1, Gen.V, Gen.hostOps0]; after_results_simp <;> rfl

/-- The head's second weight row is the argument itself. -/
theorem head_W2 : regW2 m c = argW2 m c := by
  dsimp only [regW2, argW2, Gen.V, Gen.hostOps0]; after_results_simp <;> rfl

/-- The head's first bias, given a leading unit axis, read at an entry. -/
theorem head_b1 (n : Fin 256) : regB1 m c (ix2 (0 : Fin 1) n) = argB1 m c (ix1 n) := by
  have e : regB1 m c = shapeCast S1x256 (argB1 m c) Facts₀.shapeCasts_S256_S1x256 := by
    dsimp only [regB1, argB1, Gen.V, Gen.hostOps0]; after_results_simp <;> rfl
  exact (congrFun e _).trans (shapeCast_a_1a_apply (a := 256) _ _ (0 : Fin 1) n)

/-- The head's second bias, given a leading unit axis, read at its one entry. -/
theorem head_b2 : regB2 m c (ix2 (0 : Fin 1) (0 : Fin 1)) = argB2 m c (ix1 (0 : Fin 1)) := by
  have e : regB2 m c = shapeCast S1x1 (argB2 m c) Facts₀.shapeCasts_S1_S1x1 := by
    dsimp only [regB2, argB2, Gen.V, Gen.hostOps0]; after_results_simp <;> rfl
  exact (congrFun e _).trans (shapeCast_a_1a_apply (a := 1) _ _ (0 : Fin 1) (0 : Fin 1))

/-! ## The junction with the law of the two towers -/

/-- The merged form of the two towers over the arrays the region finds is the two towers one after the other over the
    arguments: the ten block facts above are the hypotheses of the law that joins the two forms. (Each hypothesis is
    opened to an entry of the array before the fact is used, so that the two sides are compared as written.) -/
theorem midKer_region (ue ie : Fin 64 → EReal) (uf : Fin 21 → EReal) (itf : Fin 39 → EReal) :
    midKer ue ie uf itf (matOf (regEmb m c)) (matOf (regFeat m c)) (rowOf (regBias m c) 0)
      = midRef ue ie uf itf (matOf (argWu m c)) (vecOf (argBu m c)) (matOf (argWi m c)) (vecOf (argBi m c)) := by
  refine midKer_eq_midRef ue ie uf itf (matOf (argWu m c)) (vecOf (argBu m c)) (matOf (argWi m c)) (vecOf (argBi m c))
    (matOf (regEmb m c)) (matOf (regFeat m c)) (rowOf (regBias m c) 0) ?_ ?_ ?_ ?_ ?_ ?_ ?_ ?_ ?_ ?_
  · intro j k; unfold matOf; exact emb_uu m c j k
  · intro j k; unfold matOf; exact emb_ui m c j k
  · intro j k; unfold matOf; exact emb_iu m c j k
  · intro j k; unfold matOf; exact emb_ii m c j k
  · intro j k; unfold matOf; exact feat_uu m c j k
  · intro j k; unfold matOf; exact feat_ui m c j k
  · intro j k; unfold matOf; exact feat_iu m c j k
  · intro j k; unfold matOf; exact feat_ii m c j k
  · intro j; unfold rowOf vecOf; exact bias_u m c j
  · intro j; unfold rowOf vecOf; exact bias_i m c j

end Cert.KernelIdeal.Merged

end
-- ==== Proof.LibReadBack.lean ====
/- Reading a straight line of host operations back, one operation at a time.

   Let ops be a line of operations and W the list of the buffers they write, operation by operation (Writes ops W: the k-th
   operation writes exactly the k-th buffer of W). Write R for the contents after the whole line from contents V.
   * A buffer that W does not list keeps its contents: R r = V r (after_keep).
   * Splitting the line at position k, R = (the rest from k on) after (the first k operations) (after_take_drop); so a buffer
     not written from position k on holds in R what it held after the first k operations (after_eq_take), and a buffer not
     written after position k holds in R what operation k left there (after_eq_result).
   * Hence, when every buffer is written at most once and every operand is written before it is read — a program in
     single-assignment form —, the final contents satisfy the program's own equations: if operation k is y = f(x), x is not
     written from k on and y is not written after k, then R y = f (R x) (readback_unary; likewise for the other builders).
   The side conditions are memberships in a literal list of references, decided by computation. -/
import Idealize.ShloMosaic.Lib.StableHlo.Run
import Idealize.ShloMosaic.Lib.Pipeline.Frame

noncomputable section

namespace Cert.ReadBack

open Idealize.ShloMosaic Idealize.ShloMosaic.StableHlo

variable {τ : Topo} {sig : RefSig} {Val : EltTy → Type}

/-- The k-th operation of ops writes exactly the k-th buffer of W. -/
abbrev Writes (ops : List (HloOp τ sig Val)) (W : List (Ref sig .tc)) : Prop :=
  List.Forall₂ (fun op r => op.writes = {Proc.devRef (τ := τ) .tc r}) ops W

theorem Writes.append {o₁ o₂ : List (HloOp τ sig Val)} {w₁ w₂ : List (Ref sig .tc)}
    (h₁ : Writes o₁ w₁) (h₂ : Writes o₂ w₂) : Writes (o₁ ++ o₂) (w₁ ++ w₂) := by
  induction h₁ with
  | nil => exact h₂
  | cons h _ ih => exact List.Forall₂.cons h ih

/-- A buffer the line does not write keeps its contents. -/
theorem after_keep {ops : List (HloOp τ sig Val)} {W : List (Ref sig .tc)} (h : Writes ops W) :
    ∀ (V : Valuation τ sig Val) {r : Ref sig .tc}, r ∉ W → after ops V (Proc.devRef .tc r) = V (Proc.devRef .tc r) := by
  induction h with
  | nil => intro V r _; rfl
  | @cons op w ops W hw _ ih =>
    intro V r hr
    have hne : r ≠ w := fun e => hr (List.mem_cons.mpr (Or.inl e))
    rw [after_cons, ih _ (fun hm => hr (List.mem_cons_of_mem _ hm)),
      op.result_of_not_mem V (by rw [hw, Finset.mem_singleton]; exact devRef_ne_of_ne hne)]

/-- The line run from V is its part from position k on, run from what the first k operations leave. -/
theorem after_take_drop (ops : List (HloOp τ sig Val)) (k : Nat) (V : Valuation τ sig Val) :
    after ops V = after (ops.drop k) (after (ops.take k) V) := by
  conv_lhs => rw [← List.take_append_drop k ops]
  exact after_append _ _ _

/-- A buffer not written from position k on holds at the end what it held after the first k operations. -/
theorem after_eq_take {ops : List (HloOp τ sig Val)} {W : List (Ref sig .tc)} (h : Writes ops W)
    (V : Valuation τ sig Val) (k : Nat) {r : Ref sig .tc} (hr : r ∉ W.drop k) :
    after ops V (Proc.devRef .tc r) = after (ops.take k) V (Proc.devRef .tc r) := by
  rw [after_take_drop ops k V]
  exact after_keep (List.forall₂_drop k h) _ hr

/-- A buffer not written after position k holds at the end what operation k left there. -/
theorem after_eq_result {ops : List (HloOp τ sig Val)} {W : List (Ref sig .tc)} (h : Writes ops W)
    (V : Valuation τ sig Val) (k : Nat) {op : HloOp τ sig Val} (hop : ops[k]? = some op)
    {r : Ref sig .tc} (hr : r ∉ W.drop (k + 1)) :
    after ops V (Proc.devRef .tc r) = op.result (after (ops.take k) V) (Proc.devRef .tc r) := by
  obtain ⟨hk, rfl⟩ := List.getElem?_eq_some_iff.mp hop
  rw [after_take_drop ops k V, List.drop_eq_getElem_cons hk, after_cons]
  exact after_keep (List.forall₂_drop (k + 1) h) _ hr

/-! ## The program's equations hold of the final contents -/

section Builders

variable {ops : List (HloOp τ sig Val)} {W : List (Ref sig .tc)} (h : Writes ops W) (V : Valuation τ sig Val) (k : Nat)
variable {x a b c y : Ref sig .tc}

include h

/-- Operation k is the constant y = v, y not written afterwards: the final y is v. -/
theorem readback_nullary {v : y.ty.Contents Val} {hy}
    (hop : ops[k]? = some (nullary (τ := τ) y v hy)) (hy' : y ∉ W.drop (k + 1)) :
    after ops V (Proc.devRef .tc y) = v := by
  rw [after_eq_result h V k hop hy', nullary_result]

/-- Operation k is y = f x, x not written from k on, y not written afterwards: the final y is f of the final x. -/
theorem readback_unary {f : x.ty.Contents Val → y.ty.Contents Val} {hx hy}
    (hop : ops[k]? = some (unary (τ := τ) x y f hx hy)) (hx' : x ∉ W.drop k) (hy' : y ∉ W.drop (k + 1)) :
    after ops V (Proc.devRef .tc y) = f (after ops V (Proc.devRef .tc x)) := by
  rw [after_eq_result h V k hop hy', unary_result, after_eq_take h V k hx']

/-- Operation k is y = f a b. -/
theorem readback_binary {f : a.ty.Contents Val → b.ty.Contents Val → y.ty.Contents Val} {ha hb hy}
    (hop : ops[k]? = some (binary (τ := τ) a b y f ha hb hy)) (ha' : a ∉ W.drop k) (hb' : b ∉ W.drop k)
    (hy' : y ∉ W.drop (k + 1)) :
    after ops V (Proc.devRef .tc y) = f (after ops V (Proc.devRef .tc a)) (after ops V (Proc.devRef .tc b)) := by
  rw [after_eq_result h V k hop hy', binary_result, after_eq_take h V k ha', after_eq_take h V k hb']

/-- Operation k is y = f c a b. -/
theorem readback_ternary {f : c.ty.Contents Val → a.ty.Contents Val → b.ty.Contents Val → y.ty.Contents Val} {hc ha hb hy}
    (hop : ops[k]? = some (ternary (τ := τ) c a b y f hc ha hb hy)) (hc' : c ∉ W.drop k) (ha' : a ∉ W.drop k)
    (hb' : b ∉ W.drop k) (hy' : y ∉ W.drop (k + 1)) :
    after ops V (Proc.devRef .tc y)
      = f (after ops V (Proc.devRef .tc c)) (after ops V (Proc.devRef .tc a)) (after ops V (Proc.devRef .tc b)) := by
  rw [after_eq_result h V k hop hy', ternary_result, after_eq_take h V k hc', after_eq_take h V k ha',
    after_eq_take h V k hb']

/-- Operation k is the reshape y = x. -/
theorem readback_reshape {he : x.ty.elt = y.ty.elt} {hn : x.ty.shape.ShapeCasts y.ty.shape} {hx hy}
    (hop : ops[k]? = some (reshape (τ := τ) (Val := Val) x y he hn hx hy)) (hx' : x ∉ W.drop k)
    (hy' : y ∉ W.drop (k + 1)) :
    after ops V (Proc.devRef .tc y) = fun i => he ▸ shapeCast y.ty.shape (after ops V (Proc.devRef .tc x)) hn i := by
  rw [after_eq_result h V k hop hy', reshape_result, after_eq_take h V k hx']

/-- Operation k is y = f of a family xs of operands. -/
theorem readback_nary {n : Nat} {xs : Fin n → Ref sig .tc} {f : ((j : Fin n) → (xs j).ty.Contents Val) → y.ty.Contents Val}
    {hxs hy} (hop : ops[k]? = some (nary (τ := τ) xs y f hxs hy)) (hxs' : ∀ j, xs j ∉ W.drop k)
    (hy' : y ∉ W.drop (k + 1)) :
    after ops V (Proc.devRef .tc y) = f (fun j => after ops V (Proc.devRef .tc (xs j))) := by
  rw [after_eq_result h V k hop hy', nary_result]
  congr 1
  funext j
  exact (after_eq_take h V k (hxs' j)).symm

end Builders

end Cert.ReadBack

end
-- ==== Proof.RefRun.lean ====
/-
  The reference program's run, read back one operation at a time.

  The reference's @main is a straight line of 55 host operations in single-assignment form: every buffer is written by
  exactly one operation, after the operations that write its operands. For such a line the contents R after the whole
  line satisfy the program's own equations — if operation k is y = f(x) then R y = f (R x) — and an argument, which no
  operation writes, ends as launched. Read in program order this says: each buffer ends holding its STAGE (the value the
  operation writes, as a function of the arguments; RefStages.lean names the stages), and in particular the result buffer
  ends holding the last stage of the arguments. The run then follows from the library's theorem on a straight line of
  host operations: every weakly fair execution terminates with each buffer at the line's final contents.
-/
import proofs.«145909_j33629593927760_2_alg».proof.Proof.RefStages
import proofs.«145909_j33629593927760_2_alg».proof.Proof.LibReadBack

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo Cert.ReadBack

variable {F : FTy → Type} [FloatOps F]

/-- The buffers the 55 operations write, operation by operation. -/
abbrev W : List (Ref sig .tc) :=
  [main_c, main_v0, main_v1, main_c_0, main_v2, main_v3, main_v4, main_v5, main_v6, main_c_1, main_v7, main_v8, main_c_2, main_v9, main_v10, main_v11, main_v12, main_v13, main_v14, main_call0_cst, main_call0_v0, main_v15, main_v16, main_v17, main_v18, main_v19, main_v20, main_v21, main_v22, main_call1_cst, main_call1_v0, main_v23, main_v24, main_v25, main_v26, main_v27, main_v28, main_v29, main_v30, main_call2_cst, main_call2_v0, main_v31, main_v32, main_v33, main_v34, main_v35, main_v36, main_call3_cst, main_call3_v0, main_v37, main_v38, main_v39, main_v40, main_v41, main_v42]

/-- Operation k writes exactly buffer k of the list. -/
theorem writes : Writes (ops (F := F)) W :=
  List.Forall₂.cons (nullary_writes ..) <|
    List.Forall₂.cons (unary_writes ..) <|
    List.Forall₂.cons (binary_writes ..) <|
    List.Forall₂.cons (nullary_writes ..) <|
    List.Forall₂.cons (unary_writes ..) <|
    List.Forall₂.cons (binary_writes ..) <|
    List.Forall₂.cons (ternary_writes ..) <|
    List.Forall₂.cons (unary_writes ..) <|
    List.Forall₂.cons (binary_writes ..) <|
    List.Forall₂.cons (nullary_writes ..) <|
    List.Forall₂.cons (unary_writes ..) <|
    List.Forall₂.cons (binary_writes ..) <|
    List.Forall₂.cons (nullary_writes ..) <|
    List.Forall₂.cons (unary_writes ..) <|
    List.Forall₂.cons (binary_writes ..) <|
    List.Forall₂.cons (ternary_writes ..) <|
    List.Forall₂.cons (unary_writes ..) <|
    List.Forall₂.cons (binary_writes ..) <|
    List.Forall₂.cons (binary_writes ..) <|
    List.Forall₂.cons (nullary_writes ..) <|
    List.Forall₂.cons (unary_writes ..) <|
    List.Forall₂.cons (binary_writes ..) <|
    List.Forall₂.cons (unary_writes ..) <|
    List.Forall₂.cons (binary_writes ..) <|
    List.Forall₂.cons (unary_writes ..) <|
    List.Forall₂.cons (unary_writes ..) <|
    List.Forall₂.cons (binary_writes ..) <|
    List.Forall₂.cons (binary_writes ..) <|
    List.Forall₂.cons (binary_writes ..) <|
    List.Forall₂.cons (nullary_writes ..) <|
    List.Forall₂.cons (unary_writes ..) <|
    List.Forall₂.cons (binary_writes ..) <|
    List.Forall₂.cons (unary_writes ..) <|
    List.Forall₂.cons (binary_writes ..) <|
    List.Forall₂.cons (unary_writes ..) <|
    List.Forall₂.cons (unary_writes ..) <|
    List.Forall₂.cons (binary_writes ..) <|
    List.Forall₂.cons (binary_writes ..) <|
    List.Forall₂.cons (binary_writes ..) <|
    List.Forall₂.cons (nullary_writes ..) <|
    List.Forall₂.cons (unary_writes ..) <|
    List.Forall₂.cons (binary_writes ..) <|
    List.Forall₂.cons (unary_writes ..) <|
    List.Forall₂.cons (binary_writes ..) <|
    List.Forall₂.cons (unary_writes ..) <|
    List.Forall₂.cons (unary_writes ..) <|
    List.Forall₂.cons (binary_writes ..) <|
    List.Forall₂.cons (nullary_writes ..) <|
    List.Forall₂.cons (unary_writes ..) <|
    List.Forall₂.cons (binary_writes ..) <|
    List.Forall₂.cons (unary_writes ..) <|
    List.Forall₂.cons (binary_writes ..) <|
    List.Forall₂.cons (unary_writes ..) <|
    List.Forall₂.cons (unary_writes ..) <|
    List.Forall₂.cons (binary_writes ..) <|
    List.Forall₂.nil

/-- No operation writes argument 0: it ends as launched. -/
theorem keep_main_arg0 (V : Valuation τ sig (Elt F)) :
    after (ops (F := F)) V (Proc.devRef .tc main_arg0) = V (Proc.devRef .tc main_arg0) :=
  after_keep (writes (F := F)) V (by decide)
/-- No operation writes argument 1: it ends as launched. -/
theorem keep_main_arg1 (V : Valuation τ sig (Elt F)) :
    after (ops (F := F)) V (Proc.devRef .tc main_arg1) = V (Proc.devRef .tc main_arg1) :=
  after_keep (writes (F := F)) V (by decide)
/-- No operation writes argument 2: it ends as launched. -/
theorem keep_main_arg2 (V : Valuation τ sig (Elt F)) :
    after (ops (F := F)) V (Proc.devRef .tc main_arg2) = V (Proc.devRef .tc main_arg2) :=
  after_keep (writes (F := F)) V (by decide)
/-- No operation writes argument 3: it ends as launched. -/
theorem keep_main_arg3 (V : Valuation τ sig (Elt F)) :
    after (ops (F := F)) V (Proc.devRef .tc main_arg3) = V (Proc.devRef .tc main_arg3) :=
  after_keep (writes (F := F)) V (by decide)
/-- No operation writes argument 4: it ends as launched. -/
theorem keep_main_arg4 (V : Valuation τ sig (Elt F)) :
    after (ops (F := F)) V (Proc.devRef .tc main_arg4) = V (Proc.devRef .tc main_arg4) :=
  after_keep (writes (F := F)) V (by decide)
/-- No operation writes argument 5: it ends as launched. -/
theorem keep_main_arg5 (V : Valuation τ sig (Elt F)) :
    after (ops (F := F)) V (Proc.devRef .tc main_arg5) = V (Proc.devRef .tc main_arg5) :=
  after_keep (writes (F := F)) V (by decide)
/-- No operation writes argument 6: it ends as launched. -/
theorem keep_main_arg6 (V : Valuation τ sig (Elt F)) :
    after (ops (F := F)) V (Proc.devRef .tc main_arg6) = V (Proc.devRef .tc main_arg6) :=
  after_keep (writes (F := F)) V (by decide)
/-- No operation writes argument 7: it ends as launched. -/
theorem keep_main_arg7 (V : Valuation τ sig (Elt F)) :
    after (ops (F := F)) V (Proc.devRef .tc main_arg7) = V (Proc.devRef .tc main_arg7) :=
  after_keep (writes (F := F)) V (by decide)
/-- No operation writes argument 8: it ends as launched. -/
theorem keep_main_arg8 (V : Valuation τ sig (Elt F)) :
    after (ops (F := F)) V (Proc.devRef .tc main_arg8) = V (Proc.devRef .tc main_arg8) :=
  after_keep (writes (F := F)) V (by decide)
/-- No operation writes argument 9: it ends as launched. -/
theorem keep_main_arg9 (V : Valuation τ sig (Elt F)) :
    after (ops (F := F)) V (Proc.devRef .tc main_arg9) = V (Proc.devRef .tc main_arg9) :=
  after_keep (writes (F := F)) V (by decide)
/-- No operation writes argument 10: it ends as launched. -/
theorem keep_main_arg10 (V : Valuation τ sig (Elt F)) :
    after (ops (F := F)) V (Proc.devRef .tc main_arg10) = V (Proc.devRef .tc main_arg10) :=
  after_keep (writes (F := F)) V (by decide)
/-- No operation writes argument 11: it ends as launched. -/
theorem keep_main_arg11 (V : Valuation τ sig (Elt F)) :
    after (ops (F := F)) V (Proc.devRef .tc main_arg11) = V (Proc.devRef .tc main_arg11) :=
  after_keep (writes (F := F)) V (by decide)
/-- No operation writes argument 12: it ends as launched. -/
theorem keep_main_arg12 (V : Valuation τ sig (Elt F)) :
    after (ops (F := F)) V (Proc.devRef .tc main_arg12) = V (Proc.devRef .tc main_arg12) :=
  after_keep (writes (F := F)) V (by decide)
/-- No operation writes argument 13: it ends as launched. -/
theorem keep_main_arg13 (V : Valuation τ sig (Elt F)) :
    after (ops (F := F)) V (Proc.devRef .tc main_arg13) = V (Proc.devRef .tc main_arg13) :=
  after_keep (writes (F := F)) V (by decide)
/-- Operation 0 (nullary) writes main_c. -/
theorem rb_main_c (V : Valuation τ sig (Elt F)) :
    after (ops (F := F)) V (Proc.devRef .tc main_c) = val_main_c (F := F) := by
  rw [readback_nullary (writes (F := F)) V 0 rfl (by decide)]
  rfl
/-- Operation 1 (unary) writes main_v0. -/
theorem rb_main_v0 (V : Valuation τ sig (Elt F)) :
    after (ops (F := F)) V (Proc.devRef .tc main_v0) = val_main_v0 (F := F) := by
  rw [readback_unary (writes (F := F)) V 1 rfl (by decide) (by decide), rb_main_c V]
  rfl
/-- Operation 2 (binary) writes main_v1. -/
theorem rb_main_v1 (V : Valuation τ sig (Elt F)) :
    after (ops (F := F)) V (Proc.devRef .tc main_v1) = val_main_v1 (F := F) (V (Proc.devRef .tc main_arg0)) := by
  rw [readback_binary (writes (F := F)) V 2 rfl (by decide) (by decide) (by decide), keep_main_arg0 V, rb_main_v0 V]
  rfl
/-- Operation 3 (nullary) writes main_c_0. -/
theorem rb_main_c_0 (V : Valuation τ sig (Elt F)) :
    after (ops (F := F)) V (Proc.devRef .tc main_c_0) = val_main_c_0 (F := F) := by
  rw [readback_nullary (writes (F := F)) V 3 rfl (by decide)]
  rfl
/-- Operation 4 (unary) writes main_v2. -/
theorem rb_main_v2 (V : Valuation τ sig (Elt F)) :
    after (ops (F := F)) V (Proc.devRef .tc main_v2) = val_main_v2 (F := F) := by
  rw [readback_unary (writes (F := F)) V 4 rfl (by decide) (by decide), rb_main_c_0 V]
  rfl
/-- Operation 5 (binary) writes main_v3. -/
theorem rb_main_v3 (V : Valuation τ sig (Elt F)) :
    after (ops (F := F)) V (Proc.devRef .tc main_v3) = val_main_v3 (F := F) (V (Proc.devRef .tc main_arg0)) := by
  rw [readback_binary (writes (F := F)) V 5 rfl (by decide) (by decide) (by decide), keep_main_arg0 V, rb_main_v2 V]
  rfl
/-- Operation 6 (ternary) writes main_v4. -/
theorem rb_main_v4 (V : Valuation τ sig (Elt F)) :
    after (ops (F := F)) V (Proc.devRef .tc main_v4) = val_main_v4 (F := F) (V (Proc.devRef .tc main_arg0)) := by
  rw [readback_ternary (writes (F := F)) V 6 rfl (by decide) (by decide) (by decide) (by decide), rb_main_v1 V, rb_main_v3 V, keep_main_arg0 V]
  rfl
/-- Operation 7 (unary) writes main_v5. -/
theorem rb_main_v5 (V : Valuation τ sig (Elt F)) :
    after (ops (F := F)) V (Proc.devRef .tc main_v5) = val_main_v5 (F := F) (V (Proc.devRef .tc main_arg0)) := by
  rw [readback_unary (writes (F := F)) V 7 rfl (by decide) (by decide), rb_main_v4 V]
  rfl
/-- Operation 8 (binary) writes main_v6. -/
theorem rb_main_v6 (V : Valuation τ sig (Elt F)) :
    after (ops (F := F)) V (Proc.devRef .tc main_v6) = val_main_v6 (F := F) (V (Proc.devRef .tc main_arg0)) (V (Proc.devRef .tc main_arg4)) := by
  rw [readback_binary (writes (F := F)) V 8 rfl (by decide) (by decide) (by decide), keep_main_arg4 V, rb_main_v5 V]
  rfl
/-- Operation 9 (nullary) writes main_c_1. -/
theorem rb_main_c_1 (V : Valuation τ sig (Elt F)) :
    after (ops (F := F)) V (Proc.devRef .tc main_c_1) = val_main_c_1 (F := F) := by
  rw [readback_nullary (writes (F := F)) V 9 rfl (by decide)]
  rfl
/-- Operation 10 (unary) writes main_v7. -/
theorem rb_main_v7 (V : Valuation τ sig (Elt F)) :
    after (ops (F := F)) V (Proc.devRef .tc main_v7) = val_main_v7 (F := F) := by
  rw [readback_unary (writes (F := F)) V 10 rfl (by decide) (by decide), rb_main_c_1 V]
  rfl
/-- Operation 11 (binary) writes main_v8. -/
theorem rb_main_v8 (V : Valuation τ sig (Elt F)) :
    after (ops (F := F)) V (Proc.devRef .tc main_v8) = val_main_v8 (F := F) (V (Proc.devRef .tc main_arg1)) := by
  rw [readback_binary (writes (F := F)) V 11 rfl (by decide) (by decide) (by decide), keep_main_arg1 V, rb_main_v7 V]
  rfl
/-- Operation 12 (nullary) writes main_c_2. -/
theorem rb_main_c_2 (V : Valuation τ sig (Elt F)) :
    after (ops (F := F)) V (Proc.devRef .tc main_c_2) = val_main_c_2 (F := F) := by
  rw [readback_nullary (writes (F := F)) V 12 rfl (by decide)]
  rfl
/-- Operation 13 (unary) writes main_v9. -/
theorem rb_main_v9 (V : Valuation τ sig (Elt F)) :
    after (ops (F := F)) V (Proc.devRef .tc main_v9) = val_main_v9 (F := F) := by
  rw [readback_unary (writes (F := F)) V 13 rfl (by decide) (by decide), rb_main_c_2 V]
  rfl
/-- Operation 14 (binary) writes main_v10. -/
theorem rb_main_v10 (V : Valuation τ sig (Elt F)) :
    after (ops (F := F)) V (Proc.devRef .tc main_v10) = val_main_v10 (F := F) (V (Proc.devRef .tc main_arg1)) := by
  rw [readback_binary (writes (F := F)) V 14 rfl (by decide) (by decide) (by decide), keep_main_arg1 V, rb_main_v9 V]
  rfl
/-- Operation 15 (ternary) writes main_v11. -/
theorem rb_main_v11 (V : Valuation τ sig (Elt F)) :
    after (ops (F := F)) V (Proc.devRef .tc main_v11) = val_main_v11 (F := F) (V (Proc.devRef .tc main_arg1)) := by
  rw [readback_ternary (writes (F := F)) V 15 rfl (by decide) (by decide) (by decide) (by decide), rb_main_v8 V, rb_main_v10 V, keep_main_arg1 V]
  rfl
/-- Operation 16 (unary) writes main_v12. -/
theorem rb_main_v12 (V : Valuation τ sig (Elt F)) :
    after (ops (F := F)) V (Proc.devRef .tc main_v12) = val_main_v12 (F := F) (V (Proc.devRef .tc main_arg1)) := by
  rw [readback_unary (writes (F := F)) V 16 rfl (by decide) (by decide), rb_main_v11 V]
  rfl
/-- Operation 17 (binary) writes main_v13. -/
theorem rb_main_v13 (V : Valuation τ sig (Elt F)) :
    after (ops (F := F)) V (Proc.devRef .tc main_v13) = val_main_v13 (F := F) (V (Proc.devRef .tc main_arg1)) (V (Proc.devRef .tc main_arg5)) := by
  rw [readback_binary (writes (F := F)) V 17 rfl (by decide) (by decide) (by decide), keep_main_arg5 V, rb_main_v12 V]
  rfl
/-- Operation 18 (binary) writes main_v14. -/
theorem rb_main_v14 (V : Valuation τ sig (Elt F)) :
    after (ops (F := F)) V (Proc.devRef .tc main_v14) = val_main_v14 (F := F) (V (Proc.devRef .tc main_arg0)) (V (Proc.devRef .tc main_arg2)) (V (Proc.devRef .tc main_arg4)) := by
  rw [readback_binary (writes (F := F)) V 18 rfl (by decide) (by decide) (by decide), rb_main_v6 V, keep_main_arg2 V]
  rfl
/-- Operation 19 (nullary) writes main_call0_cst. -/
theorem rb_main_call0_cst (V : Valuation τ sig (Elt F)) :
    after (ops (F := F)) V (Proc.devRef .tc main_call0_cst) = val_main_call0_cst (F := F) := by
  rw [readback_nullary (writes (F := F)) V 19 rfl (by decide)]
  rfl
/-- Operation 20 (unary) writes main_call0_v0. -/
theorem rb_main_call0_v0 (V : Valuation τ sig (Elt F)) :
    after (ops (F := F)) V (Proc.devRef .tc main_call0_v0) = val_main_call0_v0 (F := F) := by
  rw [readback_unary (writes (F := F)) V 20 rfl (by decide) (by decide), rb_main_call0_cst V]
  rfl
/-- Operation 21 (binary) writes main_v15. -/
theorem rb_main_v15 (V : Valuation τ sig (Elt F)) :
    after (ops (F := F)) V (Proc.devRef .tc main_v15) = val_main_v15 (F := F) (V (Proc.devRef .tc main_arg0)) (V (Proc.devRef .tc main_arg2)) (V (Proc.devRef .tc main_arg4)) := by
  rw [readback_binary (writes (F := F)) V 21 rfl (by decide) (by decide) (by decide), rb_main_v14 V, rb_main_call0_v0 V]
  rfl
/-- Operation 22 (unary) writes main_v16. -/
theorem rb_main_v16 (V : Valuation τ sig (Elt F)) :
    after (ops (F := F)) V (Proc.devRef .tc main_v16) = val_main_v16 (F := F) (V (Proc.devRef .tc main_arg6)) := by
  rw [readback_unary (writes (F := F)) V 22 rfl (by decide) (by decide), keep_main_arg6 V]
  rfl
/-- Operation 23 (binary) writes main_v17. -/
theorem rb_main_v17 (V : Valuation τ sig (Elt F)) :
    after (ops (F := F)) V (Proc.devRef .tc main_v17) = val_main_v17 (F := F) (V (Proc.devRef .tc main_arg0)) (V (Proc.devRef .tc main_arg2)) (V (Proc.devRef .tc main_arg4)) (V (Proc.devRef .tc main_arg6)) := by
  rw [readback_binary (writes (F := F)) V 23 rfl (by decide) (by decide) (by decide), rb_main_v15 V, rb_main_v16 V]
  rfl
/-- Operation 24 (unary) writes main_v18. -/
theorem rb_main_v18 (V : Valuation τ sig (Elt F)) :
    after (ops (F := F)) V (Proc.devRef .tc main_v18) = val_main_v18 (F := F) (V (Proc.devRef .tc main_arg7)) := by
  rw [readback_unary (writes (F := F)) V 24 rfl (by decide) (by decide), keep_main_arg7 V]
  rfl
/-- Operation 25 (unary) writes main_v19. -/
theorem rb_main_v19 (V : Valuation τ sig (Elt F)) :
    after (ops (F := F)) V (Proc.devRef .tc main_v19) = val_main_v19 (F := F) (V (Proc.devRef .tc main_arg7)) := by
  rw [readback_unary (writes (F := F)) V 25 rfl (by decide) (by decide), rb_main_v18 V]
  rfl
/-- Operation 26 (binary) writes main_v20. -/
theorem rb_main_v20 (V : Valuation τ sig (Elt F)) :
    after (ops (F := F)) V (Proc.devRef .tc main_v20) = val_main_v20 (F := F) (V (Proc.devRef .tc main_arg0)) (V (Proc.devRef .tc main_arg2)) (V (Proc.devRef .tc main_arg4)) (V (Proc.devRef .tc main_arg6)) (V (Proc.devRef .tc main_arg7)) := by
  rw [readback_binary (writes (F := F)) V 26 rfl (by decide) (by decide) (by decide), rb_main_v17 V, rb_main_v19 V]
  rfl
/-- Operation 27 (binary) writes main_v21. -/
theorem rb_main_v21 (V : Valuation τ sig (Elt F)) :
    after (ops (F := F)) V (Proc.devRef .tc main_v21) = val_main_v21 (F := F) (V (Proc.devRef .tc main_arg0)) (V (Proc.devRef .tc main_arg2)) (V (Proc.devRef .tc main_arg4)) (V (Proc.devRef .tc main_arg6)) (V (Proc.devRef .tc main_arg7)) := by
  rw [readback_binary (writes (F := F)) V 27 rfl (by decide) (by decide) (by decide), rb_main_v20 V, rb_main_v6 V]
  rfl
/-- Operation 28 (binary) writes main_v22. -/
theorem rb_main_v22 (V : Valuation τ sig (Elt F)) :
    after (ops (F := F)) V (Proc.devRef .tc main_v22) = val_main_v22 (F := F) (V (Proc.devRef .tc main_arg1)) (V (Proc.devRef .tc main_arg3)) (V (Proc.devRef .tc main_arg5)) := by
  rw [readback_binary (writes (F := F)) V 28 rfl (by decide) (by decide) (by decide), rb_main_v13 V, keep_main_arg3 V]
  rfl
/-- Operation 29 (nullary) writes main_call1_cst. -/
theorem rb_main_call1_cst (V : Valuation τ sig (Elt F)) :
    after (ops (F := F)) V (Proc.devRef .tc main_call1_cst) = val_main_call1_cst (F := F) := by
  rw [readback_nullary (writes (F := F)) V 29 rfl (by decide)]
  rfl
/-- Operation 30 (unary) writes main_call1_v0. -/
theorem rb_main_call1_v0 (V : Valuation τ sig (Elt F)) :
    after (ops (F := F)) V (Proc.devRef .tc main_call1_v0) = val_main_call1_v0 (F := F) := by
  rw [readback_unary (writes (F := F)) V 30 rfl (by decide) (by decide), rb_main_call1_cst V]
  rfl
/-- Operation 31 (binary) writes main_v23. -/
theorem rb_main_v23 (V : Valuation τ sig (Elt F)) :
    after (ops (F := F)) V (Proc.devRef .tc main_v23) = val_main_v23 (F := F) (V (Proc.devRef .tc main_arg1)) (V (Proc.devRef .tc main_arg3)) (V (Proc.devRef .tc main_arg5)) := by
  rw [readback_binary (writes (F := F)) V 31 rfl (by decide) (by decide) (by decide), rb_main_v22 V, rb_main_call1_v0 V]
  rfl
/-- Operation 32 (unary) writes main_v24. -/
theorem rb_main_v24 (V : Valuation τ sig (Elt F)) :
    after (ops (F := F)) V (Proc.devRef .tc main_v24) = val_main_v24 (F := F) (V (Proc.devRef .tc main_arg8)) := by
  rw [readback_unary (writes (F := F)) V 32 rfl (by decide) (by decide), keep_main_arg8 V]
  rfl
/-- Operation 33 (binary) writes main_v25. -/
theorem rb_main_v25 (V : Valuation τ sig (Elt F)) :
    after (ops (F := F)) V (Proc.devRef .tc main_v25) = val_main_v25 (F := F) (V (Proc.devRef .tc main_arg1)) (V (Proc.devRef .tc main_arg3)) (V (Proc.devRef .tc main_arg5)) (V (Proc.devRef .tc main_arg8)) := by
  rw [readback_binary (writes (F := F)) V 33 rfl (by decide) (by decide) (by decide), rb_main_v23 V, rb_main_v24 V]
  rfl
/-- Operation 34 (unary) writes main_v26. -/
theorem rb_main_v26 (V : Valuation τ sig (Elt F)) :
    after (ops (F := F)) V (Proc.devRef .tc main_v26) = val_main_v26 (F := F) (V (Proc.devRef .tc main_arg9)) := by
  rw [readback_unary (writes (F := F)) V 34 rfl (by decide) (by decide), keep_main_arg9 V]
  rfl
/-- Operation 35 (unary) writes main_v27. -/
theorem rb_main_v27 (V : Valuation τ sig (Elt F)) :
    after (ops (F := F)) V (Proc.devRef .tc main_v27) = val_main_v27 (F := F) (V (Proc.devRef .tc main_arg9)) := by
  rw [readback_unary (writes (F := F)) V 35 rfl (by decide) (by decide), rb_main_v26 V]
  rfl
/-- Operation 36 (binary) writes main_v28. -/
theorem rb_main_v28 (V : Valuation τ sig (Elt F)) :
    after (ops (F := F)) V (Proc.devRef .tc main_v28) = val_main_v28 (F := F) (V (Proc.devRef .tc main_arg1)) (V (Proc.devRef .tc main_arg3)) (V (Proc.devRef .tc main_arg5)) (V (Proc.devRef .tc main_arg8)) (V (Proc.devRef .tc main_arg9)) := by
  rw [readback_binary (writes (F := F)) V 36 rfl (by decide) (by decide) (by decide), rb_main_v25 V, rb_main_v27 V]
  rfl
/-- Operation 37 (binary) writes main_v29. -/
theorem rb_main_v29 (V : Valuation τ sig (Elt F)) :
    after (ops (F := F)) V (Proc.devRef .tc main_v29) = val_main_v29 (F := F) (V (Proc.devRef .tc main_arg1)) (V (Proc.devRef .tc main_arg3)) (V (Proc.devRef .tc main_arg5)) (V (Proc.devRef .tc main_arg8)) (V (Proc.devRef .tc main_arg9)) := by
  rw [readback_binary (writes (F := F)) V 37 rfl (by decide) (by decide) (by decide), rb_main_v28 V, rb_main_v13 V]
  rfl
/-- Operation 38 (binary) writes main_v30. -/
theorem rb_main_v30 (V : Valuation τ sig (Elt F)) :
    after (ops (F := F)) V (Proc.devRef .tc main_v30) = val_main_v30 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [readback_binary (writes (F := F)) V 38 rfl (by decide) (by decide) (by decide), rb_main_v21 V, rb_main_v29 V]
  rfl
/-- Operation 39 (nullary) writes main_call2_cst. -/
theorem rb_main_call2_cst (V : Valuation τ sig (Elt F)) :
    after (ops (F := F)) V (Proc.devRef .tc main_call2_cst) = val_main_call2_cst (F := F) := by
  rw [readback_nullary (writes (F := F)) V 39 rfl (by decide)]
  rfl
/-- Operation 40 (unary) writes main_call2_v0. -/
theorem rb_main_call2_v0 (V : Valuation τ sig (Elt F)) :
    after (ops (F := F)) V (Proc.devRef .tc main_call2_v0) = val_main_call2_v0 (F := F) := by
  rw [readback_unary (writes (F := F)) V 40 rfl (by decide) (by decide), rb_main_call2_cst V]
  rfl
/-- Operation 41 (binary) writes main_v31. -/
theorem rb_main_v31 (V : Valuation τ sig (Elt F)) :
    after (ops (F := F)) V (Proc.devRef .tc main_v31) = val_main_v31 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [readback_binary (writes (F := F)) V 41 rfl (by decide) (by decide) (by decide), rb_main_v30 V, rb_main_call2_v0 V]
  rfl
/-- Operation 42 (unary) writes main_v32. -/
theorem rb_main_v32 (V : Valuation τ sig (Elt F)) :
    after (ops (F := F)) V (Proc.devRef .tc main_v32) = val_main_v32 (F := F) (V (Proc.devRef .tc main_arg10)) := by
  rw [readback_unary (writes (F := F)) V 42 rfl (by decide) (by decide), keep_main_arg10 V]
  rfl
/-- Operation 43 (binary) writes main_v33. -/
theorem rb_main_v33 (V : Valuation τ sig (Elt F)) :
    after (ops (F := F)) V (Proc.devRef .tc main_v33) = val_main_v33 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [readback_binary (writes (F := F)) V 43 rfl (by decide) (by decide) (by decide), rb_main_v31 V, rb_main_v32 V]
  rfl
/-- Operation 44 (unary) writes main_v34. -/
theorem rb_main_v34 (V : Valuation τ sig (Elt F)) :
    after (ops (F := F)) V (Proc.devRef .tc main_v34) = val_main_v34 (F := F) (V (Proc.devRef .tc main_arg11)) := by
  rw [readback_unary (writes (F := F)) V 44 rfl (by decide) (by decide), keep_main_arg11 V]
  rfl
/-- Operation 45 (unary) writes main_v35. -/
theorem rb_main_v35 (V : Valuation τ sig (Elt F)) :
    after (ops (F := F)) V (Proc.devRef .tc main_v35) = val_main_v35 (F := F) (V (Proc.devRef .tc main_arg11)) := by
  rw [readback_unary (writes (F := F)) V 45 rfl (by decide) (by decide), rb_main_v34 V]
  rfl
/-- Operation 46 (binary) writes main_v36. -/
theorem rb_main_v36 (V : Valuation τ sig (Elt F)) :
    after (ops (F := F)) V (Proc.devRef .tc main_v36) = val_main_v36 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [readback_binary (writes (F := F)) V 46 rfl (by decide) (by decide) (by decide), rb_main_v33 V, rb_main_v35 V]
  rfl
/-- Operation 47 (nullary) writes main_call3_cst. -/
theorem rb_main_call3_cst (V : Valuation τ sig (Elt F)) :
    after (ops (F := F)) V (Proc.devRef .tc main_call3_cst) = val_main_call3_cst (F := F) := by
  rw [readback_nullary (writes (F := F)) V 47 rfl (by decide)]
  rfl
/-- Operation 48 (unary) writes main_call3_v0. -/
theorem rb_main_call3_v0 (V : Valuation τ sig (Elt F)) :
    after (ops (F := F)) V (Proc.devRef .tc main_call3_v0) = val_main_call3_v0 (F := F) := by
  rw [readback_unary (writes (F := F)) V 48 rfl (by decide) (by decide), rb_main_call3_cst V]
  rfl
/-- Operation 49 (binary) writes main_v37. -/
theorem rb_main_v37 (V : Valuation τ sig (Elt F)) :
    after (ops (F := F)) V (Proc.devRef .tc main_v37) = val_main_v37 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [readback_binary (writes (F := F)) V 49 rfl (by decide) (by decide) (by decide), rb_main_v36 V, rb_main_call3_v0 V]
  rfl
/-- Operation 50 (unary) writes main_v38. -/
theorem rb_main_v38 (V : Valuation τ sig (Elt F)) :
    after (ops (F := F)) V (Proc.devRef .tc main_v38) = val_main_v38 (F := F) (V (Proc.devRef .tc main_arg12)) := by
  rw [readback_unary (writes (F := F)) V 50 rfl (by decide) (by decide), keep_main_arg12 V]
  rfl
/-- Operation 51 (binary) writes main_v39. -/
theorem rb_main_v39 (V : Valuation τ sig (Elt F)) :
    after (ops (F := F)) V (Proc.devRef .tc main_v39) = val_main_v39 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [readback_binary (writes (F := F)) V 51 rfl (by decide) (by decide) (by decide), rb_main_v37 V, rb_main_v38 V]
  rfl
/-- Operation 52 (unary) writes main_v40. -/
theorem rb_main_v40 (V : Valuation τ sig (Elt F)) :
    after (ops (F := F)) V (Proc.devRef .tc main_v40) = val_main_v40 (F := F) (V (Proc.devRef .tc main_arg13)) := by
  rw [readback_unary (writes (F := F)) V 52 rfl (by decide) (by decide), keep_main_arg13 V]
  rfl
/-- Operation 53 (unary) writes main_v41. -/
theorem rb_main_v41 (V : Valuation τ sig (Elt F)) :
    after (ops (F := F)) V (Proc.devRef .tc main_v41) = val_main_v41 (F := F) (V (Proc.devRef .tc main_arg13)) := by
  rw [readback_unary (writes (F := F)) V 53 rfl (by decide) (by decide), rb_main_v40 V]
  rfl
/-- Operation 54 (binary) writes main_v42. -/
theorem rb_main_v42 (V : Valuation τ sig (Elt F)) :
    after (ops (F := F)) V (Proc.devRef .tc main_v42) = val_main_v42 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [readback_binary (writes (F := F)) V 54 rfl (by decide) (by decide) (by decide), rb_main_v39 V, rb_main_v41 V]
  rfl

/-- THE RUN: every weakly fair execution of the reference terminates with the result buffer at the last stage of the
    arguments as launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42) = val_main_v42 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v42).trans (rb_main_v42 _),
      (h c main_arg0).trans (keep_main_arg0 _),
      (h c main_arg1).trans (keep_main_arg1 _),
      (h c main_arg2).trans (keep_main_arg2 _),
      (h c main_arg3).trans (keep_main_arg3 _),
      (h c main_arg4).trans (keep_main_arg4 _),
      (h c main_arg5).trans (keep_main_arg5 _),
      (h c main_arg6).trans (keep_main_arg6 _),
      (h c main_arg7).trans (keep_main_arg7 _),
      (h c main_arg8).trans (keep_main_arg8 _),
      (h c main_arg9).trans (keep_main_arg9 _),
      (h c main_arg10).trans (keep_main_arg10 _),
      (h c main_arg11).trans (keep_main_arg11 _),
      (h c main_arg12).trans (keep_main_arg12 _),
      (h c main_arg13).trans (keep_main_arg13 _)⟩)
    (run_seq scopedRefs_eq scopedSems_eq defs main (fun _ => ops) main_eq (fun _ => ops_sub) m ρ)

end Cert.ReferenceIdeal.RefRun

end
-- ==== Proof.RefTower.lean ====
/-
  The reference program's result, read entry by entry, IS the two-tower function G of TowerArray.

  The reference computes, for each batch row r: the rectified concatenation of the gathered user embedding row and
  the user feature row, times the transposed user weight matrix, plus the user bias, plus the embedding row again
  (entries 0 to 63 of the middle vector); the same for the item side (entries 64 to 127); then two dense layers on the
  rectified middle vector. Each stage is read at an index (r, j) from the stages below it: a product of matrices at an
  index is the sum over the contracted coordinate, a transposed matrix at (k, j) is the matrix at (j, k), a broadcast
  bias at (r, j) is the bias at j, a rectification is the maximum with 0, and a concatenation along the column axis at
  column k is its first piece at k below the first piece's width and its second piece at k less that width from there
  on, which is what Fin.append of the two rows says. The two table look-ups are never opened: their results enter G
  as given arrays.
-/
import proofs.«145909_j33629593927760_2_alg».proof.Proof.RefStages
import proofs.«145909_j33629593927760_2_alg».proof.Proof.TowerArray
import Idealize.ShloMosaic.Lib.Pipeline.Value
import Idealize.ShloMosaic.Lib.ValueIdx
import Idealize.ShloMosaic.PureOps.Ideal.Laws

noncomputable section

namespace Cert.ReferenceIdeal.RefTower

open Cert.ReferenceIdeal Cert.ReferenceIdeal.Gen Cert.ReferenceIdeal.ReadP Cert.Tower Idealize.ShloMosaic
  Idealize.ShloMosaic.ValueIdx

variable (x0 x1 : (⟨S16384, .i32⟩ : BufTy).Contents (Elt Ideal))
  (x2 : (⟨S16384x21, .f32⟩ : BufTy).Contents (Elt Ideal)) (x3 : (⟨S16384x39, .f32⟩ : BufTy).Contents (Elt Ideal))
  (x4 : (⟨S1000001x64, .f32⟩ : BufTy).Contents (Elt Ideal)) (x5 : (⟨S500001x64, .f32⟩ : BufTy).Contents (Elt Ideal))
  (x6 : (⟨S64x85, .f32⟩ : BufTy).Contents (Elt Ideal)) (x7 : (⟨S64, .f32⟩ : BufTy).Contents (Elt Ideal))
  (x8 : (⟨S64x103, .f32⟩ : BufTy).Contents (Elt Ideal)) (x9 : (⟨S64, .f32⟩ : BufTy).Contents (Elt Ideal))
  (x10 : (⟨S256x128, .f32⟩ : BufTy).Contents (Elt Ideal)) (x11 : (⟨S256, .f32⟩ : BufTy).Contents (Elt Ideal))
  (x12 : (⟨S1x256, .f32⟩ : BufTy).Contents (Elt Ideal)) (x13 : (⟨S1, .f32⟩ : BufTy).Contents (Elt Ideal))

/-! ## The four rectifications' zero arrays: the zero word broadcast everywhere is the extended real 0 -/

theorem relu0 (i : S16384x85.Idx) : (val_main_call0_v0 (F := Ideal) i : EReal) = 0 := by
  rw [val_main_call0_v0_apply, val_main_call0_cst_apply]
  exact Ideal.ofBits_zero_f32

theorem relu1 (i : S16384x103.Idx) : (val_main_call1_v0 (F := Ideal) i : EReal) = 0 := by
  rw [val_main_call1_v0_apply, val_main_call1_cst_apply]
  exact Ideal.ofBits_zero_f32

theorem relu2 (i : S16384x128.Idx) : (val_main_call2_v0 (F := Ideal) i : EReal) = 0 := by
  rw [val_main_call2_v0_apply, val_main_call2_cst_apply]
  exact Ideal.ofBits_zero_f32

theorem relu3 (i : S16384x256.Idx) : (val_main_call3_v0 (F := Ideal) i : EReal) = 0 := by
  rw [val_main_call3_v0_apply, val_main_call3_cst_apply]
  exact Ideal.ofBits_zero_f32

/-! ## The two feature concatenations: row r is the embedding row followed by the feature row -/

/-- The user side: 64 embedding columns, then 21 feature columns. -/
theorem v14_at (r : Fin 16384) (k : Fin 85) :
    val_main_v14 (F := Ideal) x0 x2 x4 (ix2 r k)
      = (Fin.append (rowOf (val_main_v6 (F := Ideal) x0 x4) r) (rowOf x2 r) : Fin 85 → EReal) k := by
  refine Fin.addCases (m := 64) (n := 21)
    (motive := fun k => val_main_v14 (F := Ideal) x0 x2 x4 (ix2 r k)
      = (Fin.append (rowOf (val_main_v6 (F := Ideal) x0 x4) r) (rowOf x2 r) : Fin 85 → EReal) k)
    (fun k => ?_) (fun k => ?_) k
  · -- a column below 64: the first piece at the same column
    rw [Fin.append_left]
    unfold val_main_v14
    exact concatenate_pair_apply_left (t := S16384x85) (s₁ := S16384x64) (s₂ := S16384x21) 1 _ _ _
      (ix2 r (Fin.castAdd 21 k)) rfl (ix2 r k) (fun b => by
      match b with
      | ⟨0, _⟩ => rfl
      | ⟨1, _⟩ => rfl)
  · -- a column from 64 on: the second piece at the column less 64
    rw [Fin.append_right]
    unfold val_main_v14
    exact concatenate_pair_apply_right (t := S16384x85) (s₁ := S16384x64) (s₂ := S16384x21) 1 _ _ _
      (ix2 r (Fin.natAdd 64 k)) rfl rfl (ix2 r k)
      (fun b hb => by
        match b with
        | ⟨0, _⟩ => rfl
        | ⟨1, _⟩ => exact absurd rfl hb)
      (by show k.val + 64 = 64 + k.val; omega)

/-- The item side: 64 embedding columns, then 39 feature columns. -/
theorem v22_at (r : Fin 16384) (k : Fin 103) :
    val_main_v22 (F := Ideal) x1 x3 x5 (ix2 r k)
      = (Fin.append (rowOf (val_main_v13 (F := Ideal) x1 x5) r) (rowOf x3 r) : Fin 103 → EReal) k := by
  refine Fin.addCases (m := 64) (n := 39)
    (motive := fun k => val_main_v22 (F := Ideal) x1 x3 x5 (ix2 r k)
      = (Fin.append (rowOf (val_main_v13 (F := Ideal) x1 x5) r) (rowOf x3 r) : Fin 103 → EReal) k)
    (fun k => ?_) (fun k => ?_) k
  · rw [Fin.append_left]
    unfold val_main_v22
    exact concatenate_pair_apply_left (t := S16384x103) (s₁ := S16384x64) (s₂ := S16384x39) 1 _ _ _
      (ix2 r (Fin.castAdd 39 k)) rfl (ix2 r k) (fun b => by
      match b with
      | ⟨0, _⟩ => rfl
      | ⟨1, _⟩ => rfl)
  · rw [Fin.append_right]
    unfold val_main_v22
    exact concatenate_pair_apply_right (t := S16384x103) (s₁ := S16384x64) (s₂ := S16384x39) 1 _ _ _
      (ix2 r (Fin.natAdd 64 k)) rfl rfl (ix2 r k)
      (fun b hb => by
        match b with
        | ⟨0, _⟩ => rfl
        | ⟨1, _⟩ => exact absurd rfl hb)
      (by show k.val + 64 = 64 + k.val; omega)

/-! ## The two towers: a residual linear layer on the rectified concatenation -/

/-- The user tower at (r, j): the rectified row times row j of the weight matrix, plus the bias, plus the embedding. -/
theorem v21_at (r : Fin 16384) (j : Fin 64) :
    val_main_v21 (F := Ideal) x0 x2 x4 x6 x7 (ix2 r j)
      = ((∑ k : Fin 85, max ((Fin.append (rowOf (val_main_v6 (F := Ideal) x0 x4) r) (rowOf x2 r) : Fin 85 → EReal) k) 0
            * x6 (ix2 j k)) + x7 (ix1 j)) + val_main_v6 (F := Ideal) x0 x4 (ix2 r j) := by
  rw [val_main_v21_apply, val_main_v20_apply, val_main_v17_apply, val_main_v19_apply, val_main_v18_apply,
    Ideal.addf_def, Ideal.addf_def]
  -- the bias broadcast twice reads the bias at the column
  have eb : idx_main_v18 (idx_main_v19 (ix2 r j)) = ix1 j := funext fun a => by
    match a with
    | ⟨0, _⟩ => rfl
  rw [eb]
  refine congrArg (fun s : EReal => s + x7 (ix1 j) + val_main_v6 (F := Ideal) x0 x4 (ix2 r j)) ?_
  refine Finset.sum_congr rfl fun k _ => ?_
  -- one term: the rectified concatenation at (r, k) times the transposed weights at (k, j)
  have e1 : lidx_main_v17 (ix2 r j) k = ix2 r k := funext fun a => by
    match a with
    | ⟨0, _⟩ => rfl
    | ⟨1, _⟩ => rfl
  have e2 : idx_main_v16 (ridx_main_v17 (ix2 r j) k) = ix2 j k := funext fun a => by
    match a with
    | ⟨0, _⟩ => rfl
    | ⟨1, _⟩ => rfl
  rw [val_main_v15_apply, val_main_v16_apply, Ideal.maximumf_def, relu0, e1, e2, v14_at]

/-- The item tower at (r, j), likewise. -/
theorem v29_at (r : Fin 16384) (j : Fin 64) :
    val_main_v29 (F := Ideal) x1 x3 x5 x8 x9 (ix2 r j)
      = ((∑ k : Fin 103, max ((Fin.append (rowOf (val_main_v13 (F := Ideal) x1 x5) r) (rowOf x3 r) : Fin 103 → EReal) k) 0
            * x8 (ix2 j k)) + x9 (ix1 j)) + val_main_v13 (F := Ideal) x1 x5 (ix2 r j) := by
  rw [val_main_v29_apply, val_main_v28_apply, val_main_v25_apply, val_main_v27_apply, val_main_v26_apply,
    Ideal.addf_def, Ideal.addf_def]
  have eb : idx_main_v26 (idx_main_v27 (ix2 r j)) = ix1 j := funext fun a => by
    match a with
    | ⟨0, _⟩ => rfl
  rw [eb]
  refine congrArg (fun s : EReal => s + x9 (ix1 j) + val_main_v13 (F := Ideal) x1 x5 (ix2 r j)) ?_
  refine Finset.sum_congr rfl fun k _ => ?_
  have e1 : lidx_main_v25 (ix2 r j) k = ix2 r k := funext fun a => by
    match a with
    | ⟨0, _⟩ => rfl
    | ⟨1, _⟩ => rfl
  have e2 : idx_main_v24 (ridx_main_v25 (ix2 r j) k) = ix2 j k := funext fun a => by
    match a with
    | ⟨0, _⟩ => rfl
    | ⟨1, _⟩ => rfl
  rw [val_main_v23_apply, val_main_v24_apply, Ideal.maximumf_def, relu1, e1, e2, v22_at]

/-! ## The middle vector: the two towers end to end -/

/-- Row r of the 128-column concatenation is the middle vector of the two towers on row r. -/
theorem v30_at (r : Fin 16384) (j : Fin 128) :
    val_main_v30 (F := Ideal) x0 x1 x2 x3 x4 x5 x6 x7 x8 x9 (ix2 r j)
      = midRef (rowOf (val_main_v6 (F := Ideal) x0 x4) r) (rowOf (val_main_v13 (F := Ideal) x1 x5) r) (rowOf x2 r)
          (rowOf x3 r) (matOf x6) (vecOf x7) (matOf x8) (vecOf x9) j := by
  refine Fin.addCases (m := 64) (n := 64)
    (motive := fun j => val_main_v30 (F := Ideal) x0 x1 x2 x3 x4 x5 x6 x7 x8 x9 (ix2 r j)
      = midRef (rowOf (val_main_v6 (F := Ideal) x0 x4) r) (rowOf (val_main_v13 (F := Ideal) x1 x5) r) (rowOf x2 r)
          (rowOf x3 r) (matOf x6) (vecOf x7) (matOf x8) (vecOf x9) j)
    (fun j => ?_) (fun j => ?_) j
  · -- a column below 64: the user tower
    unfold midRef
    rw [Fin.append_left]
    unfold val_main_v30
    refine (concatenate_pair_apply_left (t := S16384x128) (s₁ := S16384x64) (s₂ := S16384x64) 1 _ _ _
      (ix2 r (Fin.castAdd 64 j)) rfl (ix2 r j) (fun b => by
        match b with
        | ⟨0, _⟩ => rfl
        | ⟨1, _⟩ => rfl)).trans ?_
    exact v21_at x0 x2 x4 x6 x7 r j
  · -- a column from 64 on: the item tower
    unfold midRef
    rw [Fin.append_right]
    unfold val_main_v30
    refine (concatenate_pair_apply_right (t := S16384x128) (s₁ := S16384x64) (s₂ := S16384x64) 1 _ _ _
      (ix2 r (Fin.natAdd 64 j)) rfl rfl (ix2 r j)
      (fun b hb => by
        match b with
        | ⟨0, _⟩ => rfl
        | ⟨1, _⟩ => exact absurd rfl hb)
      (by show j.val + 64 = 64 + j.val; omega)).trans ?_
    exact v29_at x1 x3 x5 x8 x9 r j

/-! ## The head: two dense layers on the rectified middle vector -/

/-- The hidden layer at (r, n): rectified (rectified middle vector times row n of the weights, plus the bias). -/
theorem v37_at (r : Fin 16384) (n : Fin 256) :
    val_main_v37 (F := Ideal) x0 x1 x2 x3 x4 x5 x6 x7 x8 x9 x10 x11 (ix2 r n)
      = max ((∑ j : Fin 128, max (midRef (rowOf (val_main_v6 (F := Ideal) x0 x4) r)
            (rowOf (val_main_v13 (F := Ideal) x1 x5) r) (rowOf x2 r) (rowOf x3 r) (matOf x6) (vecOf x7) (matOf x8)
            (vecOf x9) j) 0 * x10 (ix2 n j)) + x11 (ix1 n)) 0 := by
  rw [val_main_v37_apply, val_main_v36_apply, val_main_v33_apply, val_main_v35_apply, val_main_v34_apply,
    Ideal.maximumf_def, Ideal.addf_def, relu3]
  have eb : idx_main_v34 (idx_main_v35 (ix2 r n)) = ix1 n := funext fun a => by
    match a with
    | ⟨0, _⟩ => rfl
  rw [eb]
  refine congrArg (fun s : EReal => max (s + x11 (ix1 n)) 0) ?_
  refine Finset.sum_congr rfl fun j _ => ?_
  have e1 : lidx_main_v33 (ix2 r n) j = ix2 r j := funext fun a => by
    match a with
    | ⟨0, _⟩ => rfl
    | ⟨1, _⟩ => rfl
  have e2 : idx_main_v32 (ridx_main_v33 (ix2 r n) j) = ix2 n j := funext fun a => by
    match a with
    | ⟨0, _⟩ => rfl
    | ⟨1, _⟩ => rfl
  rw [val_main_v31_apply, val_main_v32_apply, Ideal.maximumf_def, relu2, e1, e2, v30_at]

/-- The output at (r, 0): the head of the middle vector of row r. -/
theorem v42_at (r : Fin 16384) :
    val_main_v42 (F := Ideal) x0 x1 x2 x3 x4 x5 x6 x7 x8 x9 x10 x11 x12 x13 (ix2 r (0 : Fin 1))
      = head (midRef (rowOf (val_main_v6 (F := Ideal) x0 x4) r) (rowOf (val_main_v13 (F := Ideal) x1 x5) r)
          (rowOf x2 r) (rowOf x3 r) (matOf x6) (vecOf x7) (matOf x8) (vecOf x9))
          (matOf x10) (vecOf x11) (rowOf x12 0) (x13 (ix1 0)) := by
  rw [val_main_v42_apply, val_main_v39_apply, val_main_v41_apply, val_main_v40_apply, Ideal.addf_def]
  have eb : idx_main_v40 (idx_main_v41 (ix2 r (0 : Fin 1))) = ix1 0 := funext fun a => by
    match a with
    | ⟨0, _⟩ => rfl
  rw [eb]
  unfold head
  refine congrArg (fun s : EReal => s + x13 (ix1 0)) ?_
  refine Finset.sum_congr rfl fun n _ => ?_
  have e1 : lidx_main_v39 (ix2 r (0 : Fin 1)) n = ix2 r n := funext fun a => by
    match a with
    | ⟨0, _⟩ => rfl
    | ⟨1, _⟩ => rfl
  have e2 : idx_main_v38 (ridx_main_v39 (ix2 r (0 : Fin 1)) n) = ix2 (0 : Fin 1) n := funext fun a => by
    match a with
    | ⟨0, _⟩ => rfl
    | ⟨1, _⟩ => rfl
  rw [val_main_v38_apply, e1, e2, v37_at]
  rfl

/-! ## The result -/

/-- THE REFERENCE'S RESULT STAGE IS G of the two gathered embedding arrays and the other arguments. -/
theorem val_eq_G :
    ReadP.val_main_v42 (F := Ideal) x0 x1 x2 x3 x4 x5 x6 x7 x8 x9 x10 x11 x12 x13
      = Cert.Tower.G (ReadP.val_main_v6 (F := Ideal) x0 x4) (ReadP.val_main_v13 (F := Ideal) x1 x5) x2 x3 x6 x7 x8 x9
          x10 x11 x12 x13 := by
  funext i
  obtain ⟨r, c, rfl⟩ : ∃ (r : Fin 16384) (c : Fin 1), i = ix2 r c := ⟨i 0, i 1, eq_ix2 i⟩
  obtain rfl : c = 0 := Subsingleton.elim _ _
  exact v42_at x0 x1 x2 x3 x4 x5 x6 x7 x8 x9 x10 x11 x12 x13 r

end Cert.ReferenceIdeal.RefTower

end
-- ==== Proof.GatherSame.lean ====
/-
  The kernel program's two table look-ups are the reference's.

  Each program starts, for each of the two embedding tables, with the same eight operations on the index vector and
  the table: a negative index is wrapped by adding the table's row count (compare with 0, add, select), the index
  vector is viewed as a column, and the rows are gathered. The two programs print these operations with their own
  copies of the shape names and of the gather's dimension numbers. The shape names abbreviate the same literal
  shapes, and the two dimension-number records have the same fields and differ only in the proof that the fields are
  well formed, which does not matter; so the two terms are the same term, and nothing of a look-up is evaluated.
-/
import proofs.«145909_j33629593927760_2_alg».proof.Proof.Gen.KernelIdeal
import proofs.«145909_j33629593927760_2_alg».proof.Proof.RefStages

noncomputable section

namespace Cert.Proof.GatherSame

open Idealize.ShloMosaic

/-- The user table's gather dimension numbers: the two programs' records have the same fields. -/
theorem rec_user : Cert.KernelIdeal.gather_S1000001x64_S16384x1_S16384x64_1_0_n_n_0_1_164 = Cert.ReferenceIdeal.gather_S1000001x64_S16384x1_S16384x64_1_0_n_n_0_1_164 := rfl

/-- The item table's gather dimension numbers, likewise. -/
theorem rec_item : Cert.KernelIdeal.gather_S500001x64_S16384x1_S16384x64_1_0_n_n_0_1_164 = Cert.ReferenceIdeal.gather_S500001x64_S16384x1_S16384x64_1_0_n_n_0_1_164 := rfl

set_option maxHeartbeats 400000 in
/-- THE USER LOOK-UP: the kernel program's wrapped gather from the user table is the reference's stage. -/
theorem user_same (x0 : (⟨Cert.KernelIdeal.S16384, .i32⟩ : BufTy).Contents (Elt Ideal))
    (x4 : (⟨Cert.KernelIdeal.S1000001x64, .f32⟩ : BufTy).Contents (Elt Ideal)) :
    (Host.gather Cert.KernelIdeal.gather_S1000001x64_S16384x1_S16384x64_1_0_n_n_0_1_164 x4
        (broadcastInDim Cert.KernelIdeal.S16384x1 ![0] Cert.KernelIdeal.Gen.bcast_S16384_S16384x1_0
          (select
            (cmpi .slt x0 (broadcastInDim Cert.KernelIdeal.S16384 ![] Cert.KernelIdeal.Gen.bcast_S_S16384 (constantI Cert.KernelIdeal.S_ 32 0#32)))
            (addi x0 (broadcastInDim Cert.KernelIdeal.S16384 ![] Cert.KernelIdeal.Gen.bcast_S_S16384 (constantI Cert.KernelIdeal.S_ 32 1000001#32)))
            x0))
      : Cert.KernelIdeal.S16384x64.Idx → EReal)
      = Cert.ReferenceIdeal.ReadP.val_main_v6 (F := Ideal) x0 x4 := by
  unfold Cert.ReferenceIdeal.ReadP.val_main_v6 Cert.ReferenceIdeal.ReadP.val_main_v5 Cert.ReferenceIdeal.ReadP.val_main_v4 Cert.ReferenceIdeal.ReadP.val_main_v1 Cert.ReferenceIdeal.ReadP.val_main_v3
    Cert.ReferenceIdeal.ReadP.val_main_v0 Cert.ReferenceIdeal.ReadP.val_main_v2 Cert.ReferenceIdeal.ReadP.val_main_c Cert.ReferenceIdeal.ReadP.val_main_c_0
  rw [rec_user]

set_option maxHeartbeats 400000 in
/-- THE ITEM LOOK-UP: the kernel program's wrapped gather from the item table is the reference's stage. -/
theorem item_same (x1 : (⟨Cert.KernelIdeal.S16384, .i32⟩ : BufTy).Contents (Elt Ideal))
    (x5 : (⟨Cert.KernelIdeal.S500001x64, .f32⟩ : BufTy).Contents (Elt Ideal)) :
    (Host.gather Cert.KernelIdeal.gather_S500001x64_S16384x1_S16384x64_1_0_n_n_0_1_164 x5
        (broadcastInDim Cert.KernelIdeal.S16384x1 ![0] Cert.KernelIdeal.Gen.bcast_S16384_S16384x1_0
          (select
            (cmpi .slt x1 (broadcastInDim Cert.KernelIdeal.S16384 ![] Cert.KernelIdeal.Gen.bcast_S_S16384 (constantI Cert.KernelIdeal.S_ 32 0#32)))
            (addi x1 (broadcastInDim Cert.KernelIdeal.S16384 ![] Cert.KernelIdeal.Gen.bcast_S_S16384 (constantI Cert.KernelIdeal.S_ 32 500001#32)))
            x1))
      : Cert.KernelIdeal.S16384x64.Idx → EReal)
      = Cert.ReferenceIdeal.ReadP.val_main_v13 (F := Ideal) x1 x5 := by
  unfold Cert.ReferenceIdeal.ReadP.val_main_v13 Cert.ReferenceIdeal.ReadP.val_main_v12 Cert.ReferenceIdeal.ReadP.val_main_v11 Cert.ReferenceIdeal.ReadP.val_main_v8 Cert.ReferenceIdeal.ReadP.val_main_v10
    Cert.ReferenceIdeal.ReadP.val_main_v7 Cert.ReferenceIdeal.ReadP.val_main_v9 Cert.ReferenceIdeal.ReadP.val_main_c_1 Cert.ReferenceIdeal.ReadP.val_main_c_2
  rw [rec_item]

end Cert.Proof.GatherSame

end
-- ==== Proof.lean ====
/-
  The certificate of a fused two-tower recommender kernel against its plain reference.

  Both programs look up a user and an item embedding per batch row, pass each, joined with the row's features and
  rectified, through a residual linear layer (the two towers), join the towers' outputs and apply a two-layer head; the
  result is one number per batch row. The reference does this tower by tower. The kernel program first MERGES the two
  towers' weights on the host (the embedding columns of the two weight matrices on the diagonal of a 128 × 128 matrix, the
  feature columns on the diagonal of a 128 × 60 matrix, zero blocks elsewhere, the two bias vectors end to end) and then, in
  one region over four blocks of 4096 rows, computes both towers with two matrix products per block and the head with two
  more, its matrix operands rounded to bf16.

  On the extended reals a rounding is the identity and a matrix product is the plain sum of products, so:
    * what the region's body stores for a row is the head of the merged form of the towers on that row (PayloadRow);
    * the four blocks written back cover the output array, which therefore ends holding the merged form GK of the arrays
      the region finds (KernelValue), and those arrays are the merged operands of the arguments (MergedWeights);
    * the merged form is the reference's form G (TowerSpec: each off-diagonal term is a product with zero; MergedArray);
    * the reference's run ends with its result buffer at its last stage of the arguments (RefRun), which is G (RefTower);
    * the two table look-ups are the same terms in the two programs (GatherSame).
  Hence the two result arrays are equal entry by entry, for ALL argument arrays: no finiteness is used. The three frames
  are the generated frame runs (the kernel programs) and the reference's run with its result dropped; the idealization
  rewrote nothing, so there is nothing to preserve.
-/
import proofs.«145909_j33629593927760_2_alg».proof.Defs
import proofs.«145909_j33629593927760_2_alg».proof.Proof.Gen.Kernel
import proofs.«145909_j33629593927760_2_alg».proof.Proof.Gen.Kernel.Skeleton
import proofs.«145909_j33629593927760_2_alg».proof.Proof.Gen.Kernel.Launch
import proofs.«145909_j33629593927760_2_alg».proof.Proof.Gen.Kernel.Points
import proofs.«145909_j33629593927760_2_alg».proof.Proof.Gen.Kernel.Frame
import proofs.«145909_j33629593927760_2_alg».proof.Proof.Gen.KernelIdeal
import proofs.«145909_j33629593927760_2_alg».proof.Proof.Gen.KernelIdeal.Skeleton
import proofs.«145909_j33629593927760_2_alg».proof.Proof.Gen.KernelIdeal.Launch
import proofs.«145909_j33629593927760_2_alg».proof.Proof.Gen.KernelIdeal.Points
import proofs.«145909_j33629593927760_2_alg».proof.Proof.Gen.KernelIdeal.Frame
import proofs.«145909_j33629593927760_2_alg».proof.Proof.Gen.ReferenceIdeal
import proofs.«145909_j33629593927760_2_alg».proof.Proof.Gen.Pre_finite_inputs
import proofs.«145909_j33629593927760_2_alg».proof.Proof.Gen.KernelIdeal.Value
import proofs.«145909_j33629593927760_2_alg».proof.Proof.KernelValue
import proofs.«145909_j33629593927760_2_alg».proof.Proof.MergedWeights
import proofs.«145909_j33629593927760_2_alg».proof.Proof.MergedArray
import proofs.«145909_j33629593927760_2_alg».proof.Proof.RefRun
import proofs.«145909_j33629593927760_2_alg».proof.Proof.RefTower
import proofs.«145909_j33629593927760_2_alg».proof.Proof.GatherSame
import Idealize.ShloMosaic.Adequacy
import Idealize.ShloMosaic.Init

noncomputable section

namespace Cert.Proof

open Idealize.ShloMosaic Idealize.ShloMosaic.TcCoe Idealize.SL.Sem

/-! ## The kernel's output array is the result function of the arguments -/

section KernelSide

open Cert.KernelIdeal Cert.KernelIdeal.Gen Cert.KernelIdeal.Merged Cert.KernelIdeal.KerValue Cert.Tower

variable (m : (ℓ : Loc nD τ sig) → Buf (Elt Ideal) ℓ) (c : Dev nD)

/-- The gathered user embeddings the region finds are the reference's gather stage of the same arguments. -/
theorem user_rows : (V m c main_v6 : S16384x64.Idx → EReal)
    = Cert.ReferenceIdeal.ReadP.val_main_v6 (F := Ideal) (m ((c : Thread nD τ).loc main_arg0)) (m ((c : Thread nD τ).loc main_arg4)) :=
  (gathered_user m c).trans (Cert.Proof.GatherSame.user_same _ _)

/-- The gathered item embeddings the region finds are the reference's gather stage of the same arguments. -/
theorem item_rows : (V m c main_v13 : S16384x64.Idx → EReal)
    = Cert.ReferenceIdeal.ReadP.val_main_v13 (F := Ideal) (m ((c : Thread nD τ).loc main_arg1)) (m ((c : Thread nD τ).loc main_arg5)) :=
  (gathered_item m c).trans (Cert.Proof.GatherSame.item_same _ _)

/-- The merged form of the arrays the region finds is the result function of the arguments as launched: the merged
    operands are what the host operations built, block by block. -/
theorem kernel_result : kG m c
    = G (V m c main_v6 : S16384x64.Idx → EReal) (V m c main_v13 : S16384x64.Idx → EReal)
        (m ((c : Thread nD τ).loc main_arg2)) (m ((c : Thread nD τ).loc main_arg3))
        (argWu m c) (argBu m c) (argWi m c) (argBi m c) (argW1 m c) (argB1 m c) (argW2 m c) (argB2 m c) := by
  unfold kG
  rw [GK_eq_G _ _ _ _ (argWu m c) (argBu m c) (argWi m c) (argBi m c) (regW1 m c) (argB1 m c) (regW2 m c) (argB2 m c)
    (regEmb m c) (regFeat m c) (regBias m c) (regB1 m c) (regB2 m c)
    (emb_uu m c) (emb_ui m c) (emb_iu m c) (emb_ii m c) (feat_uu m c) (feat_ui m c) (feat_iu m c) (feat_ii m c)
    (bias_u m c) (bias_i m c) (head_b1 m c) (head_b2 m c)]
  rw [V_main_arg2 m c, V_main_arg3 m c, head_W1 m c, head_W2 m c]

end KernelSide

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories agreeing on the arguments both programs run, and both result arrays are the result function G of the
    two look-ups and the arguments. -/
theorem algebraic : Cert.algebraic_KernelIdeal_ReferenceIdeal := by
  intro m ρ m' ρ' _ hagree
  refine ⟨fun c => Cert.KernelIdeal.KerValue.kG m c, Cert.KernelIdeal.KerValue.run m ρ, ?_⟩
  refine (θ_run Cert.ReferenceIdeal.defs _ _).mono (fun _ h c => ⟨(h c).1.trans ?_, (h c).2⟩)
    (Cert.ReferenceIdeal.RefRun.run (F := Ideal) m' ρ')
  obtain ⟨a0, a1, a2, a3, a4, a5, a6, a7, a8, a9, a10, a11, a12, a13⟩ := hagree c
  show _ = Cert.KernelIdeal.KerValue.kG m c
  rw [a0, a1, a2, a3, a4, a5, a6, a7, a8, a9, a10, a11, a12, a13, Cert.ReferenceIdeal.RefTower.val_eq_G,
    kernel_result m c, user_rows m c, item_rows m c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
